-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64 .f32) (main_arg6 : IVec S1600000 32) (main_arg7 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x65 : Shape := ⟨2, ![1600000, 65]⟩
abbrev S100000x65 : Shape := ⟨2, ![100000, 65]⟩
abbrev S100000x1 : Shape := ⟨2, ![100000, 1]⟩
abbrev S1x64 : Shape := ⟨2, ![1, 64]⟩
abbrev S2x8x64 : Shape := ⟨3, ![2, 8, 64]⟩
abbrev S5000x64 : Shape := ⟨2, ![5000, 64]⟩
abbrev S5000x1 : Shape := ⟨2, ![5000, 1]⟩
abbrev S1x8x64 : Shape := ⟨3, ![1, 8, 64]⟩
abbrev S8x64 : Shape := ⟨2, ![8, 64]⟩
abbrev S50000x128 : Shape := ⟨2, ![50000, 128]⟩
abbrev S2x64 : Shape := ⟨2, ![2, 64]⟩
abbrev S128 : Shape := ⟨1, ![128]⟩
abbrev S1x128 : Shape := ⟨2, ![1, 128]⟩
abbrev S5000x128 : Shape := ⟨2, ![5000, 128]⟩

abbrev nBuf : Space → Nat
  | .hbm => 76
  | .vmem => 25
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S1600000x1, .f32⟩
  | .hbm, ⟨19, _⟩ => ⟨S1600000x65, .f32⟩
  | .hbm, ⟨20, _⟩ => ⟨S_, .f32⟩
  | .hbm, ⟨21, _⟩ => ⟨S100000x65, .f32⟩
  | .hbm, ⟨22, _⟩ => ⟨S1600000x1, .i32⟩
  | .hbm, ⟨23, _⟩ => ⟨S100000x65, .f32⟩
  | .hbm, ⟨24, _⟩ => ⟨S100000x64, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .f32⟩
  | .hbm, ⟨32, _⟩ => ⟨S64x64, .f32⟩
  | .hbm, ⟨33, _⟩ => ⟨S64x64, .f32⟩
  | .hbm, ⟨34, _⟩ => ⟨S1x64, .f32⟩
  | .hbm, ⟨35, _⟩ => ⟨S100000x64, .f32⟩
  | .hbm, ⟨36, _⟩ => ⟨S2x8x64, .f32⟩
  | .hbm, ⟨37, _⟩ => ⟨S2x8x64, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S50000x128, .f32⟩
  | .hbm, ⟨58, _⟩ => ⟨S1x64, .f32⟩
  | .hbm, ⟨59, _⟩ => ⟨S2x64, .f32⟩
  | .hbm, ⟨60, _⟩ => ⟨S128, .f32⟩
  | .hbm, ⟨61, _⟩ => ⟨S1x128, .f32⟩
  | .hbm, ⟨62, _⟩ => ⟨S1x64, .f32⟩
  | .hbm, ⟨63, _⟩ => ⟨S2x64, .f32⟩
  | .hbm, ⟨64, _⟩ => ⟨S128, .f32⟩
  | .hbm, ⟨65, _⟩ => ⟨S1x128, .f32⟩
  | .hbm, ⟨66, _⟩ => ⟨S1x64, .f32⟩
  | .hbm, ⟨67, _⟩ => ⟨S2x64, .f32⟩
  | .hbm, ⟨68, _⟩ => ⟨S128, .f32⟩
  | .hbm, ⟨69, _⟩ => ⟨S1x128, .f32⟩
  | .hbm, ⟨70, _⟩ => ⟨S1x64, .f32⟩
  | .hbm, ⟨71, _⟩ => ⟨S2x64, .f32⟩
  | .hbm, ⟨72, _⟩ => ⟨S128, .f32⟩
  | .hbm, ⟨73, _⟩ => ⟨S1x128, .f32⟩
  | .hbm, ⟨74, _⟩ => ⟨S50000x128, .f32⟩
  | .hbm, ⟨75, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S1x8x64, .f32⟩
  | .local _ .vmem, ⟨12, _⟩ => ⟨S1x8x64, .f32⟩
  | .local _ .vmem, ⟨13, _⟩ => ⟨S1x8x64, .f32⟩
  | .local _ .vmem, ⟨14, _⟩ => ⟨S1x8x64, .f32⟩
  | .local _ .vmem, ⟨15, _⟩ => ⟨S8x64, .f32⟩
  | .local _ .vmem, ⟨16, _⟩ => ⟨S8x64, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v49 : BitVec 1 := Scalar.cmpi .eq arg1 c9_i32
  let v50 : BitVec 32 := Scalar.extui v49
  let c0_i32_27 : BitVec 32 := 0#32
  let v51 : BitVec 1 := Scalar.cmpi .ne v50 c0_i32_27
  v51

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  concatenates_S1600000x64_S1600000x1_S1600000x65_d1 : Shape.Concatenates [S1600000x64, S1600000x1] S1600000x65 1
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  bcast_S_S100000x1 : S_.BroadcastsInDim S100000x1 (![] : Fin 0 → Fin S100000x1.rank)
  transposes_S64x64_S64x64_1_0 : S64x64.Transposes [1, 0] S64x64
  shapeCasts_S64_S1x64 : S64.ShapeCasts S1x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  broadcasts_S1x64_S8x64 : S1x64.Broadcasts S8x64
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  shapeCasts_S8x64_S1x8x64 : S8x64.ShapeCasts S1x8x64
  reducesTo_S2x8x64_S64_d0_1 : S2x8x64.ReducesTo [0, 1] S64
  h_S_ : 0 < S_.numel
  bcast_S_S64 : S_.BroadcastsInDim S64 (![] : Fin 0 → Fin S64.rank)
  shapeCasts_S100000x64_S50000x128 : S100000x64.ShapeCasts S50000x128
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  gather_S100000x64_S1600000x1_S1600000x64_1_0_n_n_0_1_164_wf : GatherDims.WF S100000x64 S1600000x1 S1600000x64 [1] [0] [] [0] [] 1 ![1, 64]
  scatter_S100000x65_S1600000x1_S1600000x65_1_0_0_1_wf : ScatterDims.WF S100000x65 S1600000x1 S1600000x65 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x64.size a ≤ S2x8x64.size a
  hwx0_7 : ∀ i : grid0.Coords, EltTy.bits .f32 = 32 ∨ (Rect.block (s := S2x8x64) S1x8x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x64.size a ≤ S2x8x64.size a
  hwx0_8 : ∀ i : grid0.Coords, EltTy.bits .f32 = 32 ∨ (Rect.block (s := S2x8x64) S1x8x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_1) S1x8x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_2) S1x8x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S64x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S64x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_cst : Ref sig .tc := ⟨.hbm, 71, rfl⟩
abbrev main_call0_v0 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.R1Body.lean ====
/- Region 1 (the normalisation and rectifier kernel, pipeline 1) at a parameter V, the TensorCore's buffer
   contents when the region is entered: each window's block at a point, what the body leaves in the output window's
   staging buffer as the canonical contents of its one covering store over the input blocks, the body's triple, the
   pipeline's proof data and the body obligation at every point. -/
import proofs.«158367_j15779709845544_2_alg».proof.Proof.Gen.Kernel.Skeleton
import proofs.«158367_j15779709845544_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (a window fetched
    at the first point only has a constant block index), for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- Window 5's staging buffer after the body, from the input windows' blocks: its one store, over the whole buffer. -/
def out1_5 (x0 : Vec F S5000x128 .f32) (x1 x2 x3 x4 : Vec F S1x128 .f32) : Vec F S5000x128 .f32 :=
  View.canon [⟨r1_0, k1_pay1 (View.ld x0 r1_0) (View.ld x1 r1_1) (View.ld x2 r1_1) (View.ld x3 r1_1) (View.ld x4 r1_1)⟩]

/-- The store's rectangle is the whole buffer, so it covers it. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point `t`
    each input's buffer at its block and the output's at `out1_5` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The windows of pipeline 1 conjoined one by one. -/
theorem bigSep_six {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

/-- The library's body obligation, at every point. -/
theorem body_obligation1 (c : Dev nD) : BodyObligation (dat1 (F := F) V c) (defs₀ (F := F)) Variants.none () Set.univ := fun t => by
  rw [bigSep_six, bigSep_six]
  exact sound_body1 V c t

end Cert.Kernel.Hand

end
-- ==== Proof.K.R0Runs.lean ====
import proofs.«158367_j15779709845544_2_alg».proof.Proof.K.LaunchP
import proofs.«158367_j15779709845544_2_alg».proof.Proof.Gen.Kernel.Skeleton
import proofs.«158367_j15779709845544_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

/-! # Region 0 (the linear layer with its column statistics), at the contents `V` the region finds

The grid is 2 × 10: point `t` is tile `t` of 5000 rows. The body zeroes its two accumulators where the second
coordinate is 0, stores the tile of the output, adds the tile's column sums (scaled by 1/8, on 8 equal rows) to the
accumulators, and copies them out where the second coordinate is 9. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current buffer holds its block at every point, fetched there or not (an unfetched window's
    index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "the second coordinate is 0": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "the second coordinate is 9": the accumulators are copied out. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The memrefs the body is called with -/

/-- One staging buffer of each output window, through which its contents are stated. -/
abbrev VO0_6 : View sig .tc .vmem S5000x64 .f32 := (Memref.whole cc0_stg6_0 : Memref sig .tc .vmem S5000x64 .f32).view
abbrev VO0_7 : View sig .tc .vmem S1x8x64 .f32 := (Memref.whole cc0_stg7_0 : Memref sig .tc .vmem S1x8x64 .f32).view
abbrev VO0_8 : View sig .tc .vmem S1x8x64 .f32 := (Memref.whole cc0_stg8_0 : Memref sig .tc .vmem S1x8x64 .f32).view
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x64 .f32 := win0_8.stage (cfg0.slots t 8)
abbrev hs0_8 (t : Fin cfg0.N) : (ms0_8 t).IsWhole := hstage0_8 ((cfg0.slots t 8).cast nbuf0_8)
/-- The two accumulators: whole scoped buffers of the kernel's own. -/
abbrev scM0_0 : Memref sig .tc .vmem S8x64 .f32 := Memref.whole cc0_scratch0
abbrev scM0_1 : Memref sig .tc .vmem S8x64 .f32 := Memref.whole cc0_scratch1
abbrev VS0_0 : View sig .tc .vmem S8x64 .f32 := scM0_0.view
abbrev VS0_1 : View sig .tc .vmem S8x64 .f32 := scM0_1.view

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f)) ∗ (∃ r, prngReg c r)) := by
  unfold Pipeline.ΦA; rw [scopedRest0_eq]; simp only [scM0_0, scM0_1, owns_whole]; try rfl

end Cert.Kernel.Hand

end
-- ==== Proof.K.R0RunA.lean ====
import proofs.«158367_j15779709845544_2_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

set_option maxHeartbeats 4000000 in
/-- The body of region 0 on whole memrefs where the second grid coordinate is 0 (the accumulators are reset, nothing is copied out): the pieces its stores leave in the tile of the output,
    in the two copied-out windows and in the two accumulators (last first), with the proof that it runs to a continuation
    holding the inputs as they were and each written buffer with those pieces written (the pieces last store first). -/
noncomputable def kernelRun0_A (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : cond0_0 i) (hc1 : ¬cond0_1 i)
    (x0 : Vec F S5000x64 .f32) (x1 : Vec F S5000x64 .f32) (x2 : Vec F S5000x1 .f32) (x3 : Vec F S64x64 .f32) (x4 : Vec F S1x64 .f32) (x5 : Vec F S64x64 .f32) :
    Σ' (L6 : List (View.Piece (Elt F) S5000x64 .f32)) (L7 : List (View.Piece (Elt F) S1x8x64 .f32)) (L8 : List (View.Piece (Elt F) S1x8x64 .f32)) (LS0 : List (View.Piece (Elt F) S8x64 .f32)), { LS1 : List (View.Piece (Elt F) S8x64 .f32) //
      ∀ (xi7 : Vec F S1x8x64 .f32) (xi8 : Vec F S1x8x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.R0RunB.lean ====
import proofs.«158367_j15779709845544_2_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

set_option maxHeartbeats 4000000 in
/-- The body of region 0 on whole memrefs where the second grid coordinate is strictly between 0 and 9 (the accumulators are added to, nothing is copied out): the pieces its stores leave in the tile of the output,
    in the two copied-out windows and in the two accumulators (last first), with the proof that it runs to a continuation
    holding the inputs as they were and each written buffer with those pieces written (the pieces last store first). -/
noncomputable def kernelRun0_B (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : ¬cond0_1 i)
    (x0 : Vec F S5000x64 .f32) (x1 : Vec F S5000x64 .f32) (x2 : Vec F S5000x1 .f32) (x3 : Vec F S64x64 .f32) (x4 : Vec F S1x64 .f32) (x5 : Vec F S64x64 .f32) (xs0 : Vec F S8x64 .f32) (xs1 : Vec F S8x64 .f32) :
    Σ' (L6 : List (View.Piece (Elt F) S5000x64 .f32)) (L7 : List (View.Piece (Elt F) S1x8x64 .f32)) (L8 : List (View.Piece (Elt F) S1x8x64 .f32)) (LS0 : List (View.Piece (Elt F) S8x64 .f32)), { LS1 : List (View.Piece (Elt F) S8x64 .f32) //
      ∀ (xi7 : Vec F S1x8x64 .f32) (xi8 : Vec F S1x8x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.R0RunC.lean ====
import proofs.«158367_j15779709845544_2_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

set_option maxHeartbeats 4000000 in
/-- The body of region 0 on whole memrefs where the second grid coordinate is 9 (the accumulators are added to and copied out): the pieces its stores leave in the tile of the output,
    in the two copied-out windows and in the two accumulators (last first), with the proof that it runs to a continuation
    holding the inputs as they were and each written buffer with those pieces written (the pieces last store first). -/
noncomputable def kernelRun0_C (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : cond0_1 i)
    (x0 : Vec F S5000x64 .f32) (x1 : Vec F S5000x64 .f32) (x2 : Vec F S5000x1 .f32) (x3 : Vec F S64x64 .f32) (x4 : Vec F S1x64 .f32) (x5 : Vec F S64x64 .f32) (xs0 : Vec F S8x64 .f32) (xs1 : Vec F S8x64 .f32) :
    Σ' (L6 : List (View.Piece (Elt F) S5000x64 .f32)) (L7 : List (View.Piece (Elt F) S1x8x64 .f32)) (L8 : List (View.Piece (Elt F) S1x8x64 .f32)) (LS0 : List (View.Piece (Elt F) S8x64 .f32)), { LS1 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.R0Body.lean ====
import proofs.«158367_j15779709845544_2_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

/-! # Region 0: what its buffers hold point by point, the proof data, the body obligation -/

variable (V : (c : Dev nD) → (b : Ref sig .tc) → Buf (Elt F) ((c : Thread nD τ).loc b))

/-- The scoped buffers of the other region, each whole at some contents: they ride through region 0 untouched. -/
abbrev restR (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq' (c : Dev nD) :
    (Pipeline.ΦA spec0 c : sProp 𝕄)
      = iprop(iprop((∃ d, owns (c : Thread nD τ) scM0_0 fullShare d) ∗ (∃ d, owns (c : Thread nD τ) scM0_1 fullShare d) ∗ restR (F := F) c) ∗ (∃ r, prngReg c r)) :=
  PhiA0_eq c

/-! ## The body's run at a grid point, in each of its three cases -/

/-- At a point whose second coordinate is 0. -/
abbrev runA (c : Dev nD) (t : Fin cfg0.N) (h0 : t.val % 10 = 0) (h1 : ¬t.val % 10 = 9) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
/-- At a point whose second coordinate is strictly between 0 and 9, the accumulators at `xs0`, `xs1`. -/
abbrev runB (c : Dev nD) (t : Fin cfg0.N) (h0 : ¬t.val % 10 = 0) (h1 : ¬t.val % 10 = 9) (xs0 xs1 : Vec F S8x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0 xs1
/-- At a point whose second coordinate is 9, the accumulators at `xs0`, `xs1`. -/
abbrev runC (c : Dev nD) (t : Fin cfg0.N) (h0 : ¬t.val % 10 = 0) (h1 : t.val % 10 = 9) (xs0 xs1 : Vec F S8x64 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0 xs1

/-! ## The pieces tile the buffers they are stored into -/

theorem coverA_6 (c : Dev nD) (t : Fin cfg0.N) (h0 : t.val % 10 = 0) (h1 : ¬t.val % 10 = 9) (y : S5000x64.Idx) :
    ∃ pc ∈ (runA V c t h0 h1).1, y ∈ pc.1.set := View.cover_of_tiledL (runA V c t h0 h1).1 S5000x64.size (by sl_kernel_rfl) y
theorem scoverA_0 (c : Dev nD) (t : Fin cfg0.N) (h0 : t.val % 10 = 0) (h1 : ¬t.val % 10 = 9) (y : S8x64.Idx) :
    ∃ pc ∈ (runA V c t h0 h1).2.2.2.1, y ∈ pc.1.set := View.cover_of_tiledL (runA V c t h0 h1).2.2.2.1 S8x64.size (by sl_kernel_rfl) y
theorem scoverA_1 (c : Dev nD) (t : Fin cfg0.N) (h0 : t.val % 10 = 0) (h1 : ¬t.val % 10 = 9) (y : S8x64.Idx) :
    ∃ pc ∈ (runA V c t h0 h1).2.2.2.2.1, y ∈ pc.1.set := View.cover_of_tiledL (runA V c t h0 h1).2.2.2.2.1 S8x64.size (by sl_kernel_rfl) y
theorem coverB_6 (c : Dev nD) (t : Fin cfg0.N) (h0 : ¬t.val % 10 = 0) (h1 : ¬t.val % 10 = 9) (xs0 xs1 : Vec F S8x64 .f32) (y : S5000x64.Idx) :
    ∃ pc ∈ (runB V c t h0 h1 xs0 xs1).1, y ∈ pc.1.set := View.cover_of_tiledL (runB V c t h0 h1 xs0 xs1).1 S5000x64.size (by sl_kernel_rfl) y
theorem scoverB_0 (c : Dev nD) (t : Fin cfg0.N) (h0 : ¬t.val % 10 = 0) (h1 : ¬t.val % 10 = 9) (xs0 xs1 : Vec F S8x64 .f32) (y : S8x64.Idx) :
    ∃ pc ∈ (runB V c t h0 h1 xs0 xs1).2.2.2.1, y ∈ pc.1.set := View.cover_of_tiledL (runB V c t h0 h1 xs0 xs1).2.2.2.1 S8x64.size (by sl_kernel_rfl) y
theorem scoverB_1 (c : Dev nD) (t : Fin cfg0.N) (h0 : ¬t.val % 10 = 0) (h1 : ¬t.val % 10 = 9) (xs0 xs1 : Vec F S8x64 .f32) (y : S8x64.Idx) :
    ∃ pc ∈ (runB V c t h0 h1 xs0 xs1).2.2.2.2.1, y ∈ pc.1.set := View.cover_of_tiledL (runB V c t h0 h1 xs0 xs1).2.2.2.2.1 S8x64.size (by sl_kernel_rfl) y
theorem coverC_6 (c : Dev nD) (t : Fin cfg0.N) (h0 : ¬t.val % 10 = 0) (h1 : t.val % 10 = 9) (xs0 xs1 : Vec F S8x64 .f32) (y : S5000x64.Idx) :
    ∃ pc ∈ (runC V c t h0 h1 xs0 xs1).1, y ∈ pc.1.set := View.cover_of_tiledL (runC V c t h0 h1 xs0 xs1).1 S5000x64.size (by sl_kernel_rfl) y
theorem coverC_7 (c : Dev nD) (t : Fin cfg0.N) (h0 : ¬t.val % 10 = 0) (h1 : t.val % 10 = 9) (xs0 xs1 : Vec F S8x64 .f32) (y : S1x8x64.Idx) :
    ∃ pc ∈ (runC V c t h0 h1 xs0 xs1).2.1, y ∈ pc.1.set := View.cover_of_tiledL (runC V c t h0 h1 xs0 xs1).2.1 S1x8x64.size (by sl_kernel_rfl) y
theorem coverC_8 (c : Dev nD) (t : Fin cfg0.N) (h0 : ¬t.val % 10 = 0) (h1 : t.val % 10 = 9) (xs0 xs1 : Vec F S8x64 .f32) (y : S1x8x64.Idx) :
    ∃ pc ∈ (runC V c t h0 h1 xs0 xs1).2.2.1, y ∈ pc.1.set := View.cover_of_tiledL (runC V c t h0 h1 xs0 xs1).2.2.1 S1x8x64.size (by sl_kernel_rfl) y
theorem scoverC_0 (c : Dev nD) (t : Fin cfg0.N) (h0 : ¬t.val % 10 = 0) (h1 : t.val % 10 = 9) (xs0 xs1 : Vec F S8x64 .f32) (y : S8x64.Idx) :
    ∃ pc ∈ (runC V c t h0 h1 xs0 xs1).2.2.2.1, y ∈ pc.1.set := View.cover_of_tiledL (runC V c t h0 h1 xs0 xs1).2.2.2.1 S8x64.size (by sl_kernel_rfl) y
theorem scoverC_1 (c : Dev nD) (t : Fin cfg0.N) (h0 : ¬t.val % 10 = 0) (h1 : t.val % 10 = 9) (xs0 xs1 : Vec F S8x64 .f32) (y : S8x64.Idx) :
    ∃ pc ∈ (runC V c t h0 h1 xs0 xs1).2.2.2.2.1, y ∈ pc.1.set := View.cover_of_tiledL (runC V c t h0 h1 xs0 xs1).2.2.2.2.1 S8x64.size (by sl_kernel_rfl) y

/-! ## What the five buffers hold after a point -/

/-- The output tile, the two copied-out windows, the two accumulators. -/
abbrev Outs0 (F : FTy → Type) [FloatOps F] : Type :=
  Vec F S5000x64 .f32 × Vec F S1x8x64 .f32 × Vec F S1x8x64 .f32 × Vec F S8x64 .f32 × Vec F S8x64 .f32

/-- The pieces of a case read back over junk (a window the case does not store into reads back junk, which nothing consults:
    it is neither written back nor read there). -/
def outsOf (L6 : List (View.Piece (Elt F) S5000x64 .f32)) (L7 L8 : List (View.Piece (Elt F) S1x8x64 .f32))
    (LS0 LS1 : List (View.Piece (Elt F) S8x64 .f32)) : Outs0 F :=
  (VO0_6.read (Elt F) (VO0_6.writes (Elt F) VO0_6.junk L6), VO0_7.read (Elt F) (VO0_7.writes (Elt F) VO0_7.junk L7),
   VO0_8.read (Elt F) (VO0_8.writes (Elt F) VO0_8.junk L8), VS0_0.read (Elt F) (VS0_0.writes (Elt F) VS0_0.junk LS0),
   VS0_1.read (Elt F) (VS0_1.writes (Elt F) VS0_1.junk LS1))

def outsOfA (c : Dev nD) (t : Fin cfg0.N) (h0 : t.val % 10 = 0) (h1 : ¬t.val % 10 = 9) : Outs0 F :=
  outsOf (runA V c t h0 h1).1 (runA V c t h0 h1).2.1 (runA V c t h0 h1).2.2.1 (runA V c t h0 h1).2.2.2.1 (runA V c t h0 h1).2.2.2.2.1
def outsOfB (c : Dev nD) (t : Fin cfg0.N) (h0 : ¬t.val % 10 = 0) (h1 : ¬t.val % 10 = 9) (xs0 xs1 : Vec F S8x64 .f32) : Outs0 F :=
  outsOf (runB V c t h0 h1 xs0 xs1).1 (runB V c t h0 h1 xs0 xs1).2.1 (runB V c t h0 h1 xs0 xs1).2.2.1 (runB V c t h0 h1 xs0 xs1).2.2.2.1 (runB V c t h0 h1 xs0 xs1).2.2.2.2.1
def outsOfC (c : Dev nD) (t : Fin cfg0.N) (h0 : ¬t.val % 10 = 0) (h1 : t.val % 10 = 9) (xs0 xs1 : Vec F S8x64 .f32) : Outs0 F :=
  outsOf (runC V c t h0 h1 xs0 xs1).1 (runC V c t h0 h1 xs0 xs1).2.1 (runC V c t h0 h1 xs0 xs1).2.2.1 (runC V c t h0 h1 xs0 xs1).2.2.2.1 (runC V c t h0 h1 xs0 xs1).2.2.2.2.1

/-- THE ACCUMULATION: what the five buffers hold after the body at position `n`, by recursion on the position: the case
    the position is in, run on the point's blocks, the accumulators taken at what position `n - 1` left. -/
def outsAt0 (c : Dev nD) : (n : ℕ) → n < cfg0.N → Outs0 F
  | 0, hn => outsOfA V c ⟨0, hn⟩ (Nat.zero_mod _) (show ¬(0 : ℕ) % 10 = 9 by decide)
  | n + 1, hn =>
    if h0 : (n + 1) % 10 = 0 then
      if h1 : (n + 1) % 10 = 9 then False.elim (by omega)
      else outsOfA V c ⟨n + 1, hn⟩ h0 h1
    else
      if h1 : (n + 1) % 10 = 9 then
        outsOfC V c ⟨n + 1, hn⟩ h0 h1 (outsAt0 c n (Nat.lt_of_succ_lt hn)).2.2.2.1 (outsAt0 c n (Nat.lt_of_succ_lt hn)).2.2.2.2
      else
        outsOfB V c ⟨n + 1, hn⟩ h0 h1 (outsAt0 c n (Nat.lt_of_succ_lt hn)).2.2.2.1 (outsAt0 c n (Nat.lt_of_succ_lt hn)).2.2.2.2

theorem outsAt0_A (c : Dev nD) (t : Fin cfg0.N) (h0 : t.val % 10 = 0) (h1 : ¬t.val % 10 = 9) :
    outsAt0 V c t.val t.isLt = outsOfA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = outsOfB V c t h0 h1 (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = outsOfC V c t h0 h1 (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restR (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restR (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restR (F := F) c) ∗ (∃ r, prngReg c r)) := by
  cases n with
  | zero => exact absurd rfl hz
  | succ n => rfl

/-! ## The proof data -/

/-- The arrays as the region finds them; after the body at point `t` each input's buffer at its block and the three
    outputs' at `outsAt0`; the invariant tracks the accumulators; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any point: the point's second coordinate says which case it is in; the invariant hands the body the
    accumulators at what the point before left (at anything at the first point) and takes them back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  by_cases h0 : t.val % 10 = 0
  · by_cases h1 : t.val % 10 = 9
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_A V c t h0 h1]
      unfold outsOfA outsOf; (try dsimp only)
      by_cases hz : t.val = 0
      ·
        rw [PhiS_castSucc V c t, PhiS_zero V c _ _ hz, PhiA0_eq']
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runA V c t h0 h1).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverA_6 V c t h0 h1)
        isplitl [H7]; · iexists _; iexact H7
        iexists _; iexact H8
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runA V c t h0 h1).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverA_6 V c t h0 h1)
        isplitl [H7]; · iexists _; iexact H7
        iexists _; iexact H8
  · by_cases h1 : t.val % 10 = 9
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold outsOfC outsOf; (try dsimp only)
      have hz : t.val ≠ 0 := by omega
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runC V c t h0 h1 _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverC_0 V c t h0 h1 _ _)
            isplitl [HS1]
            · unfold owns; iexists _; isplitr
              swap; · iexact HS1
              ipureintro; exact View.read_writes_of_cover _ _ _ _ _ (scoverC_1 V c t h0 h1 _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverC_6 V c t h0 h1 _ _)
        isplitl [H7]
        · unfold owns; iexists _; isplitr
          swap; · iexact H7
          ipureintro; exact View.read_writes_of_cover _ _ _ _ _ (coverC_7 V c t h0 h1 _ _)
        unfold owns; iexists _; isplitr
        swap; · iexact H8
        ipureintro; exact View.read_writes_of_cover _ _ _ _ _ (coverC_8 V c t h0 h1 _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold outsOfB outsOf; (try dsimp only)
      have hz : t.val ≠ 0 := by omega
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runB V c t h0 h1 _ _).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverB_0 V c t h0 h1 _ _)
            isplitl [HS1]
            · unfold owns; iexists _; isplitr
              swap; · iexact HS1
              ipureintro; exact View.read_writes_of_cover _ _ _ _ _ (scoverB_1 V c t h0 h1 _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverB_6 V c t h0 h1 _ _)
        isplitl [H7]; · iexists _; iexact H7
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA0_eq']
  iintro ⟨⟨HS0, HS1, HR⟩, Hg⟩
  isplitl [HS0 HS1 HR]
  · isplitl [HS0]; · iexists _; iexact HS0
    isplitl [HS1]; · iexists _; iexact HS1
    iexact HR
  iexact Hg

end Cert.Kernel.Hand

end
-- ==== Proof.K.Run.lean ====
/- The run of @main: five segments (a stretch of host operations, region 0, a stretch, region 1, a stretch) from the
   launch to the return. The buffer contents at the six boundaries as a fold from the launch memory, each argument
   array read back through the fold to its launch contents, every pipeline's proof data at its region's entry
   contents, and the two statements: every final state holds the last boundary's contents at every unscoped buffer,
   and (from it) the argument arrays end as launched. -/
import proofs.«158367_j15779709845544_2_alg».proof.Proof.K.LaunchP
import proofs.«158367_j15779709845544_2_alg».proof.Proof.K.R1Body
import proofs.«158367_j15779709845544_2_alg».proof.Proof.K.R0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_c, main_v0, main_v1, main_c_0, main_v2, main_v3, main_v4, main_v5, main_v6, main_cst, main_v7, main_v8, main_cst_1, main_v9, main_v10, main_v11, main_v12, main_v13, main_cst_2, main_v14, main_v15, main_cst_3, main_v16, main_v17, main_v18, main_v19, main_v20]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_cst_4, main_v22, main_cst_5, main_v23, main_cst_6, main_v24, main_v25, main_cst_7, main_v26, main_v27, main_v28, main_v29, main_cst_8, main_v30, main_v31, main_cst_9, main_v32, main_v33, main_v34, main_v35, main_v36, main_v37, main_v38, main_v39, main_v40, main_v41, main_v42, main_v43, main_v44, main_v45, main_v46, main_v47, main_v48, main_v49, main_v50, main_v51]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v53]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The buffer contents at each segment boundary: a fold through @main -/

/-- Core `c`'s buffers at launch. -/
abbrev W0 : Dev nD → Valuation τ sig (Elt F) := fun c b => (s₀ m ρ).mem ((c : Dev nD), b)
/-- After `hostOps0` (region 0's entry). -/
def W1 : Dev nD → Valuation τ sig (Elt F) := fun c => StableHlo.after hostOps0 (W0 m ρ c)
theorem W1_eq (c : Dev nD) : W1 m ρ c = StableHlo.after hostOps0 (W0 m ρ c) := rfl
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_eq (c : Dev nD) : W2 m ρ c = Pipeline.withArrays spec0 c (W1 m ρ c) fun w => (dat0 (V1 m ρ) c).arrAt w cfg0.N := rfl
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
def W3 : Dev nD → Valuation τ sig (Elt F) := fun c => StableHlo.after hostOps1 (W2 m ρ c)
theorem W3_eq (c : Dev nD) : W3 m ρ c = StableHlo.after hostOps1 (W2 m ρ c) := rfl
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_eq (c : Dev nD) : W4 m ρ c = Pipeline.withArrays spec1 c (W3 m ρ c) fun w => (dat1 (V3 m ρ) c).arrAt w cfg1.N := rfl
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (the return). -/
def W5 : Dev nD → Valuation τ sig (Elt F) := fun c => StableHlo.after hostOps2 (W4 m ρ c)
theorem W5_eq (c : Dev nD) : W5 m ρ c = StableHlo.after hostOps2 (W4 m ρ c) := rfl
/-- The result buffer at the return is what the last stretch computes from region 1's exit contents. -/
theorem result_read (c : Dev nD) : W5 m ρ c (Proc.devRef .tc main_v53) = StableHlo.after hostOps2 (W4 m ρ c) (Proc.devRef .tc main_v53) := rfl

/-! A buffer no operation of a stretch writes keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! ### The arguments end as launched: no host operation and no region writes one (region 0 reads `main_arg0` through
    an input window), so the fold at an argument's buffer walks back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal `match`. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W5`, the
    generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 over the thread state: entered from every unscoped buffer at `W1`, left at `W2`. Its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (V1 m ρ) c
    iintro ⟨Hp, -, Hr⟩
    iapply h
    unfold Pipeline.ΦA
    isplitl [Hr]; · iexact Hr
    iexact Hp
  hout c := by
    rw [Pipeline.ownSems0_none]
    have h : (pdats m ρ 0 c).Φ (Fin.last _) ⊢ (Pipeline.ΦA spec0 c : sProp 𝕄) := hout0 (V1 m ρ) c
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact h.trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays split
    out of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments. -/
theorem main_run (c : Dev nD) : main (F := F) c = Pipeline.Seg.run (segs m ρ) :=
  main_segs adm (pdats m ρ) () 𝒱₀ L lv _ _ _ (reg0 m ρ) (reg1 m ρ) rfl rfl rfl c

set_option backward.isDefEq.respectTransparency.types false in
/-- THE RUN: at the compiled mesh, from any memory with zero counters, every weakly fair execution of @main on the
    TensorCores terminates, nothing faulting, and every final state holds, at every unscoped buffer of every core, the
    last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution of @main terminates, nothing faulting, and every final state has the
    argument arrays as launched: each argument read off `run_all` through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩) (run_all m ρ)

end Cert.Kernel.Hand

end
-- ==== Proof.KI.R1Body.lean ====
/- Region 1 (the normalisation and rectifier kernel, pipeline 1) at a parameter V, the TensorCore's buffer
   contents when the region is entered: each window's block at a point, what the body leaves in the output window's
   staging buffer as the canonical contents of its one covering store over the input blocks, the body's triple, the
   pipeline's proof data and the body obligation at every point. -/
import proofs.«158367_j15779709845544_2_alg».proof.Proof.Gen.KernelIdeal.Skeleton
import proofs.«158367_j15779709845544_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (a window fetched
    at the first point only has a constant block index), for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- Window 5's staging buffer after the body, from the input windows' blocks: its one store, over the whole buffer. -/
def out1_5 (x0 : Vec F S5000x128 .f32) (x1 x2 x3 x4 : Vec F S1x128 .f32) : Vec F S5000x128 .f32 :=
  View.canon [⟨r1_0, k1_pay1 (View.ld x0 r1_0) (View.ld x1 r1_1) (View.ld x2 r1_1) (View.ld x3 r1_1) (View.ld x4 r1_1)⟩]

/-- The store's rectangle is the whole buffer, so it covers it. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point `t`
    each input's buffer at its block and the output's at `out1_5` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The windows of pipeline 1 conjoined one by one. -/
theorem bigSep_six {M : Type} [URA M] (Φ : Fin 6 → sProp M) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

/-- The library's body obligation, at every point. -/
theorem body_obligation1 (c : Dev nD) : BodyObligation (dat1 (F := F) V c) (defs₀ (F := F)) Variants.none () Set.univ := fun t => by
  rw [bigSep_six, bigSep_six]
  exact sound_body1 V c t

end Cert.KernelIdeal.Hand

end
-- ==== Proof.KI.R0Runs.lean ====
import proofs.«158367_j15779709845544_2_alg».proof.Proof.KI.LaunchP
import proofs.«158367_j15779709845544_2_alg».proof.Proof.Gen.KernelIdeal.Skeleton
import proofs.«158367_j15779709845544_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-! # Region 0 (the linear layer with its column statistics), at the contents `V` the region finds

The grid is 2 × 10: point `t` is tile `t` of 5000 rows. The body zeroes its two accumulators where the second
coordinate is 0, stores the tile of the output, adds the tile's column sums (scaled by 1/8, on 8 equal rows) to the
accumulators, and copies them out where the second coordinate is 9. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current buffer holds its block at every point, fetched there or not (an unfetched window's
    index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "the second coordinate is 0": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "the second coordinate is 9": the accumulators are copied out. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The memrefs the body is called with -/

/-- One staging buffer of each output window, through which its contents are stated. -/
abbrev VO0_6 : View sig .tc .vmem S5000x64 .f32 := (Memref.whole cc0_stg6_0 : Memref sig .tc .vmem S5000x64 .f32).view
abbrev VO0_7 : View sig .tc .vmem S1x8x64 .f32 := (Memref.whole cc0_stg7_0 : Memref sig .tc .vmem S1x8x64 .f32).view
abbrev VO0_8 : View sig .tc .vmem S1x8x64 .f32 := (Memref.whole cc0_stg8_0 : Memref sig .tc .vmem S1x8x64 .f32).view
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x64 .f32 := win0_8.stage (cfg0.slots t 8)
abbrev hs0_8 (t : Fin cfg0.N) : (ms0_8 t).IsWhole := hstage0_8 ((cfg0.slots t 8).cast nbuf0_8)
/-- The two accumulators: whole scoped buffers of the kernel's own. -/
abbrev scM0_0 : Memref sig .tc .vmem S8x64 .f32 := Memref.whole cc0_scratch0
abbrev scM0_1 : Memref sig .tc .vmem S8x64 .f32 := Memref.whole cc0_scratch1
abbrev VS0_0 : View sig .tc .vmem S8x64 .f32 := scM0_0.view
abbrev VS0_1 : View sig .tc .vmem S8x64 .f32 := scM0_1.view

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f)) ∗ (∃ r, prngReg c r)) := by
  unfold Pipeline.ΦA; rw [scopedRest0_eq]; simp only [scM0_0, scM0_1, owns_whole]; try rfl

end Cert.KernelIdeal.Hand

end
-- ==== Proof.KI.R0RunA.lean ====
import proofs.«158367_j15779709845544_2_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

set_option maxHeartbeats 4000000 in
/-- The body of region 0 on whole memrefs where the second grid coordinate is 0 (the accumulators are reset, nothing is copied out): the pieces its stores leave in the tile of the output,
    in the two copied-out windows and in the two accumulators (last first), with the proof that it runs to a continuation
    holding the inputs as they were and each written buffer with those pieces written (the pieces last store first). -/
noncomputable def kernelRun0_A (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : cond0_0 i) (hc1 : ¬cond0_1 i)
    (x0 : Vec F S5000x64 .f32) (x1 : Vec F S5000x64 .f32) (x2 : Vec F S5000x1 .f32) (x3 : Vec F S64x64 .f32) (x4 : Vec F S1x64 .f32) (x5 : Vec F S64x64 .f32) :
    Σ' (L6 : List (View.Piece (Elt F) S5000x64 .f32)) (L7 : List (View.Piece (Elt F) S1x8x64 .f32)) (L8 : List (View.Piece (Elt F) S1x8x64 .f32)) (LS0 : List (View.Piece (Elt F) S8x64 .f32)), { LS1 : List (View.Piece (Elt F) S8x64 .f32) //
      ∀ (xi7 : Vec F S1x8x64 .f32) (xi8 : Vec F S1x8x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.R0RunB.lean ====
import proofs.«158367_j15779709845544_2_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

set_option maxHeartbeats 4000000 in
/-- The body of region 0 on whole memrefs where the second grid coordinate is strictly between 0 and 9 (the accumulators are added to, nothing is copied out): the pieces its stores leave in the tile of the output,
    in the two copied-out windows and in the two accumulators (last first), with the proof that it runs to a continuation
    holding the inputs as they were and each written buffer with those pieces written (the pieces last store first). -/
noncomputable def kernelRun0_B (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : ¬cond0_1 i)
    (x0 : Vec F S5000x64 .f32) (x1 : Vec F S5000x64 .f32) (x2 : Vec F S5000x1 .f32) (x3 : Vec F S64x64 .f32) (x4 : Vec F S1x64 .f32) (x5 : Vec F S64x64 .f32) (xs0 : Vec F S8x64 .f32) (xs1 : Vec F S8x64 .f32) :
    Σ' (L6 : List (View.Piece (Elt F) S5000x64 .f32)) (L7 : List (View.Piece (Elt F) S1x8x64 .f32)) (L8 : List (View.Piece (Elt F) S1x8x64 .f32)) (LS0 : List (View.Piece (Elt F) S8x64 .f32)), { LS1 : List (View.Piece (Elt F) S8x64 .f32) //
      ∀ (xi7 : Vec F S1x8x64 .f32) (xi8 : Vec F S1x8x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.R0RunC.lean ====
import proofs.«158367_j15779709845544_2_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

set_option maxHeartbeats 4000000 in
/-- The body of region 0 on whole memrefs where the second grid coordinate is 9 (the accumulators are added to and copied out): the pieces its stores leave in the tile of the output,
    in the two copied-out windows and in the two accumulators (last first), with the proof that it runs to a continuation
    holding the inputs as they were and each written buffer with those pieces written (the pieces last store first). -/
noncomputable def kernelRun0_C (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : cond0_1 i)
    (x0 : Vec F S5000x64 .f32) (x1 : Vec F S5000x64 .f32) (x2 : Vec F S5000x1 .f32) (x3 : Vec F S64x64 .f32) (x4 : Vec F S1x64 .f32) (x5 : Vec F S64x64 .f32) (xs0 : Vec F S8x64 .f32) (xs1 : Vec F S8x64 .f32) :
    Σ' (L6 : List (View.Piece (Elt F) S5000x64 .f32)) (L7 : List (View.Piece (Elt F) S1x8x64 .f32)) (L8 : List (View.Piece (Elt F) S1x8x64 .f32)) (LS0 : List (View.Piece (Elt F) S8x64 .f32)), { LS1 : List (View.Piece (Elt F) S8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.R0Body.lean ====
import proofs.«158367_j15779709845544_2_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-! # Region 0: what its buffers hold point by point, the proof data, the body obligation -/

variable (V : (c : Dev nD) → (b : Ref sig .tc) → Buf (Elt F) ((c : Thread nD τ).loc b))

/-- The scoped buffers of the other region, each whole at some contents: they ride through region 0 untouched. -/
abbrev restR (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq' (c : Dev nD) :
    (Pipeline.ΦA spec0 c : sProp 𝕄)
      = iprop(iprop((∃ d, owns (c : Thread nD τ) scM0_0 fullShare d) ∗ (∃ d, owns (c : Thread nD τ) scM0_1 fullShare d) ∗ restR (F := F) c) ∗ (∃ r, prngReg c r)) :=
  PhiA0_eq c

/-! ## The body's run at a grid point, in each of its three cases -/

/-- At a point whose second coordinate is 0. -/
abbrev runA (c : Dev nD) (t : Fin cfg0.N) (h0 : t.val % 10 = 0) (h1 : ¬t.val % 10 = 9) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
/-- At a point whose second coordinate is strictly between 0 and 9, the accumulators at `xs0`, `xs1`. -/
abbrev runB (c : Dev nD) (t : Fin cfg0.N) (h0 : ¬t.val % 10 = 0) (h1 : ¬t.val % 10 = 9) (xs0 xs1 : Vec F S8x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0 xs1
/-- At a point whose second coordinate is 9, the accumulators at `xs0`, `xs1`. -/
abbrev runC (c : Dev nD) (t : Fin cfg0.N) (h0 : ¬t.val % 10 = 0) (h1 : t.val % 10 = 9) (xs0 xs1 : Vec F S8x64 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0 xs1

/-! ## The pieces tile the buffers they are stored into -/

theorem coverA_6 (c : Dev nD) (t : Fin cfg0.N) (h0 : t.val % 10 = 0) (h1 : ¬t.val % 10 = 9) (y : S5000x64.Idx) :
    ∃ pc ∈ (runA V c t h0 h1).1, y ∈ pc.1.set := View.cover_of_tiledL (runA V c t h0 h1).1 S5000x64.size (by sl_kernel_rfl) y
theorem scoverA_0 (c : Dev nD) (t : Fin cfg0.N) (h0 : t.val % 10 = 0) (h1 : ¬t.val % 10 = 9) (y : S8x64.Idx) :
    ∃ pc ∈ (runA V c t h0 h1).2.2.2.1, y ∈ pc.1.set := View.cover_of_tiledL (runA V c t h0 h1).2.2.2.1 S8x64.size (by sl_kernel_rfl) y
theorem scoverA_1 (c : Dev nD) (t : Fin cfg0.N) (h0 : t.val % 10 = 0) (h1 : ¬t.val % 10 = 9) (y : S8x64.Idx) :
    ∃ pc ∈ (runA V c t h0 h1).2.2.2.2.1, y ∈ pc.1.set := View.cover_of_tiledL (runA V c t h0 h1).2.2.2.2.1 S8x64.size (by sl_kernel_rfl) y
theorem coverB_6 (c : Dev nD) (t : Fin cfg0.N) (h0 : ¬t.val % 10 = 0) (h1 : ¬t.val % 10 = 9) (xs0 xs1 : Vec F S8x64 .f32) (y : S5000x64.Idx) :
    ∃ pc ∈ (runB V c t h0 h1 xs0 xs1).1, y ∈ pc.1.set := View.cover_of_tiledL (runB V c t h0 h1 xs0 xs1).1 S5000x64.size (by sl_kernel_rfl) y
theorem scoverB_0 (c : Dev nD) (t : Fin cfg0.N) (h0 : ¬t.val % 10 = 0) (h1 : ¬t.val % 10 = 9) (xs0 xs1 : Vec F S8x64 .f32) (y : S8x64.Idx) :
    ∃ pc ∈ (runB V c t h0 h1 xs0 xs1).2.2.2.1, y ∈ pc.1.set := View.cover_of_tiledL (runB V c t h0 h1 xs0 xs1).2.2.2.1 S8x64.size (by sl_kernel_rfl) y
theorem scoverB_1 (c : Dev nD) (t : Fin cfg0.N) (h0 : ¬t.val % 10 = 0) (h1 : ¬t.val % 10 = 9) (xs0 xs1 : Vec F S8x64 .f32) (y : S8x64.Idx) :
    ∃ pc ∈ (runB V c t h0 h1 xs0 xs1).2.2.2.2.1, y ∈ pc.1.set := View.cover_of_tiledL (runB V c t h0 h1 xs0 xs1).2.2.2.2.1 S8x64.size (by sl_kernel_rfl) y
theorem coverC_6 (c : Dev nD) (t : Fin cfg0.N) (h0 : ¬t.val % 10 = 0) (h1 : t.val % 10 = 9) (xs0 xs1 : Vec F S8x64 .f32) (y : S5000x64.Idx) :
    ∃ pc ∈ (runC V c t h0 h1 xs0 xs1).1, y ∈ pc.1.set := View.cover_of_tiledL (runC V c t h0 h1 xs0 xs1).1 S5000x64.size (by sl_kernel_rfl) y
theorem coverC_7 (c : Dev nD) (t : Fin cfg0.N) (h0 : ¬t.val % 10 = 0) (h1 : t.val % 10 = 9) (xs0 xs1 : Vec F S8x64 .f32) (y : S1x8x64.Idx) :
    ∃ pc ∈ (runC V c t h0 h1 xs0 xs1).2.1, y ∈ pc.1.set := View.cover_of_tiledL (runC V c t h0 h1 xs0 xs1).2.1 S1x8x64.size (by sl_kernel_rfl) y
theorem coverC_8 (c : Dev nD) (t : Fin cfg0.N) (h0 : ¬t.val % 10 = 0) (h1 : t.val % 10 = 9) (xs0 xs1 : Vec F S8x64 .f32) (y : S1x8x64.Idx) :
    ∃ pc ∈ (runC V c t h0 h1 xs0 xs1).2.2.1, y ∈ pc.1.set := View.cover_of_tiledL (runC V c t h0 h1 xs0 xs1).2.2.1 S1x8x64.size (by sl_kernel_rfl) y
theorem scoverC_0 (c : Dev nD) (t : Fin cfg0.N) (h0 : ¬t.val % 10 = 0) (h1 : t.val % 10 = 9) (xs0 xs1 : Vec F S8x64 .f32) (y : S8x64.Idx) :
    ∃ pc ∈ (runC V c t h0 h1 xs0 xs1).2.2.2.1, y ∈ pc.1.set := View.cover_of_tiledL (runC V c t h0 h1 xs0 xs1).2.2.2.1 S8x64.size (by sl_kernel_rfl) y
theorem scoverC_1 (c : Dev nD) (t : Fin cfg0.N) (h0 : ¬t.val % 10 = 0) (h1 : t.val % 10 = 9) (xs0 xs1 : Vec F S8x64 .f32) (y : S8x64.Idx) :
    ∃ pc ∈ (runC V c t h0 h1 xs0 xs1).2.2.2.2.1, y ∈ pc.1.set := View.cover_of_tiledL (runC V c t h0 h1 xs0 xs1).2.2.2.2.1 S8x64.size (by sl_kernel_rfl) y

/-! ## What the five buffers hold after a point -/

/-- The output tile, the two copied-out windows, the two accumulators. -/
abbrev Outs0 (F : FTy → Type) [FloatOps F] : Type :=
  Vec F S5000x64 .f32 × Vec F S1x8x64 .f32 × Vec F S1x8x64 .f32 × Vec F S8x64 .f32 × Vec F S8x64 .f32

/-- The pieces of a case read back over junk (a window the case does not store into reads back junk, which nothing consults:
    it is neither written back nor read there). -/
def outsOf (L6 : List (View.Piece (Elt F) S5000x64 .f32)) (L7 L8 : List (View.Piece (Elt F) S1x8x64 .f32))
    (LS0 LS1 : List (View.Piece (Elt F) S8x64 .f32)) : Outs0 F :=
  (VO0_6.read (Elt F) (VO0_6.writes (Elt F) VO0_6.junk L6), VO0_7.read (Elt F) (VO0_7.writes (Elt F) VO0_7.junk L7),
   VO0_8.read (Elt F) (VO0_8.writes (Elt F) VO0_8.junk L8), VS0_0.read (Elt F) (VS0_0.writes (Elt F) VS0_0.junk LS0),
   VS0_1.read (Elt F) (VS0_1.writes (Elt F) VS0_1.junk LS1))

def outsOfA (c : Dev nD) (t : Fin cfg0.N) (h0 : t.val % 10 = 0) (h1 : ¬t.val % 10 = 9) : Outs0 F :=
  outsOf (runA V c t h0 h1).1 (runA V c t h0 h1).2.1 (runA V c t h0 h1).2.2.1 (runA V c t h0 h1).2.2.2.1 (runA V c t h0 h1).2.2.2.2.1
def outsOfB (c : Dev nD) (t : Fin cfg0.N) (h0 : ¬t.val % 10 = 0) (h1 : ¬t.val % 10 = 9) (xs0 xs1 : Vec F S8x64 .f32) : Outs0 F :=
  outsOf (runB V c t h0 h1 xs0 xs1).1 (runB V c t h0 h1 xs0 xs1).2.1 (runB V c t h0 h1 xs0 xs1).2.2.1 (runB V c t h0 h1 xs0 xs1).2.2.2.1 (runB V c t h0 h1 xs0 xs1).2.2.2.2.1
def outsOfC (c : Dev nD) (t : Fin cfg0.N) (h0 : ¬t.val % 10 = 0) (h1 : t.val % 10 = 9) (xs0 xs1 : Vec F S8x64 .f32) : Outs0 F :=
  outsOf (runC V c t h0 h1 xs0 xs1).1 (runC V c t h0 h1 xs0 xs1).2.1 (runC V c t h0 h1 xs0 xs1).2.2.1 (runC V c t h0 h1 xs0 xs1).2.2.2.1 (runC V c t h0 h1 xs0 xs1).2.2.2.2.1

/-- THE ACCUMULATION: what the five buffers hold after the body at position `n`, by recursion on the position: the case
    the position is in, run on the point's blocks, the accumulators taken at what position `n - 1` left. -/
def outsAt0 (c : Dev nD) : (n : ℕ) → n < cfg0.N → Outs0 F
  | 0, hn => outsOfA V c ⟨0, hn⟩ (Nat.zero_mod _) (show ¬(0 : ℕ) % 10 = 9 by decide)
  | n + 1, hn =>
    if h0 : (n + 1) % 10 = 0 then
      if h1 : (n + 1) % 10 = 9 then False.elim (by omega)
      else outsOfA V c ⟨n + 1, hn⟩ h0 h1
    else
      if h1 : (n + 1) % 10 = 9 then
        outsOfC V c ⟨n + 1, hn⟩ h0 h1 (outsAt0 c n (Nat.lt_of_succ_lt hn)).2.2.2.1 (outsAt0 c n (Nat.lt_of_succ_lt hn)).2.2.2.2
      else
        outsOfB V c ⟨n + 1, hn⟩ h0 h1 (outsAt0 c n (Nat.lt_of_succ_lt hn)).2.2.2.1 (outsAt0 c n (Nat.lt_of_succ_lt hn)).2.2.2.2

theorem outsAt0_A (c : Dev nD) (t : Fin cfg0.N) (h0 : t.val % 10 = 0) (h1 : ¬t.val % 10 = 9) :
    outsAt0 V c t.val t.isLt = outsOfA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = outsOfB V c t h0 h1 (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = outsOfC V c t h0 h1 (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restR (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restR (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restR (F := F) c) ∗ (∃ r, prngReg c r)) := by
  cases n with
  | zero => exact absurd rfl hz
  | succ n => rfl

/-! ## The proof data -/

/-- The arrays as the region finds them; after the body at point `t` each input's buffer at its block and the three
    outputs' at `outsAt0`; the invariant tracks the accumulators; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any point: the point's second coordinate says which case it is in; the invariant hands the body the
    accumulators at what the point before left (at anything at the first point) and takes them back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  by_cases h0 : t.val % 10 = 0
  · by_cases h1 : t.val % 10 = 9
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_A V c t h0 h1]
      unfold outsOfA outsOf; (try dsimp only)
      by_cases hz : t.val = 0
      ·
        rw [PhiS_castSucc V c t, PhiS_zero V c _ _ hz, PhiA0_eq']
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runA V c t h0 h1).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverA_6 V c t h0 h1)
        isplitl [H7]; · iexists _; iexact H7
        iexists _; iexact H8
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runA V c t h0 h1).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverA_6 V c t h0 h1)
        isplitl [H7]; · iexists _; iexact H7
        iexists _; iexact H8
  · by_cases h1 : t.val % 10 = 9
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold outsOfC outsOf; (try dsimp only)
      have hz : t.val ≠ 0 := by omega
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runC V c t h0 h1 _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverC_0 V c t h0 h1 _ _)
            isplitl [HS1]
            · unfold owns; iexists _; isplitr
              swap; · iexact HS1
              ipureintro; exact View.read_writes_of_cover _ _ _ _ _ (scoverC_1 V c t h0 h1 _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverC_6 V c t h0 h1 _ _)
        isplitl [H7]
        · unfold owns; iexists _; isplitr
          swap; · iexact H7
          ipureintro; exact View.read_writes_of_cover _ _ _ _ _ (coverC_7 V c t h0 h1 _ _)
        unfold owns; iexists _; isplitr
        swap; · iexact H8
        ipureintro; exact View.read_writes_of_cover _ _ _ _ _ (coverC_8 V c t h0 h1 _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold outsOfB outsOf; (try dsimp only)
      have hz : t.val ≠ 0 := by omega
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runB V c t h0 h1 _ _).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverB_0 V c t h0 h1 _ _)
            isplitl [HS1]
            · unfold owns; iexists _; isplitr
              swap; · iexact HS1
              ipureintro; exact View.read_writes_of_cover _ _ _ _ _ (scoverB_1 V c t h0 h1 _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (coverB_6 V c t h0 h1 _ _)
        isplitl [H7]; · iexists _; iexact H7
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA0_eq']
  iintro ⟨⟨HS0, HS1, HR⟩, Hg⟩
  isplitl [HS0 HS1 HR]
  · isplitl [HS0]; · iexists _; iexact HS0
    isplitl [HS1]; · iexists _; iexact HS1
    iexact HR
  iexact Hg

end Cert.KernelIdeal.Hand

end
-- ==== Proof.KI.Run.lean ====
/- The run of @main: five segments (a stretch of host operations, region 0, a stretch, region 1, a stretch) from the
   launch to the return. The buffer contents at the six boundaries as a fold from the launch memory, each argument
   array read back through the fold to its launch contents, every pipeline's proof data at its region's entry
   contents, and the two statements: every final state holds the last boundary's contents at every unscoped buffer,
   and (from it) the argument arrays end as launched. -/
import proofs.«158367_j15779709845544_2_alg».proof.Proof.KI.LaunchP
import proofs.«158367_j15779709845544_2_alg».proof.Proof.KI.R1Body
import proofs.«158367_j15779709845544_2_alg».proof.Proof.KI.R0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_c, main_v0, main_v1, main_c_0, main_v2, main_v3, main_v4, main_v5, main_v6, main_cst, main_v7, main_v8, main_cst_1, main_v9, main_v10, main_v11, main_v12, main_v13, main_cst_2, main_v14, main_v15, main_cst_3, main_v16, main_v17, main_v18, main_v19, main_v20]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_cst_4, main_v22, main_cst_5, main_v23, main_cst_6, main_v24, main_v25, main_cst_7, main_v26, main_v27, main_v28, main_v29, main_cst_8, main_v30, main_v31, main_cst_9, main_v32, main_v33, main_v34, main_v35, main_v36, main_v37, main_v38, main_v39, main_v40, main_v41, main_v42, main_v43, main_v44, main_v45, main_v46, main_v47, main_v48, main_v49, main_v50, main_v51]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v53]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The buffer contents at each segment boundary: a fold through @main -/

/-- Core `c`'s buffers at launch. -/
abbrev W0 : Dev nD → Valuation τ sig (Elt F) := fun c b => (s₀ m ρ).mem ((c : Dev nD), b)
/-- After `hostOps0` (region 0's entry). -/
def W1 : Dev nD → Valuation τ sig (Elt F) := fun c => StableHlo.after hostOps0 (W0 m ρ c)
theorem W1_eq (c : Dev nD) : W1 m ρ c = StableHlo.after hostOps0 (W0 m ρ c) := rfl
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_eq (c : Dev nD) : W2 m ρ c = Pipeline.withArrays spec0 c (W1 m ρ c) fun w => (dat0 (V1 m ρ) c).arrAt w cfg0.N := rfl
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
def W3 : Dev nD → Valuation τ sig (Elt F) := fun c => StableHlo.after hostOps1 (W2 m ρ c)
theorem W3_eq (c : Dev nD) : W3 m ρ c = StableHlo.after hostOps1 (W2 m ρ c) := rfl
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_eq (c : Dev nD) : W4 m ρ c = Pipeline.withArrays spec1 c (W3 m ρ c) fun w => (dat1 (V3 m ρ) c).arrAt w cfg1.N := rfl
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (the return). -/
def W5 : Dev nD → Valuation τ sig (Elt F) := fun c => StableHlo.after hostOps2 (W4 m ρ c)
theorem W5_eq (c : Dev nD) : W5 m ρ c = StableHlo.after hostOps2 (W4 m ρ c) := rfl
/-- The result buffer at the return is what the last stretch computes from region 1's exit contents. -/
theorem result_read (c : Dev nD) : W5 m ρ c (Proc.devRef .tc main_v53) = StableHlo.after hostOps2 (W4 m ρ c) (Proc.devRef .tc main_v53) := rfl

/-! A buffer no operation of a stretch writes keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! ### The arguments end as launched: no host operation and no region writes one (region 0 reads `main_arg0` through
    an input window), so the fold at an argument's buffer walks back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal `match`. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W5`, the
    generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 over the thread state: entered from every unscoped buffer at `W1`, left at `W2`. Its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (V1 m ρ) c
    iintro ⟨Hp, -, Hr⟩
    iapply h
    unfold Pipeline.ΦA
    isplitl [Hr]; · iexact Hr
    iexact Hp
  hout c := by
    rw [Pipeline.ownSems0_none]
    have h : (pdats m ρ 0 c).Φ (Fin.last _) ⊢ (Pipeline.ΦA spec0 c : sProp 𝕄) := hout0 (V1 m ρ) c
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact h.trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays split
    out of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments. -/
theorem main_run (c : Dev nD) : main (F := F) c = Pipeline.Seg.run (segs m ρ) :=
  main_segs adm (pdats m ρ) () 𝒱₀ L lv _ _ _ (reg0 m ρ) (reg1 m ρ) rfl rfl rfl c

set_option backward.isDefEq.respectTransparency.types false in
/-- THE RUN: at the compiled mesh, from any memory with zero counters, every weakly fair execution of @main on the
    TensorCores terminates, nothing faulting, and every final state holds, at every unscoped buffer of every core, the
    last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution of @main terminates, nothing faulting, and every final state has the
    argument arrays as launched: each argument read off `run_all` through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩) (run_all m ρ)

end Cert.KernelIdeal.Hand

end
-- ==== Proof.KI.Host0.lean ====
import proofs.«158367_j15779709845544_2_alg».proof.Proof.KI.LaunchP
import Idealize.ShloMosaic.Lib.ValueIdx
import Idealize.ShloMosaic.Lib.Pipeline.Value
import Idealize.ShloMosaic.Lib.StableHlo.Run
import Idealize.ShloMosaic.Lib.ValueLayout

/-! # The first host stretch: the weight, bias and activation operands of the first region

Before the first kernel region the program transposes the two weight matrices, reshapes the bias
`[64]` to a `[1, 64]` row, and leaves the activations as they were passed in. -/

noncomputable section

namespace Cert.KernelIdeal.HostValue

open Idealize.ShloMosaic Idealize.ShloMosaic.ValueIdx
open Cert.KernelIdeal Cert.KernelIdeal.Gen Cert.KernelIdeal.GenP

/-- No operation of the stretch writes the activations. -/
theorem h_kept (W : Valuation τ sig (Elt Ideal)) :
    StableHlo.after (hostOps0 (F := Ideal)) W (Proc.devRef .tc main_arg0) = W (Proc.devRef .tc main_arg0) := by
  after_results

theorem wsT_term (W : Valuation τ sig (Elt Ideal)) :
    (StableHlo.after (hostOps0 (F := Ideal)) W (Proc.devRef .tc main_v18) : S64x64.Idx → EReal)
      = transpose S64x64 [1, 0] (W (Proc.devRef .tc main_arg1) : S64x64.Idx → EReal) transposes_S64x64_S64x64_1_0 := by
  after_results

theorem wnT_term (W : Valuation τ sig (Elt Ideal)) :
    (StableHlo.after (hostOps0 (F := Ideal)) W (Proc.devRef .tc main_v19) : S64x64.Idx → EReal)
      = transpose S64x64 [1, 0] (W (Proc.devRef .tc main_arg3) : S64x64.Idx → EReal) transposes_S64x64_S64x64_1_0 := by
  after_results

theorem bias_term (W : Valuation τ sig (Elt Ideal)) :
    (StableHlo.after (hostOps0 (F := Ideal)) W (Proc.devRef .tc main_v20) : S1x64.Idx → EReal)
      = shapeCast S1x64 (W (Proc.devRef .tc main_arg2) : S64.Idx → EReal) shapeCasts_S64_S1x64 := by
  after_results
  rfl

/-- The transposed self weight at `(j, q)` is the weight at `(q, j)`. -/
theorem wsT_read (W : Valuation τ sig (Elt Ideal)) (j q : Fin 64) :
    (StableHlo.after (hostOps0 (F := Ideal)) W (Proc.devRef .tc main_v18) : S64x64.Idx → EReal) (ix2 j q)
      = (W (Proc.devRef .tc main_arg1) : S64x64.Idx → EReal) (ix2 q j) := by
  rw [wsT_term]
  exact transpose_ix2_apply _ _ j q

/-- The transposed neighbour weight at `(j, q)` is the weight at `(q, j)`. -/
theorem wnT_read (W : Valuation τ sig (Elt Ideal)) (j q : Fin 64) :
    (StableHlo.after (hostOps0 (F := Ideal)) W (Proc.devRef .tc main_v19) : S64x64.Idx → EReal) (ix2 j q)
      = (W (Proc.devRef .tc main_arg3) : S64x64.Idx → EReal) (ix2 q j) := by
  rw [wnT_term]
  exact transpose_ix2_apply _ _ j q

/-- The bias row at column `q` is the bias at `q`. -/
theorem bias_read (W : Valuation τ sig (Elt Ideal)) (q : Fin 64) :
    (StableHlo.after (hostOps0 (F := Ideal)) W (Proc.devRef .tc main_v20) : S1x64.Idx → EReal) (ix2 (0 : Fin 1) q)
      = (W (Proc.devRef .tc main_arg2) : S64.Idx → EReal) (ix1 q) := by
  rw [bias_term]
  exact shapeCast_a_1a_apply _ _ _ _

end Cert.KernelIdeal.HostValue
-- ==== Proof.LibRowScatter.lean ====
/-
  Row gathers and row scatters read at coordinates.

  A table of `N` rows (each a vector of `D` entries, or a `C × D` block) is gathered at `E` row numbers, or has
  `E` update rows added into it at `E` row numbers. The row numbers are an array of shape `[E, 1]`: the index
  vector lies along axis 1 and has the single component that names axis 0 of the table; every other axis of the table is
  taken whole. For such dimension numbers the gather reads row `clamp(idx[j, 0])` of the table, and the accumulating
  scatter adds to entry `(n, e)` of the table the entries `(j, e)` of all update rows `j` whose row number
  `idx[j, 0]`, read as a signed integer, is exactly `n` (a row number outside `[0, N)` names no row: the update is dropped).
-/
import Idealize.ShloMosaic.Lib.ValueIdx
import Idealize.ShloMosaic.PureOps.Contract
import Mathlib.Algebra.BigOperators.Fin

noncomputable section

open scoped BigOperators

namespace Cert.Lib.RowScatter

open Idealize.ShloMosaic Idealize.ShloMosaic.ValueIdx

/-! ## Scatter into a table of vectors: operand `[N, D]`, row numbers `[E, 1]`, updates `[E, D]` -/

section S2
variable {N D E w : Nat}

/-- The row-number array is read at `[j₀, 0]`: the update's row coordinate, and the one component of the index vector. -/
theorem siIdx2 (d : ScatterDims ⟨2, ![N, D]⟩ ⟨2, ![E, 1]⟩ ⟨2, ![E, D]⟩)
    (hu : d.updateWindowDims = [1]) (hv : d.indexVectorDim = 1)
    (j : (⟨2, ![E, D]⟩ : Shape).Idx) (c : Fin d.scatterDimsToOperandDims.length) :
    d.siIdx j c = ix2 (j 0) 0 := by
  obtain ⟨uw, iw, sd, iv, wf⟩ := d
  obtain rfl : uw = [1] := hu
  obtain rfl : iv = 1 := hv
  funext b; refine Fin.ext ?_
  match b with
  | ⟨0, _⟩ => rfl
  | ⟨1, _⟩ =>
    have hl : sd.length = 1 := by
      have h := wf.2.2.2.2.1
      rw [dif_pos (show (1 : Nat) < 2 by omega)] at h
      exact h
    have h1 : c.val < sd.length := c.isLt
    show c.val = 0
    omega

/-- On axis 0 the window starts at the row number, read as a signed integer. -/
theorem start2_zero (d : ScatterDims ⟨2, ![N, D]⟩ ⟨2, ![E, 1]⟩ ⟨2, ![E, D]⟩)
    (hu : d.updateWindowDims = [1]) (hs : d.scatterDimsToOperandDims = [0]) (hv : d.indexVectorDim = 1)
    (j : (⟨2, ![E, D]⟩ : Shape).Idx) (idx : IVec ⟨2, ![E, 1]⟩ w) :
    d.start j idx 0 = (idx (ix2 (j 0) 0)).toInt := by
  have hm : (0 : Fin 2) ∈ d.scatterDimsToOperandDims := by rw [hs]; exact List.mem_singleton.mpr rfl
  unfold ScatterDims.start
  rw [dif_pos hm, siIdx2 d hu hv]
  rfl

/-- On axis 1, which the index vector does not name, the window starts at 0. -/
theorem start2_one (d : ScatterDims ⟨2, ![N, D]⟩ ⟨2, ![E, 1]⟩ ⟨2, ![E, D]⟩)
    (hs : d.scatterDimsToOperandDims = [0])
    (j : (⟨2, ![E, D]⟩ : Shape).Idx) (idx : IVec ⟨2, ![E, 1]⟩ w) :
    d.start j idx 1 = 0 := by
  have hm : (1 : Fin 2) ∉ d.scatterDimsToOperandDims := by
    rw [hs]; show (1 : Fin 2) ∉ ([0] : List (Fin 2)); decide
  unfold ScatterDims.start
  rw [dif_neg hm]

/-- Axis 0 of the table is an inserted axis: its window coordinate is 0. -/
theorem window2_zero (d : ScatterDims ⟨2, ![N, D]⟩ ⟨2, ![E, 1]⟩ ⟨2, ![E, D]⟩)
    (hi : d.insertedWindowDims = [0]) (j : (⟨2, ![E, D]⟩ : Shape).Idx) :
    d.window j 0 = 0 := by
  have hm : (0 : Fin 2) ∉ d.sKept := by
    show (0 : Fin 2) ∉ Shape.kept _ d.insertedWindowDims
    rw [hi]; show (0 : Fin 2) ∉ (List.finRange 2).filter (· ∉ ([0] : List (Fin 2))); decide
  unfold ScatterDims.window
  rw [dif_neg hm]

/-- Axis 1 of the table is the one window axis: its window coordinate is the update's coordinate on axis 1. -/
theorem window2_one (d : ScatterDims ⟨2, ![N, D]⟩ ⟨2, ![E, 1]⟩ ⟨2, ![E, D]⟩)
    (hu : d.updateWindowDims = [1]) (hi : d.insertedWindowDims = [0]) (j : (⟨2, ![E, D]⟩ : Shape).Idx) :
    d.window j 1 = (j 1).val := by
  obtain ⟨uw, iw, sd, iv, wf⟩ := d
  obtain rfl : uw = [1] := hu
  obtain rfl : iw = [0] := hi
  rfl

/-- WHERE AN UPDATE LANDS. Update entry `j = (j₀, j₁)` lands on table entry `i` exactly when its row number
    `idx[j₀, 0]`, read as a signed integer, is `i`'s row, and `j₁` is `i`'s position in the row. (A row number that is
    negative or at least `N` is no row of the table: the update lands nowhere.) -/
theorem resultIdx2_eq_some_iff (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (j : (⟨2, ![E, D]⟩ : Shape).Idx) (idx : IVec ⟨2, ![E, 1]⟩ w) (i : (⟨2, ![N, D]⟩ : Shape).Idx) :
    d.resultIdx? j idx = some i ↔ (idx (ix2 (j 0) 0)).toInt = ((i 0).val : Int) ∧ (j 1 : Fin D) = i 1 := by
  have s0 := start2_zero d hu hs hv j idx
  have s1 := start2_one d hs j idx
  have w0 := window2_zero d hi j
  have w1 := window2_one d hu hi j
  have hi0 : (i 0).val < N := idx2_lt0 i
  have hi1 : (i 1).val < D := idx2_lt1 i
  have hj1 : (j 1).val < D := idx2_lt1 j
  unfold ScatterDims.resultIdx?
  constructor
  · intro h
    split at h
    · rename_i hb
      have h' := Option.some.inj h
      have e0 : (d.start j idx 0 + (d.window j 0 : Int)).toNat = (i 0).val := congrArg (fun f => (f 0).val) h'
      have e1 : (d.start j idx 1 + (d.window j 1 : Int)).toNat = (i 1).val := congrArg (fun f => (f 1).val) h'
      have hb0 := (hb 0).1
      rw [s0, w0] at e0 hb0
      rw [s1, w1] at e1
      exact ⟨by omega, Fin.ext (by omega)⟩
    · exact absurd h (by simp)
  · rintro ⟨hz, hj⟩
    have hj' : (j 1).val = (i 1).val := congrArg Fin.val hj
    have hall : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [s0, w0]; omega
      | ⟨1, _⟩ =>
        show 0 ≤ d.start j idx 1 + (d.window j 1 : Int) ∧ d.start j idx 1 + (d.window j 1 : Int) < (D : Int)
        rw [s1, w1]; omega
    rw [dif_pos hall]
    congr 1
    funext a
    refine Fin.ext ?_
    match a with
    | ⟨0, _⟩ =>
      show (d.start j idx 0 + (d.window j 0 : Int)).toNat = (i 0).val
      rw [s0, w0]; omega
    | ⟨1, _⟩ =>
      show (d.start j idx 1 + (d.window j 1 : Int)).toNat = (i 1).val
      rw [s1, w1]; omega

/-- THE ACCUMULATING SCATTER READ AT `(n, e)`: the table's entry plus the entries `(j, e)` of every update row `j` whose
    row number `idx[j, 0]`, read as a signed integer, is `n`. -/
theorem scatterAdd2_apply {φ : FTy} (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (x : FVec Ideal ⟨2, ![N, D]⟩ φ) (idx : IVec ⟨2, ![E, 1]⟩ w) (upd : FVec Ideal ⟨2, ![E, D]⟩ φ) (n : Fin N) (e : Fin D) :
    Host.scatterAdd (F := Ideal) d x idx upd (ix2 n e)
      = x (ix2 n e) + ∑ j ∈ Finset.univ.filter (fun j : Fin E => (idx (ix2 j 0)).toInt = (n.val : Int)), upd (ix2 j e) := by
  show x (ix2 n e) + _ = x (ix2 n e) + _
  congr 1
  refine Finset.sum_nbij' (fun j' : (⟨2, ![E, D]⟩ : Shape).Idx => (j' 0 : Fin E)) (fun j : Fin E => ix2 j e) ?_ ?_ ?_ ?_ ?_
  · intro j' hj'
    have hl := (resultIdx2_eq_some_iff d hu hi hs hv j' idx (ix2 n e)).mp (Finset.mem_filter.mp hj').2
    exact Finset.mem_filter.mpr ⟨Finset.mem_univ _, hl.1⟩
  · intro j hj
    have hr := (Finset.mem_filter.mp hj).2
    exact Finset.mem_filter.mpr ⟨Finset.mem_univ _,
      (resultIdx2_eq_some_iff d hu hi hs hv (ix2 j e) idx (ix2 n e)).mpr ⟨hr, rfl⟩⟩
  · intro j' hj'
    have h2 : (j' 1 : Fin D) = e :=
      ((resultIdx2_eq_some_iff d hu hi hs hv j' idx (ix2 n e)).mp (Finset.mem_filter.mp hj').2).2
    show ix2 (j' 0) e = j'
    rw [← h2]; exact (eq_ix2 j').symm
  · intro j _
    rfl
  · intro j' hj'
    have h2 : (j' 1 : Fin D) = e :=
      ((resultIdx2_eq_some_iff d hu hi hs hv j' idx (ix2 n e)).mp (Finset.mem_filter.mp hj').2).2
    show upd j' = upd (ix2 (j' 0) e)
    rw [← h2]; exact congrArg upd (eq_ix2 j')

end S2

/-! ## Scatter into a table of blocks: operand `[N, C, D]`, row numbers `[E, 1]`, updates `[E, C, D]` -/

section S3
variable {N C D E w : Nat}

/-- The row-number array is read at `[j₀, 0]`: the update's row coordinate, and the one component of the index vector. -/
theorem siIdx3 (d : ScatterDims ⟨3, ![N, C, D]⟩ ⟨2, ![E, 1]⟩ ⟨3, ![E, C, D]⟩)
    (hu : d.updateWindowDims = [1, 2]) (hv : d.indexVectorDim = 1)
    (j : (⟨3, ![E, C, D]⟩ : Shape).Idx) (c : Fin d.scatterDimsToOperandDims.length) :
    d.siIdx j c = ix2 (j 0) 0 := by
  obtain ⟨uw, iw, sd, iv, wf⟩ := d
  obtain rfl : uw = [1, 2] := hu
  obtain rfl : iv = 1 := hv
  funext b; refine Fin.ext ?_
  match b with
  | ⟨0, _⟩ => rfl
  | ⟨1, _⟩ =>
    have hl : sd.length = 1 := by
      have h := wf.2.2.2.2.1
      rw [dif_pos (show (1 : Nat) < 2 by omega)] at h
      exact h
    have h1 : c.val < sd.length := c.isLt
    show c.val = 0
    omega

/-- On axis 0 the window starts at the row number, read as a signed integer. -/
theorem start3_zero (d : ScatterDims ⟨3, ![N, C, D]⟩ ⟨2, ![E, 1]⟩ ⟨3, ![E, C, D]⟩)
    (hu : d.updateWindowDims = [1, 2]) (hs : d.scatterDimsToOperandDims = [0]) (hv : d.indexVectorDim = 1)
    (j : (⟨3, ![E, C, D]⟩ : Shape).Idx) (idx : IVec ⟨2, ![E, 1]⟩ w) :
    d.start j idx 0 = (idx (ix2 (j 0) 0)).toInt := by
  have hm : (0 : Fin 3) ∈ d.scatterDimsToOperandDims := by rw [hs]; exact List.mem_singleton.mpr rfl
  unfold ScatterDims.start
  rw [dif_pos hm, siIdx3 d hu hv]
  rfl

/-- On axis 1, which the index vector does not name, the window starts at 0. -/
theorem start3_one (d : ScatterDims ⟨3, ![N, C, D]⟩ ⟨2, ![E, 1]⟩ ⟨3, ![E, C, D]⟩)
    (hs : d.scatterDimsToOperandDims = [0])
    (j : (⟨3, ![E, C, D]⟩ : Shape).Idx) (idx : IVec ⟨2, ![E, 1]⟩ w) :
    d.start j idx 1 = 0 := by
  have hm : (1 : Fin 3) ∉ d.scatterDimsToOperandDims := by
    rw [hs]; show (1 : Fin 3) ∉ ([0] : List (Fin 3)); decide
  unfold ScatterDims.start
  rw [dif_neg hm]

/-- On axis 2, which the index vector does not name, the window starts at 0. -/
theorem start3_two (d : ScatterDims ⟨3, ![N, C, D]⟩ ⟨2, ![E, 1]⟩ ⟨3, ![E, C, D]⟩)
    (hs : d.scatterDimsToOperandDims = [0])
    (j : (⟨3, ![E, C, D]⟩ : Shape).Idx) (idx : IVec ⟨2, ![E, 1]⟩ w) :
    d.start j idx 2 = 0 := by
  have hm : (2 : Fin 3) ∉ d.scatterDimsToOperandDims := by
    rw [hs]; show (2 : Fin 3) ∉ ([0] : List (Fin 3)); decide
  unfold ScatterDims.start
  rw [dif_neg hm]

/-- Axis 0 of the table is an inserted axis: its window coordinate is 0. -/
theorem window3_zero (d : ScatterDims ⟨3, ![N, C, D]⟩ ⟨2, ![E, 1]⟩ ⟨3, ![E, C, D]⟩)
    (hi : d.insertedWindowDims = [0]) (j : (⟨3, ![E, C, D]⟩ : Shape).Idx) :
    d.window j 0 = 0 := by
  have hm : (0 : Fin 3) ∉ d.sKept := by
    show (0 : Fin 3) ∉ Shape.kept _ d.insertedWindowDims
    rw [hi]; show (0 : Fin 3) ∉ (List.finRange 3).filter (· ∉ ([0] : List (Fin 3))); decide
  unfold ScatterDims.window
  rw [dif_neg hm]

/-- Axis 1 of the table is the first window axis: its window coordinate is the update's coordinate on axis 1. -/
theorem window3_one (d : ScatterDims ⟨3, ![N, C, D]⟩ ⟨2, ![E, 1]⟩ ⟨3, ![E, C, D]⟩)
    (hu : d.updateWindowDims = [1, 2]) (hi : d.insertedWindowDims = [0]) (j : (⟨3, ![E, C, D]⟩ : Shape).Idx) :
    d.window j 1 = (j 1).val := by
  obtain ⟨uw, iw, sd, iv, wf⟩ := d
  obtain rfl : uw = [1, 2] := hu
  obtain rfl : iw = [0] := hi
  rfl

/-- Axis 2 of the table is the second window axis: its window coordinate is the update's coordinate on axis 2. -/
theorem window3_two (d : ScatterDims ⟨3, ![N, C, D]⟩ ⟨2, ![E, 1]⟩ ⟨3, ![E, C, D]⟩)
    (hu : d.updateWindowDims = [1, 2]) (hi : d.insertedWindowDims = [0]) (j : (⟨3, ![E, C, D]⟩ : Shape).Idx) :
    d.window j 2 = (j 2).val := by
  obtain ⟨uw, iw, sd, iv, wf⟩ := d
  obtain rfl : uw = [1, 2] := hu
  obtain rfl : iw = [0] := hi
  rfl

/-- WHERE AN UPDATE LANDS. Update entry `j = (j₀, j₁, j₂)` lands on table entry `i` exactly when its row number
    `idx[j₀, 0]`, read as a signed integer, is `i`'s row, and `(j₁, j₂)` is `i`'s position in the block. (A row number
    that is negative or at least `N` is no row of the table: the update lands nowhere.) -/
theorem resultIdx3_eq_some_iff (d : ScatterDims ⟨3, ![N, C, D]⟩ ⟨2, ![E, 1]⟩ ⟨3, ![E, C, D]⟩)
    (hu : d.updateWindowDims = [1, 2]) (hi : d.insertedWindowDims = [0]) (hs : d.scatterDimsToOperandDims = [0])
    (hv : d.indexVectorDim = 1)
    (j : (⟨3, ![E, C, D]⟩ : Shape).Idx) (idx : IVec ⟨2, ![E, 1]⟩ w) (i : (⟨3, ![N, C, D]⟩ : Shape).Idx) :
    d.resultIdx? j idx = some i ↔
      (idx (ix2 (j 0) 0)).toInt = ((i 0).val : Int) ∧ (j 1 : Fin C) = i 1 ∧ (j 2 : Fin D) = i 2 := by
  have s0 := start3_zero d hu hs hv j idx
  have s1 := start3_one d hs j idx
  have s2 := start3_two d hs j idx
  have w0 := window3_zero d hi j
  have w1 := window3_one d hu hi j
  have w2 := window3_two d hu hi j
  have hi0 : (i 0).val < N := (i 0).isLt
  have hi1 : (i 1).val < C := (i 1).isLt
  have hi2 : (i 2).val < D := (i 2).isLt
  have hj1 : (j 1).val < C := (j 1).isLt
  have hj2 : (j 2).val < D := (j 2).isLt
  unfold ScatterDims.resultIdx?
  constructor
  · intro h
    split at h
    · rename_i hb
      have h' := Option.some.inj h
      have e0 : (d.start j idx 0 + (d.window j 0 : Int)).toNat = (i 0).val := congrArg (fun f => (f 0).val) h'
      have e1 : (d.start j idx 1 + (d.window j 1 : Int)).toNat = (i 1).val := congrArg (fun f => (f 1).val) h'
      have e2 : (d.start j idx 2 + (d.window j 2 : Int)).toNat = (i 2).val := congrArg (fun f => (f 2).val) h'
      have hb0 := (hb 0).1
      rw [s0, w0] at e0 hb0
      rw [s1, w1] at e1
      rw [s2, w2] at e2
      exact ⟨by omega, Fin.ext (by omega), Fin.ext (by omega)⟩
    · exact absurd h (by simp)
  · rintro ⟨hz, hj1e, hj2e⟩
    have hj1' : (j 1).val = (i 1).val := congrArg Fin.val hj1e
    have hj2' : (j 2).val = (i 2).val := congrArg Fin.val hj2e
    have hall : ∀ a, 0 ≤ d.start j idx a + (d.window j a : Int) ∧
        d.start j idx a + (d.window j a : Int) < ((⟨3, ![N, C, D]⟩ : Shape).size a : Int) := by
      intro a
      match a with
      | ⟨0, _⟩ =>
        show 0 ≤ d.start j idx 0 + (d.window j 0 : Int) ∧ d.start j idx 0 + (d.window j 0 : Int) < (N : Int)
        rw [s0, w0]; omega
      | ⟨1, _⟩ =>
        show 0 ≤ d.start j idx 1 + (d.window j 1 : Int) ∧ d.start j idx 1 + (d.window j 1 : Int) < (C : Int)
        rw [s1, w1]; omega
      | ⟨2, _⟩ =>
        show 0 ≤ d.start j idx 2 + (d.window j 2 : Int) ∧ d.start j idx 2 + (d.window j 2 : Int) < (D : Int)
        rw [s2, w2]; omega
    rw [dif_pos hall]
    congr 1
    funext a
    refine Fin.ext ?_
    match a with
    | ⟨0, _⟩ =>
      show (d.start j idx 0 + (d.window j 0 : Int)).toNat = (i 0).val
      rw [s0, w0]; omega
    | ⟨1, _⟩ =>
      show (d.start j idx 1 + (d.window j 1 : Int)).toNat = (i 1).val
      rw [s1, w1]; omega
    | ⟨2, _⟩ =>
      show (d.start j idx 2 + (d.window j 2 : Int)).toNat = (i 2).val
      rw [s2, w2]; omega

/-- THE ACCUMULATING SCATTER READ AT `(n, c, e)`: the table's entry plus the entries `(j, c, e)` of every update block
    `j` whose row number `idx[j, 0]`, read as a signed integer, is `n`. -/
theorem scatterAdd3_apply {φ : FTy} (d : ScatterDims ⟨3, ![N, C, D]⟩ ⟨2, ![E, 1]⟩ ⟨3, ![E, C, D]⟩)
    (hu : d.updateWindowDims = [1, 2]) (hi : d.insertedWindowDims = [0]) (hs : d.scatterDimsToOperandDims = [0])
    (hv : d.indexVectorDim = 1)
    (x : FVec Ideal ⟨3, ![N, C, D]⟩ φ) (idx : IVec ⟨2, ![E, 1]⟩ w) (upd : FVec Ideal ⟨3, ![E, C, D]⟩ φ)
    (n : Fin N) (c : Fin C) (e : Fin D) :
    Host.scatterAdd (F := Ideal) d x idx upd (ix3 n c e)
      = x (ix3 n c e)
        + ∑ j ∈ Finset.univ.filter (fun j : Fin E => (idx (ix2 j 0)).toInt = (n.val : Int)), upd (ix3 j c e) := by
  show x (ix3 n c e) + _ = x (ix3 n c e) + _
  congr 1
  refine Finset.sum_nbij' (fun j' : (⟨3, ![E, C, D]⟩ : Shape).Idx => (j' 0 : Fin E)) (fun j : Fin E => ix3 j c e)
    ?_ ?_ ?_ ?_ ?_
  · intro j' hj'
    have hl := (resultIdx3_eq_some_iff d hu hi hs hv j' idx (ix3 n c e)).mp (Finset.mem_filter.mp hj').2
    exact Finset.mem_filter.mpr ⟨Finset.mem_univ _, hl.1⟩
  · intro j hj
    have hr := (Finset.mem_filter.mp hj).2
    exact Finset.mem_filter.mpr ⟨Finset.mem_univ _,
      (resultIdx3_eq_some_iff d hu hi hs hv (ix3 j c e) idx (ix3 n c e)).mpr ⟨hr, rfl, rfl⟩⟩
  · intro j' hj'
    have hl := (resultIdx3_eq_some_iff d hu hi hs hv j' idx (ix3 n c e)).mp (Finset.mem_filter.mp hj').2
    have h1 : (j' 1 : Fin C) = c := hl.2.1
    have h2 : (j' 2 : Fin D) = e := hl.2.2
    show ix3 (j' 0) c e = j'
    rw [← h1, ← h2]; exact (eq_ix3 j').symm
  · intro j _
    rfl
  · intro j' hj'
    have hl := (resultIdx3_eq_some_iff d hu hi hs hv j' idx (ix3 n c e)).mp (Finset.mem_filter.mp hj').2
    have h1 : (j' 1 : Fin C) = c := hl.2.1
    have h2 : (j' 2 : Fin D) = e := hl.2.2
    show upd j' = upd (ix3 (j' 0) c e)
    rw [← h1, ← h2]; exact congrArg upd (eq_ix3 j')

end S3

/-! ## Gather of rows -/

/-- Row number `z`, a signed integer, clamped into the rows `[0, N − 1]` of a table with at least one row. -/
def clampRow (N : Nat) (hN : 0 < N) (z : Int) : Fin N := ⟨min z.toNat (N - 1), by omega⟩

/-! ### From a table of vectors: operand `[N, D]`, row numbers `[E, 1]`, result `[E, D]` -/

section G2
variable {N D E w : Nat} {α : Type}

/-- The row-number array is read at `[j₀, 0]`: the result's row coordinate, and the one component of the index vector. -/
theorem gatherSiIdx2 (d : GatherDims ⟨2, ![N, D]⟩ ⟨2, ![E, 1]⟩ ⟨2, ![E, D]⟩)
    (ho : d.offsetDims = [1]) (hm : d.startIndexMap = [0]) (hv : d.indexVectorDim = 1)
    (j : (⟨2, ![E, D]⟩ : Shape).Idx) (c : Fin d.startIndexMap.length) :
    d.siIdx j c = ix2 (j 0) 0 := by
  obtain ⟨od, cd, ob, sb, sm, iv, ss, wf⟩ := d
  obtain rfl : od = [1] := ho
  obtain rfl : sm = [0] := hm
  obtain rfl : iv = 1 := hv
  funext b; refine Fin.ext ?_
  match b with
  | ⟨0, _⟩ => rfl
  | ⟨1, _⟩ =>
    have h1 : c.val < 1 := c.isLt
    show c.val = 0
    omega

/-- On axis 0 the slice (one row) starts at the row number, read as a signed integer and clamped into `[0, N − 1]`. -/
theorem gatherStart2_zero (d : GatherDims ⟨2, ![N, D]⟩ ⟨2, ![E, 1]⟩ ⟨2, ![E, D]⟩)
    (ho : d.offsetDims = [1]) (hm : d.startIndexMap = [0]) (hv : d.indexVectorDim = 1) (hss : d.sliceSizes = ![1, D])
    (j : (⟨2, ![E, D]⟩ : Shape).Idx) (idx : IVec ⟨2, ![E, 1]⟩ w) :
    d.start j idx 0 = min (idx (ix2 (j 0) 0)).toInt.toNat (N - 1) := by
  have hmem : (0 : Fin 2) ∈ d.startIndexMap := by rw [hm]; exact List.mem_singleton.mpr rfl
  unfold GatherDims.start
  rw [dif_pos hmem, gatherSiIdx2 d ho hm hv, hss]
  rfl

/-- On axis 1, which the index vector does not name, the slice (a whole row) starts at 0. -/
theorem gatherStart2_one (d : GatherDims ⟨2, ![N, D]⟩ ⟨2, ![E, 1]⟩ ⟨2, ![E, D]⟩)
    (hm : d.startIndexMap = [0]) (j : (⟨2, ![E, D]⟩ : Shape).Idx) (idx : IVec ⟨2, ![E, 1]⟩ w) :
    d.start j idx 1 = 0 := by
  have hmem : (1 : Fin 2) ∉ d.startIndexMap := by
    rw [hm]; show (1 : Fin 2) ∉ ([0] : List (Fin 2)); decide
  unfold GatherDims.start
  rw [dif_neg hmem]

/-- Axis 0 of the table is collapsed: it has no offset coordinate. -/
theorem gatherOff2_zero (d : GatherDims ⟨2, ![N, D]⟩ ⟨2, ![E, 1]⟩ ⟨2, ![E, D]⟩)
    (hc : d.collapsedSliceDims = [0]) (j : (⟨2, ![E, D]⟩ : Shape).Idx) :
    d.offCoord j 0 = 0 :=
  d.offCoord_eq_zero j 0 fun h => ((d.mem_sKept 0).1 h).1 (by rw [hc]; exact List.mem_singleton.mpr rfl)

/-- Axis 1 of the table is the one offset axis: its offset coordinate is the result's coordinate on axis 1. -/
theorem gatherOff2_one (d : GatherDims ⟨2, ![N, D]⟩ ⟨2, ![E, 1]⟩ ⟨2, ![E, D]⟩)
    (ho : d.offsetDims = [1]) (hc : d.collapsedSliceDims = [0]) (hb : d.operandBatchingDims = [])
    (j : (⟨2, ![E, D]⟩ : Shape).Idx) :
    d.offCoord j 1 = (j 1).val := by
  obtain ⟨od, cd, ob, sb, sm, iv, ss, wf⟩ := d
  obtain rfl : od = [1] := ho
  obtain rfl : cd = [0] := hc
  obtain rfl : ob = [] := hb
  rfl

/-- THE GATHER READ AT `(j, e)`: entry `e` of the table's row `idx[j, 0]`, the row number read as a signed integer and
    clamped into `[0, N − 1]`. -/
theorem gather2_apply (d : GatherDims ⟨2, ![N, D]⟩ ⟨2, ![E, 1]⟩ ⟨2, ![E, D]⟩)
    (ho : d.offsetDims = [1]) (hc : d.collapsedSliceDims = [0]) (hb : d.operandBatchingDims = [])
    (hm : d.startIndexMap = [0]) (hv : d.indexVectorDim = 1) (hss : d.sliceSizes = ![1, D]) (hN : 0 < N)
    (x : (⟨2, ![N, D]⟩ : Shape).Idx → α) (idx : IVec ⟨2, ![E, 1]⟩ w) (j : Fin E) (e : Fin D) :
    Host.gather d x idx (ix2 j e) = x (ix2 (clampRow N hN (idx (ix2 j 0)).toInt) e) := by
  have hnb : ∀ a, a ∉ d.operandBatchingDims := by intro a; rw [hb]; exact List.not_mem_nil
  unfold Host.gather
  congr 1
  funext a
  refine Fin.ext ?_
  match a with
  | ⟨0, _⟩ =>
    show d.start (ix2 j e) idx 0 + d.batchCoord (ix2 j e) 0 + d.offCoord (ix2 j e) 0
      = min (idx (ix2 j 0)).toInt.toNat (N - 1)
    rw [gatherStart2_zero d ho hm hv hss, d.batchCoord_eq_zero _ _ (hnb 0), gatherOff2_zero d hc]
    rfl
  | ⟨1, _⟩ =>
    show d.start (ix2 j e) idx 1 + d.batchCoord (ix2 j e) 1 + d.offCoord (ix2 j e) 1 = e.val
    rw [gatherStart2_one d hm, d.batchCoord_eq_zero _ _ (hnb 1), gatherOff2_one d ho hc hb]
    show 0 + 0 + e.val = e.val
    omega

end G2

/-! ### From a table of blocks: operand `[N, C, D]`, row numbers `[E, 1]`, result `[E, C, D]` -/

section G3
variable {N C D E w : Nat} {α : Type}

/-- The row-number array is read at `[j₀, 0]`: the result's row coordinate, and the one component of the index vector. -/
theorem gatherSiIdx3 (d : GatherDims ⟨3, ![N, C, D]⟩ ⟨2, ![E, 1]⟩ ⟨3, ![E, C, D]⟩)
    (ho : d.offsetDims = [1, 2]) (hm : d.startIndexMap = [0]) (hv : d.indexVectorDim = 1)
    (j : (⟨3, ![E, C, D]⟩ : Shape).Idx) (c : Fin d.startIndexMap.length) :
    d.siIdx j c = ix2 (j 0) 0 := by
  obtain ⟨od, cd, ob, sb, sm, iv, ss, wf⟩ := d
  obtain rfl : od = [1, 2] := ho
  obtain rfl : sm = [0] := hm
  obtain rfl : iv = 1 := hv
  funext b; refine Fin.ext ?_
  match b with
  | ⟨0, _⟩ => rfl
  | ⟨1, _⟩ =>
    have h1 : c.val < 1 := c.isLt
    show c.val = 0
    omega

/-- On axis 0 the slice (one block) starts at the row number, read as a signed integer and clamped into `[0, N − 1]`. -/
theorem gatherStart3_zero (d : GatherDims ⟨3, ![N, C, D]⟩ ⟨2, ![E, 1]⟩ ⟨3, ![E, C, D]⟩)
    (ho : d.offsetDims = [1, 2]) (hm : d.startIndexMap = [0]) (hv : d.indexVectorDim = 1)
    (hss : d.sliceSizes = ![1, C, D])
    (j : (⟨3, ![E, C, D]⟩ : Shape).Idx) (idx : IVec ⟨2, ![E, 1]⟩ w) :
    d.start j idx 0 = min (idx (ix2 (j 0) 0)).toInt.toNat (N - 1) := by
  have hmem : (0 : Fin 3) ∈ d.startIndexMap := by rw [hm]; exact List.mem_singleton.mpr rfl
  unfold GatherDims.start
  rw [dif_pos hmem, gatherSiIdx3 d ho hm hv, hss]
  rfl

/-- On an axis the index vector does not name (1 or 2) the slice, a whole block, starts at 0. -/
theorem gatherStart3_ne_zero (d : GatherDims ⟨3, ![N, C, D]⟩ ⟨2, ![E, 1]⟩ ⟨3, ![E, C, D]⟩)
    (hm : d.startIndexMap = [0]) (j : (⟨3, ![E, C, D]⟩ : Shape).Idx) (idx : IVec ⟨2, ![E, 1]⟩ w)
    (a : Fin 3) (ha : a ≠ 0) :
    d.start j idx a = 0 := by
  have hmem : a ∉ d.startIndexMap := by
    rw [hm]; exact fun h => ha (List.mem_singleton.mp h)
  unfold GatherDims.start
  rw [dif_neg hmem]

/-- Axis 0 of the table is collapsed: it has no offset coordinate. -/
theorem gatherOff3_zero (d : GatherDims ⟨3, ![N, C, D]⟩ ⟨2, ![E, 1]⟩ ⟨3, ![E, C, D]⟩)
    (hc : d.collapsedSliceDims = [0]) (j : (⟨3, ![E, C, D]⟩ : Shape).Idx) :
    d.offCoord j 0 = 0 :=
  d.offCoord_eq_zero j 0 fun h => ((d.mem_sKept 0).1 h).1 (by rw [hc]; exact List.mem_singleton.mpr rfl)

/-- Axis 1 of the table is the first offset axis: its offset coordinate is the result's coordinate on axis 1. -/
theorem gatherOff3_one (d : GatherDims ⟨3, ![N, C, D]⟩ ⟨2, ![E, 1]⟩ ⟨3, ![E, C, D]⟩)
    (ho : d.offsetDims = [1, 2]) (hc : d.collapsedSliceDims = [0]) (hb : d.operandBatchingDims = [])
    (j : (⟨3, ![E, C, D]⟩ : Shape).Idx) :
    d.offCoord j 1 = (j 1).val := by
  obtain ⟨od, cd, ob, sb, sm, iv, ss, wf⟩ := d
  obtain rfl : od = [1, 2] := ho
  obtain rfl : cd = [0] := hc
  obtain rfl : ob = [] := hb
  rfl

/-- Axis 2 of the table is the second offset axis: its offset coordinate is the result's coordinate on axis 2. -/
theorem gatherOff3_two (d : GatherDims ⟨3, ![N, C, D]⟩ ⟨2, ![E, 1]⟩ ⟨3, ![E, C, D]⟩)
    (ho : d.offsetDims = [1, 2]) (hc : d.collapsedSliceDims = [0]) (hb : d.operandBatchingDims = [])
    (j : (⟨3, ![E, C, D]⟩ : Shape).Idx) :
    d.offCoord j 2 = (j 2).val := by
  obtain ⟨od, cd, ob, sb, sm, iv, ss, wf⟩ := d
  obtain rfl : od = [1, 2] := ho
  obtain rfl : cd = [0] := hc
  obtain rfl : ob = [] := hb
  rfl

/-- THE GATHER READ AT `(j, c, e)`: entry `(c, e)` of the table's block `idx[j, 0]`, the row number read as a signed
    integer and clamped into `[0, N − 1]`. -/
theorem gather3_apply (d : GatherDims ⟨3, ![N, C, D]⟩ ⟨2, ![E, 1]⟩ ⟨3, ![E, C, D]⟩)
    (ho : d.offsetDims = [1, 2]) (hc : d.collapsedSliceDims = [0]) (hb : d.operandBatchingDims = [])
    (hm : d.startIndexMap = [0]) (hv : d.indexVectorDim = 1) (hss : d.sliceSizes = ![1, C, D]) (hN : 0 < N)
    (x : (⟨3, ![N, C, D]⟩ : Shape).Idx → α) (idx : IVec ⟨2, ![E, 1]⟩ w) (j : Fin E) (c : Fin C) (e : Fin D) :
    Host.gather d x idx (ix3 j c e) = x (ix3 (clampRow N hN (idx (ix2 j 0)).toInt) c e) := by
  have hnb : ∀ a, a ∉ d.operandBatchingDims := by intro a; rw [hb]; exact List.not_mem_nil
  unfold Host.gather
  congr 1
  funext a
  refine Fin.ext ?_
  match a with
  | ⟨0, _⟩ =>
    show d.start (ix3 j c e) idx 0 + d.batchCoord (ix3 j c e) 0 + d.offCoord (ix3 j c e) 0
      = min (idx (ix2 j 0)).toInt.toNat (N - 1)
    rw [gatherStart3_zero d ho hm hv hss, d.batchCoord_eq_zero _ _ (hnb 0), gatherOff3_zero d hc]
    rfl
  | ⟨1, _⟩ =>
    show d.start (ix3 j c e) idx 1 + d.batchCoord (ix3 j c e) 1 + d.offCoord (ix3 j c e) 1 = c.val
    rw [gatherStart3_ne_zero d hm _ _ 1 (by decide), d.batchCoord_eq_zero _ _ (hnb 1), gatherOff3_one d ho hc hb]
    show 0 + 0 + c.val = c.val
    omega
  | ⟨2, _⟩ =>
    show d.start (ix3 j c e) idx 2 + d.batchCoord (ix3 j c e) 2 + d.offCoord (ix3 j c e) 2 = e.val
    rw [gatherStart3_ne_zero d hm _ _ 2 (by decide), d.batchCoord_eq_zero _ _ (hnb 2), gatherOff3_two d ho hc hb]
    show 0 + 0 + e.val = e.val
    omega

end G3

end Cert.Lib.RowScatter

end
-- ==== Proof.KI.AggDefs.lean ====
import proofs.«158367_j15779709845544_2_alg».proof.Proof.LibRowScatter
import Idealize.ShloMosaic.Lib.ValueIdx
import Idealize.ShloMosaic.PureOps.Ideal
import Mathlib.Algebra.BigOperators.Fin

/-! # The neighbour aggregation, as sums over edges

A graph on `100000` nodes has `1600000` edges, given as two arrays of 32-bit words: the source node and
the destination node of each edge. The aggregation adds, into row `p`, the feature row of the source of
every edge whose destination word, read as a signed integer, is exactly `p` (a destination outside
`[0, 100000)` names no node and is dropped). The source word is first normalised — `100000` is added to
a negative word — and then, read signed, clamped into `[0, 99999]`. The degree of `p` counts the same
edges with weight one. -/

noncomputable section

namespace Cert.KernelIdeal.HostValue

open scoped BigOperators
open Idealize.ShloMosaic Idealize.ShloMosaic.ValueIdx

/-- A source word with `100000` added when it is negative as a signed integer. -/
def wrapWord (s : BitVec 32) : BitVec 32 :=
  Scalar.select (IntOp.cmpi .slt s 0#32) (IntOp.addi s 100000#32) s

/-- The feature row that edge `e` reads: its normalised source word, read signed, clamped into the table. -/
def srcRow (src : IVec ⟨1, ![1600000]⟩ 32) (e : Fin 1600000) : Fin 100000 :=
  Cert.Lib.RowScatter.clampRow 100000 (by decide) (wrapWord (src (ix1 e))).toInt

/-- The edges whose destination word, read signed, is node `p`. -/
def lands (dst : IVec ⟨1, ![1600000]⟩ 32) (p : Fin 100000) : Finset (Fin 1600000) :=
  Finset.univ.filter (fun e : Fin 1600000 => (dst (ix1 e)).toInt = (p.val : Int))

/-- Feature `j` summed, from zero, over the sources of the edges landing on node `p`. -/
def aggK (h : (⟨2, ![100000, 64]⟩ : Shape).Idx → EReal) (src dst : IVec ⟨1, ![1600000]⟩ 32)
    (p : Fin 100000) (j : Fin 64) : EReal :=
  0 + ∑ e ∈ lands dst p, h (ix2 (srcRow src e) j)

/-- The number of edges landing on node `p`, counted from zero in the extended reals. -/
def degK (dst : IVec ⟨1, ![1600000]⟩ 32) (p : Fin 100000) : EReal :=
  0 + ∑ _e ∈ lands dst p, (1 : EReal)

end Cert.KernelIdeal.HostValue
-- ==== Proof.LibPairConcat.lean ====
/-
  Two arrays laid end to end along one axis of a rank-2 array, read at an index from its coordinates: for any
  extents and any element type, the first piece where the coordinate on that axis is below the first piece's
  extent, and the second piece, the first extent less, from there on. Stated for pieces side by side
  ([a, k₁] and [a, k₂] into [a, n], along axis 1) and for pieces stacked ([k₁, b] and [k₂, b] into [n, b], along
  axis 0).
-/
import Idealize.ShloMosaic.Lib.Pipeline.Value
import Idealize.ShloMosaic.Lib.ValueIdx

noncomputable section

open Idealize.ShloMosaic Idealize.ShloMosaic.ValueIdx

namespace Cert.Lib.PairConcat

variable {α : Type}

/-- Side by side, a column of the first piece: the first piece at the same row and column. -/
theorem concat_axis1_left {a k₁ k₂ n : ℕ} (u : (⟨2, ![a, k₁]⟩ : Shape).Idx → α) (v : (⟨2, ![a, k₂]⟩ : Shape).Idx → α)
    (h : Shape.Concatenates [⟨2, ![a, k₁]⟩, ⟨2, ![a, k₂]⟩] ⟨2, ![a, n]⟩ 1) (p : Fin a) (q : Fin n) (hq : q.val < k₁) :
    concatenate ⟨2, ![a, n]⟩ 1 [⟨⟨2, ![a, k₁]⟩, u⟩, ⟨⟨2, ![a, k₂]⟩, v⟩] h (ix2 p q) = u (ix2 p ⟨q.val, hq⟩) :=
  concatenate_pair_apply_left 1 u v h (ix2 p q) rfl (ix2 p ⟨q.val, hq⟩)
    (fun b => match b with | ⟨0, _⟩ => rfl | ⟨1, _⟩ => rfl)

/-- Side by side, a column past the first piece: the second piece at the same row, the column less the first
    piece's width. -/
theorem concat_axis1_right {a k₁ k₂ n : ℕ} (u : (⟨2, ![a, k₁]⟩ : Shape).Idx → α) (v : (⟨2, ![a, k₂]⟩ : Shape).Idx → α)
    (h : Shape.Concatenates [⟨2, ![a, k₁]⟩, ⟨2, ![a, k₂]⟩] ⟨2, ![a, n]⟩ 1) (p : Fin a) (q : Fin n) (hq : k₁ ≤ q.val)
    (hq₂ : q.val - k₁ < k₂) :
    concatenate ⟨2, ![a, n]⟩ 1 [⟨⟨2, ![a, k₁]⟩, u⟩, ⟨⟨2, ![a, k₂]⟩, v⟩] h (ix2 p q) = v (ix2 p ⟨q.val - k₁, hq₂⟩) :=
  concatenate_pair_apply_right 1 u v h (ix2 p q) rfl rfl (ix2 p ⟨q.val - k₁, hq₂⟩)
    (fun b hb => match b, hb with | ⟨0, _⟩, _ => rfl | ⟨1, _⟩, hb => absurd rfl hb)
    (by show q.val - k₁ + k₁ = q.val; omega)

/-- Stacked, a row of the first piece: the first piece at the same row and column. -/
theorem concat_axis0_left {k₁ k₂ n b : ℕ} (u : (⟨2, ![k₁, b]⟩ : Shape).Idx → α) (v : (⟨2, ![k₂, b]⟩ : Shape).Idx → α)
    (h : Shape.Concatenates [⟨2, ![k₁, b]⟩, ⟨2, ![k₂, b]⟩] ⟨2, ![n, b]⟩ 0) (q : Fin n) (c : Fin b) (hq : q.val < k₁) :
    concatenate ⟨2, ![n, b]⟩ 0 [⟨⟨2, ![k₁, b]⟩, u⟩, ⟨⟨2, ![k₂, b]⟩, v⟩] h (ix2 q c) = u (ix2 ⟨q.val, hq⟩ c) :=
  concatenate_pair_apply_left 0 u v h (ix2 q c) rfl (ix2 ⟨q.val, hq⟩ c)
    (fun b => match b with | ⟨0, _⟩ => rfl | ⟨1, _⟩ => rfl)

/-- Stacked, a row past the first piece: the second piece at the row less the first piece's height, same column. -/
theorem concat_axis0_right {k₁ k₂ n b : ℕ} (u : (⟨2, ![k₁, b]⟩ : Shape).Idx → α) (v : (⟨2, ![k₂, b]⟩ : Shape).Idx → α)
    (h : Shape.Concatenates [⟨2, ![k₁, b]⟩, ⟨2, ![k₂, b]⟩] ⟨2, ![n, b]⟩ 0) (q : Fin n) (c : Fin b) (hq : k₁ ≤ q.val)
    (hq₂ : q.val - k₁ < k₂) :
    concatenate ⟨2, ![n, b]⟩ 0 [⟨⟨2, ![k₁, b]⟩, u⟩, ⟨⟨2, ![k₂, b]⟩, v⟩] h (ix2 q c) = v (ix2 ⟨q.val - k₁, hq₂⟩ c) :=
  concatenate_pair_apply_right 0 u v h (ix2 q c) rfl rfl (ix2 ⟨q.val - k₁, hq₂⟩ c)
    (fun b hb => match b, hb with | ⟨0, _⟩, hb => absurd rfl hb | ⟨1, _⟩, _ => rfl)
    (by show q.val - k₁ + k₁ = q.val; omega)

end Cert.Lib.PairConcat

end
-- ==== Proof.KI.Host0Agg.lean ====
import proofs.«158367_j15779709845544_2_alg».proof.Proof.KI.LaunchP
import proofs.«158367_j15779709845544_2_alg».proof.Proof.KI.AggDefs
import proofs.«158367_j15779709845544_2_alg».proof.Proof.LibRowScatter
import proofs.«158367_j15779709845544_2_alg».proof.Proof.LibPairConcat
import Idealize.ShloMosaic.Lib.ValueIdx
import Idealize.ShloMosaic.Lib.Pipeline.Value
import Idealize.ShloMosaic.Lib.StableHlo.Run
import Idealize.ShloMosaic.Lib.ValueLayout
import Idealize.ShloMosaic.Lib.IdealHost
import Idealize.ShloMosaic.PureOps.Ideal.Laws

/-! # The first host stretch: the neighbour sums and the inverse degree

The program gathers the source feature row of every edge, appends a column of ones, and adds the
`[1600000, 65]` rows into a zero `[100000, 65]` table at the destination nodes. Columns `0 … 63` of the
table are the neighbour feature sums; column `64` is the degree. The inverse degree is one over the
larger of the degree and one. -/

noncomputable section

namespace Cert.KernelIdeal.HostValue

open scoped BigOperators
open Idealize.ShloMosaic Idealize.ShloMosaic.ValueIdx
open Cert.KernelIdeal Cert.KernelIdeal.Gen Cert.KernelIdeal.GenP

/-! ## The operations' terms -/

/-- The normalised source words, as a `[1600000, 1]` column of row numbers. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- The gathered source rows with a column of ones appended. -/
def updRows (h : S100000x64.Idx → EReal) (src : IVec S1600000 32) : S1600000x65.Idx → EReal :=
  concatenate S1600000x65 1
    [⟨S1600000x64, Host.gather gather_S100000x64_S1600000x1_S1600000x64_1_0_n_n_0_1_164 h (srcCol src)⟩,
     ⟨S1600000x1, broadcastInDim S1600000x1 ![] bcast_S_S1600000x1 (constant (F := Ideal) S_ .f32 0x3F800000#32)⟩]
    concatenates_S1600000x64_S1600000x1_S1600000x65_d1

/-- The `[100000, 65]` table after the accumulating scatter. -/
def scat (h : S100000x64.Idx → EReal) (src dst : IVec S1600000 32) : S100000x65.Idx → EReal :=
  Host.scatterAdd (F := Ideal) (φ := .f32) scatter_S100000x65_S1600000x1_S1600000x65_1_0_0_1
    (broadcastInDim S100000x65 ![] bcast_S_S100000x65 (constant (F := Ideal) S_ .f32 0x00000000#32))
    (broadcastInDim S1600000x1 ![0] bcast_S1600000_S1600000x1_0 dst)
    (updRows h src)

theorem msum_term (W : Valuation τ sig (Elt Ideal)) :
    (StableHlo.after (hostOps0 (F := Ideal)) W (Proc.devRef .tc main_v12) : S100000x64.Idx → EReal)
      = extractStridedSlice S100000x64 ![0, 0]
          (scat (W (Proc.devRef .tc main_arg0) : S100000x64.Idx → EReal)
                (W (Proc.devRef .tc main_arg6) : IVec S1600000 32) (W (Proc.devRef .tc main_arg7) : IVec S1600000 32))
          slices_S100000x65_S100000x64_0_0 := by
  after_results
  rfl

theorem invdeg_term (W : Valuation τ sig (Elt Ideal)) :
    (StableHlo.after (hostOps0 (F := Ideal)) W (Proc.devRef .tc main_v17) : S100000x1.Idx → EReal)
      = Host.divf (F := Ideal) (φ := .f32)
          (broadcastInDim S100000x1 ![] bcast_S_S100000x1 (constant (F := Ideal) S_ .f32 0x3F800000#32))
          (maximumf (F := Ideal) (φ := .f32)
            (extractStridedSlice S100000x1 ![0, 64]
              (scat (W (Proc.devRef .tc main_arg0) : S100000x64.Idx → EReal)
                    (W (Proc.devRef .tc main_arg6) : IVec S1600000 32) (W (Proc.devRef .tc main_arg7) : IVec S1600000 32))
              slices_S100000x65_S100000x1_0_64)
            (broadcastInDim S100000x1 ![] bcast_S_S100000x1 (constant (F := Ideal) S_ .f32 0x3F800000#32))) := by
  after_results
  rfl

/-! ## Small reads -/

theorem add_congr2 {a b c d : EReal} (h1 : a = c) (h2 : b = d) : a + b = c + d := by rw [h1, h2]

/-- The host quotient at an index. -/
theorem hostDivf_at {s : Shape} (a b : s.Idx → EReal) (i : s.Idx) :
    Host.divf (F := Ideal) (φ := .f32) a b i = Ideal.div (a i) (b i) := rfl

/-- A scalar constant repeated over a shape, at an index. -/
theorem bcastScalar_at {t : Shape} (hb : S_.BroadcastsInDim t ![]) (w : BitVec 32) (i : t.Idx) :
    broadcastInDim t ![] hb (constant (F := Ideal) S_ .f32 w) i = Ideal.ofBits .f32 w := rfl

/-! ## The table read at an entry -/

/-- The row-number column at edge `e` is the edge's normalised source word. -/
theorem srcCol_read (src : IVec S1600000 32) (e : Fin 1600000) :
    srcCol src (ix2 e (0 : Fin 1)) = wrapWord (src (ix1 e)) := by
  unfold srcCol
  refine (broadcastInDim_apply (s := S1600000) (t := S1600000x1) _ _ _ _ (ix1 e) ?_).trans ?_
  · intro a
    match a with
    | ⟨0, _⟩ => rfl
  rfl

/-- The destination column at edge `e` is the edge's destination word. -/
theorem dstCol_read (dst : IVec S1600000 32) (e : Fin 1600000) :
    broadcastInDim S1600000x1 ![0] bcast_S1600000_S1600000x1_0 dst (ix2 e (0 : Fin 1)) = dst (ix1 e) := by
  refine broadcastInDim_apply (s := S1600000) (t := S1600000x1) _ _ _ _ (ix1 e) ?_
  intro a
  match a with
  | ⟨0, _⟩ => rfl

/-- The table at node `p`, column `c`: zero plus the update rows' column `c` over the edges landing on `p`. -/
theorem scat_read (h : S100000x64.Idx → EReal) (src dst : IVec S1600000 32) (p : Fin 100000) (c : Fin 65) :
    scat h src dst (ix2 p c) = 0 + ∑ e ∈ lands dst p, updRows h src (ix2 e c) := by
  unfold scat
  refine (Cert.Lib.RowScatter.scatterAdd2_apply scatter_S100000x65_S1600000x1_S1600000x65_1_0_0_1 rfl rfl rfl rfl
    _ _ _ p c).trans ?_
  refine add_congr2 ((bcastScalar_at _ _ _).trans Ideal.ofBits_zero_f32) ?_
  unfold lands
  refine Finset.sum_congr (Finset.filter_congr fun e _ => ?_) fun _ _ => rfl
  rw [dstCol_read]

/-- A feature column of an update row is the gathered source row's feature. -/
theorem updRows_feature (h : S100000x64.Idx → EReal) (src : IVec S1600000 32) (e : Fin 1600000) (j : Fin 64) :
    updRows h src (ix2 e (⟨j.val, by have := j.isLt; omega⟩ : Fin 65)) = h (ix2 (srcRow src e) j) := by
  unfold updRows
  refine (Cert.Lib.PairConcat.concat_axis1_left (a := 1600000) (k₁ := 64) (k₂ := 1) (n := 65) _ _
    concatenates_S1600000x64_S1600000x1_S1600000x65_d1 e (⟨j.val, by have := j.isLt; omega⟩ : Fin 65) j.isLt).trans ?_
  refine (Cert.Lib.RowScatter.gather2_apply gather_S100000x64_S1600000x1_S1600000x64_1_0_n_n_0_1_164
    rfl rfl rfl rfl rfl rfl (by decide) h (srcCol src) e _).trans ?_
  unfold srcRow
  rw [srcCol_read]

/-- The last column of an update row is one. -/
theorem updRows_one (h : S100000x64.Idx → EReal) (src : IVec S1600000 32) (e : Fin 1600000) :
    updRows h src (ix2 e (⟨64, by decide⟩ : Fin 65)) = 1 := by
  unfold updRows
  refine (Cert.Lib.PairConcat.concat_axis1_right (a := 1600000) (k₁ := 64) (k₂ := 1) (n := 65) _ _
    concatenates_S1600000x64_S1600000x1_S1600000x65_d1 e (⟨64, by decide⟩ : Fin 65) (Nat.le_refl 64) (by decide)).trans ?_
  exact (bcastScalar_at _ _ _).trans Ideal.ofBits_one_f32

/-! ## The two buffers the first region reads -/

/-- The neighbour sum at node `p`, feature `j`. -/
theorem msum_read (W : Valuation τ sig (Elt Ideal)) (p : Fin 100000) (j : Fin 64) :
    (StableHlo.after (hostOps0 (F := Ideal)) W (Proc.devRef .tc main_v12) : S100000x64.Idx → EReal) (ix2 p j)
      = aggK (W (Proc.devRef .tc main_arg0) : S100000x64.Idx → EReal)
          (W (Proc.devRef .tc main_arg6) : IVec S1600000 32) (W (Proc.devRef .tc main_arg7) : IVec S1600000 32) p j := by
  rw [msum_term]
  refine (slice2_axis1_apply 0 _ _ p j (⟨j.val, by have := j.isLt; omega⟩ : Fin 65) (Nat.zero_add _).symm).trans ?_
  rw [scat_read]
  unfold aggK
  refine add_congr2 rfl ?_
  exact Finset.sum_congr rfl fun e _ => updRows_feature _ _ e j

/-- The degree column at node `p`. -/
theorem deg_read (h : S100000x64.Idx → EReal) (src dst : IVec S1600000 32) (p : Fin 100000) :
    scat h src dst (ix2 p (⟨64, by decide⟩ : Fin 65)) = degK dst p := by
  rw [scat_read]
  unfold degK
  refine add_congr2 rfl ?_
  exact Finset.sum_congr rfl fun e _ => updRows_one _ _ e

/-- The inverse degree at node `p`: one over the larger of the degree and one. -/
theorem invdeg_read (W : Valuation τ sig (Elt Ideal)) (p : Fin 100000) :
    (StableHlo.after (hostOps0 (F := Ideal)) W (Proc.devRef .tc main_v17) : S100000x1.Idx → EReal) (ix2 p (0 : Fin 1))
      = Ideal.div (Ideal.ofBits .f32 0x3F800000#32)
          (max (degK (W (Proc.devRef .tc main_arg7) : IVec S1600000 32) p) (Ideal.ofBits .f32 0x3F800000#32)) := by
  rw [invdeg_term]
  refine (hostDivf_at _ _ _).trans ?_
  refine congrArg₂ Ideal.div (bcastScalar_at _ _ _) ?_
  refine (maximumf_apply _ _ _).trans ?_
  refine congrArg₂ (max : EReal → EReal → EReal) ?_ (bcastScalar_at _ _ _)
  refine (slice2_axis1_apply 64 _ _ p (0 : Fin 1) (⟨64, by decide⟩ : Fin 65) rfl).trans ?_
  exact deg_read _ _ _ p

end Cert.KernelIdeal.HostValue
-- ==== Proof.LibIdxSums.lean ====
/-
  Sums over the index set of an array of rank three or four, as nested sums over its coordinates, and the sum over the
  indices with one coordinate fixed. Only commutativity and associativity of `+` are used, so every statement holds in
  any commutative additive monoid — on the extended reals in particular, with no finiteness.
-/
import Idealize.ShloMosaic.Lib.ValueIdx
import Mathlib.Algebra.BigOperators.Fin

open Idealize.ShloMosaic Idealize.ShloMosaic.ValueIdx

namespace Cert.Lib.IdxSums

/-- An index of a rank-3 array is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An index of a rank-4 array is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over the indices of a rank-4 array is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The sum over the indices of a rank-4 array that satisfy a predicate saying "the SECOND coordinate is `k`": the triple
    sum over the other three coordinates. -/
theorem sum_filter_axis1 {M : Type*} [AddCommMonoid M] {n0 n1 n2 n3 : Nat} (f : (⟨4, ![n0, n1, n2, n3]⟩ : Shape).Idx → M)
    (k : Fin n1) (p : (⟨4, ![n0, n1, n2, n3]⟩ : Shape).Idx → Prop) [DecidablePred p] (hp : ∀ i, p i ↔ (i 1).val = k.val) :
    ∑ i ∈ Finset.univ.filter p, f i = ∑ a : Fin n0, ∑ c : Fin n2, ∑ d : Fin n3, f (ix4 a k c d) := by
  rw [Finset.sum_filter, sum_idx4]
  refine Finset.sum_congr rfl fun a _ => ?_
  rw [Finset.sum_eq_single k]
  · refine Finset.sum_congr rfl fun c _ => Finset.sum_congr rfl fun d _ => ?_
    exact if_pos ((hp _).mpr rfl)
  · intro b _ hb
    refine Finset.sum_eq_zero fun c _ => Finset.sum_eq_zero fun d _ => ?_
    exact if_neg fun h => hb (Fin.ext ((hp _).mp h))
  · intro h; exact absurd (Finset.mem_univ _) h

end Cert.Lib.IdxSums
-- ==== Proof.KI.Host1.lean ====
import proofs.«158367_j15779709845544_2_alg».proof.Proof.KI.LaunchP
import proofs.«158367_j15779709845544_2_alg».proof.Proof.LibIdxSums
import Idealize.ShloMosaic.Lib.ValueIdx
import Idealize.ShloMosaic.Lib.Pipeline.Value
import Idealize.ShloMosaic.Lib.StableHlo.Run
import Idealize.ShloMosaic.Lib.ValueLayout
import Idealize.ShloMosaic.PureOps.Ideal.Laws

/-! # The middle host stretch read at an index

Between the two kernel regions the program turns the per-core partial column sums `[2, 8, 64]` into the
batch statistics: the total over the two leading axes, divided by the row count, gives the mean; the
same for the squares, minus the squared mean, clamped below at zero, plus epsilon, under a reciprocal
square root, gives the inverse standard deviation. Each `[64]` row (mean, inverse deviation, scale,
shift) is then laid out twice side by side as a `[1, 128]` row, and the `[100000, 64]` activations are
reshaped to `[50000, 128]`, so that column `l` of the wide layout is feature `l % 64` of row
`2 * r + l / 64`. -/

noncomputable section

namespace Cert.KernelIdeal.HostValue

open scoped BigOperators
open Idealize.ShloMosaic Idealize.ShloMosaic.ValueIdx
open Cert.KernelIdeal Cert.KernelIdeal.Gen Cert.KernelIdeal.GenP

/-! ## The sum over the two leading axes -/

/-- Column `q` of a `[2, 8, 64]` array summed over its two leading axes, from zero. -/
def tot (A : (⟨3, ![2, 8, 64]⟩ : Shape).Idx → EReal) (q : Fin 64) : EReal :=
  0 + ∑ c : Fin 2, ∑ r : Fin 8, A (ix3 c r q)

theorem tot_eq (A : (⟨3, ![2, 8, 64]⟩ : Shape).Idx → EReal) (q : Fin 64) :
    tot A q = ∑ c : Fin 2, ∑ r : Fin 8, A (ix3 c r q) := zero_add _

/-- The host's sum over axes `[0, 1]` of a `[2, 8, 64]` array, read at column `q`: the initial value plus the
double sum over the two leading coordinates. -/
theorem hostReduce_lead2 (h : S2x8x64.ReducesTo [0, 1] S64) (x : S2x8x64.Idx → EReal) (init : EReal) (q : Fin 64) :
    Ideal.hostReduceAdd h x init (ix1 q) = init + ∑ c : Fin 2, ∑ r : Fin 8, x (ix3 c r q) := by
  unfold Ideal.hostReduceAdd
  congr 1
  rw [Finset.sum_filter, Cert.Lib.IdxSums.sum_idx3]
  refine Finset.sum_congr rfl fun c _ => Finset.sum_congr rfl fun r _ => ?_
  have hd : ∀ k : Fin 64, h.drop (ix3 c r k) = ix1 k := fun k => by
    funext b
    match b with
    | ⟨0, _⟩ => exact Fin.ext (Shape.ReducesTo.drop_apply_val_of_eq h (ix3 c r k) 0 2)
  rw [Finset.sum_eq_single q]
  · rw [if_pos (hd q)]
  · intro k _ hk
    rw [if_neg]
    rw [hd k]
    intro e
    exact hk (congrFun e 0)
  · intro hq
    exact absurd (Finset.mem_univ _) hq

/-! ## A `[64]` row laid out twice as a `[1, 128]` row -/

/-- A `[64]` row reshaped to `[1, 64]`, repeated to `[2, 64]`, flattened to `[128]` and reshaped to `[1, 128]`. -/
def tileRow (x : S64.Idx → EReal) : S1x128.Idx → EReal :=
  shapeCast S1x128
    (shapeCast S128
      (broadcastInDim S2x64 ![0, 1] bcast_S1x64_S2x64_0_1 (shapeCast S1x64 x shapeCasts_S64_S1x64))
      shapeCasts_S2x64_S128)
    shapeCasts_S128_S1x128

/-- Column `l` of the tiled row is entry `l % 64` of the row. -/
theorem tileRow_read (x : S64.Idx → EReal) (l : Fin 128) :
    tileRow x (ix2 (0 : Fin 1) l) = x (ix1 (⟨l.val % 64, Nat.mod_lt _ (by decide)⟩ : Fin 64)) := by
  unfold tileRow
  refine (shapeCast_a_1a_apply _ _ _ _).trans ?_
  refine (shapeCast_apply (s := S2x64) (t := S128) _ _ _
    (ix2 (⟨l.val / 64, by have := l.isLt; omega⟩ : Fin 2) (⟨l.val % 64, Nat.mod_lt _ (by decide)⟩ : Fin 64)) ?_).trans ?_
  · rw [Shape.rowMajor_val_two, Shape.rowMajor_val_one]
    show (l.val / 64) * 64 + l.val % 64 = l.val
    omega
  refine (broadcastInDim_apply (s := S1x64) (t := S2x64) _ _ _ _
    (ix2 (0 : Fin 1) (⟨l.val % 64, Nat.mod_lt _ (by decide)⟩ : Fin 64)) ?_).trans ?_
  · intro a
    match a with
    | ⟨0, _⟩ => rfl
    | ⟨1, _⟩ => rfl
  exact shapeCast_a_1a_apply _ _ _ _

/-! ## The statistics rows as vectors -/

/-- The mean row: the column totals of the partial sums divided by the row count `100000`. -/
def meanVec (A : S2x8x64.Idx → EReal) : S64.Idx → EReal :=
  Host.divf (F := Ideal) (φ := .f32)
    (Host.reduceAdd (F := Ideal) (φ := .f32) A (constant (F := Ideal) S_ .f32 0x00000000#32) reducesTo_S2x8x64_S64_d0_1 h_S_)
    (broadcastInDim S64 ![] bcast_S_S64 (constant (F := Ideal) S_ .f32 0x47C35000#32))

/-- The inverse-deviation row: `rsqrt (max (sumsq / N - mean * mean) 0 + eps)`. -/
def invstdVec (A1 A2 : S2x8x64.Idx → EReal) : S64.Idx → EReal :=
  Host.rsqrt (F := Ideal) (φ := .f32)
    (addf (F := Ideal) (φ := .f32)
      (maximumf (F := Ideal) (φ := .f32)
        (subf (F := Ideal) (φ := .f32)
          (Host.divf (F := Ideal) (φ := .f32)
            (Host.reduceAdd (F := Ideal) (φ := .f32) A2 (constant (F := Ideal) S_ .f32 0x00000000#32) reducesTo_S2x8x64_S64_d0_1 h_S_)
            (broadcastInDim S64 ![] bcast_S_S64 (constant (F := Ideal) S_ .f32 0x47C35000#32)))
          (mulf (F := Ideal) (φ := .f32) (meanVec A1) (meanVec A1)))
        (broadcastInDim S64 ![] bcast_S_S64 (constant (F := Ideal) S_ .f32 0x00000000#32)))
      (broadcastInDim S64 ![] bcast_S_S64 (constant (F := Ideal) S_ .f32 0x3727C5AC#32)))

/-- The mean at feature `q`. -/
theorem meanVec_read (A : S2x8x64.Idx → EReal) (q : Fin 64) :
    meanVec A (ix1 q) = Ideal.div (tot A q) (Ideal.ofBits .f32 0x47C35000#32) := by
  show Ideal.div (Ideal.hostReduceAdd reducesTo_S2x8x64_S64_d0_1 A (Ideal.ofBits .f32 0x00000000#32) (ix1 q))
      (Ideal.ofBits .f32 0x47C35000#32) = _
  rw [hostReduce_lead2, Ideal.ofBits_zero_f32]
  rfl

/-- The inverse deviation at feature `q`. -/
theorem invstdVec_read (A1 A2 : S2x8x64.Idx → EReal) (q : Fin 64) :
    invstdVec A1 A2 (ix1 q)
      = Ideal.rsqrt
          (max (Ideal.div (tot A2 q) (Ideal.ofBits .f32 0x47C35000#32) - meanVec A1 (ix1 q) * meanVec A1 (ix1 q))
               (Ideal.ofBits .f32 0x00000000#32)
            + Ideal.ofBits .f32 0x3727C5AC#32) := by
  show Ideal.rsqrt
      (max (Ideal.div (Ideal.hostReduceAdd reducesTo_S2x8x64_S64_d0_1 A2 (Ideal.ofBits .f32 0x00000000#32) (ix1 q))
              (Ideal.ofBits .f32 0x47C35000#32) - meanVec A1 (ix1 q) * meanVec A1 (ix1 q))
           (Ideal.ofBits .f32 0x00000000#32)
        + Ideal.ofBits .f32 0x3727C5AC#32) = _
  rw [hostReduce_lead2, Ideal.ofBits_zero_f32]
  rfl

/-! ## What the stretch leaves in the buffers the second region reads -/

theorem x2_term (W : Valuation τ sig (Elt Ideal)) :
    (StableHlo.after (hostOps1 (F := Ideal)) W (Proc.devRef .tc main_v35) : S50000x128.Idx → EReal)
      = shapeCast S50000x128 (W (Proc.devRef .tc main_v21_0) : S100000x64.Idx → EReal) shapeCasts_S100000x64_S50000x128 := by
  after_results
  rfl

theorem mean2_term (W : Valuation τ sig (Elt Ideal)) :
    (StableHlo.after (hostOps1 (F := Ideal)) W (Proc.devRef .tc main_v39) : S1x128.Idx → EReal)
      = tileRow (meanVec (W (Proc.devRef .tc main_v21_1) : S2x8x64.Idx → EReal)) := by
  after_results
  rfl

theorem invstd2_term (W : Valuation τ sig (Elt Ideal)) :
    (StableHlo.after (hostOps1 (F := Ideal)) W (Proc.devRef .tc main_v43) : S1x128.Idx → EReal)
      = tileRow (invstdVec (W (Proc.devRef .tc main_v21_1) : S2x8x64.Idx → EReal)
                           (W (Proc.devRef .tc main_v21_2) : S2x8x64.Idx → EReal)) := by
  after_results_simp
  rfl

theorem gamma2_term (W : Valuation τ sig (Elt Ideal)) :
    (StableHlo.after (hostOps1 (F := Ideal)) W (Proc.devRef .tc main_v47) : S1x128.Idx → EReal)
      = tileRow (W (Proc.devRef .tc main_arg4) : S64.Idx → EReal) := by
  after_results
  rfl

theorem beta2_term (W : Valuation τ sig (Elt Ideal)) :
    (StableHlo.after (hostOps1 (F := Ideal)) W (Proc.devRef .tc main_v51) : S1x128.Idx → EReal)
      = tileRow (W (Proc.devRef .tc main_arg5) : S64.Idx → EReal) := by
  after_results
  rfl

/-! ## The same, read at an index -/

/-- The wide activations at row `r`, column `l`: feature `l % 64` of row `2 * r + l / 64`. -/
theorem x2_read (W : Valuation τ sig (Elt Ideal)) (r : Fin 50000) (l : Fin 128) :
    (StableHlo.after (hostOps1 (F := Ideal)) W (Proc.devRef .tc main_v35) : S50000x128.Idx → EReal) (ix2 r l)
      = (W (Proc.devRef .tc main_v21_0) : S100000x64.Idx → EReal)
          (ix2 (⟨2 * r.val + l.val / 64, by have := r.isLt; have := l.isLt; omega⟩ : Fin 100000)
               (⟨l.val % 64, Nat.mod_lt _ (by decide)⟩ : Fin 64)) := by
  rw [x2_term]
  refine shapeCast_apply (s := S100000x64) (t := S50000x128) _ _ _ _ ?_
  rw [Shape.rowMajor_val_two, Shape.rowMajor_val_two]
  show (2 * r.val + l.val / 64) * 64 + l.val % 64 = r.val * 128 + l.val
  omega

theorem mean2_read (W : Valuation τ sig (Elt Ideal)) (l : Fin 128) :
    (StableHlo.after (hostOps1 (F := Ideal)) W (Proc.devRef .tc main_v39) : S1x128.Idx → EReal) (ix2 (0 : Fin 1) l)
      = Ideal.div (tot (W (Proc.devRef .tc main_v21_1) : S2x8x64.Idx → EReal) (⟨l.val % 64, Nat.mod_lt _ (by decide)⟩ : Fin 64))
          (Ideal.ofBits .f32 0x47C35000#32) := by
  rw [mean2_term, tileRow_read, meanVec_read]

theorem invstd2_read (W : Valuation τ sig (Elt Ideal)) (l : Fin 128) :
    (StableHlo.after (hostOps1 (F := Ideal)) W (Proc.devRef .tc main_v43) : S1x128.Idx → EReal) (ix2 (0 : Fin 1) l)
      = Ideal.rsqrt
          (max (Ideal.div (tot (W (Proc.devRef .tc main_v21_2) : S2x8x64.Idx → EReal) (⟨l.val % 64, Nat.mod_lt _ (by decide)⟩ : Fin 64))
                  (Ideal.ofBits .f32 0x47C35000#32)
                - Ideal.div (tot (W (Proc.devRef .tc main_v21_1) : S2x8x64.Idx → EReal) (⟨l.val % 64, Nat.mod_lt _ (by decide)⟩ : Fin 64))
                    (Ideal.ofBits .f32 0x47C35000#32)
                  * Ideal.div (tot (W (Proc.devRef .tc main_v21_1) : S2x8x64.Idx → EReal) (⟨l.val % 64, Nat.mod_lt _ (by decide)⟩ : Fin 64))
                    (Ideal.ofBits .f32 0x47C35000#32))
               (Ideal.ofBits .f32 0x00000000#32)
            + Ideal.ofBits .f32 0x3727C5AC#32) := by
  rw [invstd2_term, tileRow_read, invstdVec_read, meanVec_read]

theorem gamma2_read (W : Valuation τ sig (Elt Ideal)) (l : Fin 128) :
    (StableHlo.after (hostOps1 (F := Ideal)) W (Proc.devRef .tc main_v47) : S1x128.Idx → EReal) (ix2 (0 : Fin 1) l)
      = (W (Proc.devRef .tc main_arg4) : S64.Idx → EReal) (ix1 (⟨l.val % 64, Nat.mod_lt _ (by decide)⟩ : Fin 64)) := by
  rw [gamma2_term, tileRow_read]

theorem beta2_read (W : Valuation τ sig (Elt Ideal)) (l : Fin 128) :
    (StableHlo.after (hostOps1 (F := Ideal)) W (Proc.devRef .tc main_v51) : S1x128.Idx → EReal) (ix2 (0 : Fin 1) l)
      = (W (Proc.devRef .tc main_arg5) : S64.Idx → EReal) (ix1 (⟨l.val % 64, Nat.mod_lt _ (by decide)⟩ : Fin 64)) := by
  rw [beta2_term, tileRow_read]

end Cert.KernelIdeal.HostValue
-- ==== Proof.KI.Host2.lean ====
import proofs.«158367_j15779709845544_2_alg».proof.Proof.KI.LaunchP
import Idealize.ShloMosaic.Lib.ValueIdx
import Idealize.ShloMosaic.Lib.Pipeline.Value
import Idealize.ShloMosaic.Lib.StableHlo.Run
import Idealize.ShloMosaic.Lib.ValueLayout

/-! # The last host stretch read at an index

The program's last host stretch is one reshape of the normalised `[50000, 128]` array to the result
`[100000, 64]`. Row-major positions agree: row `p`, column `q` of the result sits at `p * 64 + q`,
which is row `p / 2`, column `(p % 2) * 64 + q` of the operand. -/

noncomputable section

namespace Cert.KernelIdeal.HostValue

open Idealize.ShloMosaic Idealize.ShloMosaic.ValueIdx
open Cert.KernelIdeal Cert.KernelIdeal.Gen Cert.KernelIdeal.GenP

/-- What the last stretch leaves in the result buffer: the operand reshaped. -/
theorem out_term (W : Valuation τ sig (Elt Ideal)) :
    (StableHlo.after (hostOps2 (F := Ideal)) W (Proc.devRef .tc main_v53) : S100000x64.Idx → EReal)
      = shapeCast S100000x64 (W (Proc.devRef .tc main_v52) : S50000x128.Idx → EReal) shapeCasts_S50000x128_S100000x64 := by
  after_results
  rfl

/-- The result at row `p`, column `q` is the operand at row `p / 2`, column `(p % 2) * 64 + q`. -/
theorem out_read (W : Valuation τ sig (Elt Ideal)) (p : Fin 100000) (q : Fin 64) :
    (StableHlo.after (hostOps2 (F := Ideal)) W (Proc.devRef .tc main_v53) : S100000x64.Idx → EReal) (ix2 p q)
      = (W (Proc.devRef .tc main_v52) : S50000x128.Idx → EReal)
          (ix2 (⟨p.val / 2, by have := p.isLt; omega⟩ : Fin 50000) (⟨(p.val % 2) * 64 + q.val, by have := q.isLt; omega⟩ : Fin 128)) := by
  rw [out_term]
  refine shapeCast_apply (s := S50000x128) (t := S100000x64) _ _ _ _ ?_
  rw [Shape.rowMajor_val_two, Shape.rowMajor_val_two]
  show (p.val / 2) * 128 + ((p.val % 2) * 64 + q.val) = p.val * 64 + q.val
  omega

end Cert.KernelIdeal.HostValue
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibColSum.lean ====
/- A sum down the rows of a matrix, on the extended reals, for any extents: a `vector.multi_reduction <add>` along
   axis 0 of an [A, K] array from the neutral accumulator, read at column q, is the sum over the row coordinate k of
   the matrix at (k, q). The companion of the lane sum along axis 1. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.ColSum

/-- A sum down the rows from the neutral accumulator, read at column q: the sum over the row coordinate of the matrix
    at (k, q). The hypotheses are typed as the library's reading of the reduction takes them; a printed body's proof
    arguments are accepted for them. -/
theorem colSum_apply {A K : ℕ} (src : FVec Ideal ⟨2, ![A, K]⟩ .f32) (acc : BitVec 32)
    (h : (⟨2, ![A, K]⟩ : Shape).Reduces [0] ⟨1, ![K]⟩) (hφ : FKind.Formats .f32) (hacc : acc = FKind.add.neutral .f32 hφ)
    (q : Fin K) :
    multiReduction .add [0] ⟨1, ![K]⟩ src acc h hφ hacc (ix1 q) = ∑ k : Fin A, src (ix2 k q) :=
  (Ideal.multiReduction_add_single src acc h hφ hacc (ix1 q)).trans
    (Finset.sum_congr rfl fun k _ => congrArg src (funext fun a => Fin.ext (by
      match a with
      | ⟨0, _⟩ => rfl
      | ⟨1, _⟩ => rfl)))

end Cert.Lib.ColSum

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.KI.Payloads.lean ====
/- The values the two kernel bodies store, read at coordinates on the extended reals. Region 0's tile value is
   out(r, q) = Σ_j x0(r, j) · w1(j, q) + Σ_j (x1(r, j) · x2(r, 0)) · w2(j, q) + b(0, q); its two column statistics are the
   sums over the tile's rows of out and of out², laid out as one row; the accumulators add one row, scaled by 1/8 and
   broadcast down their 8 rows; the copies to the outputs only add a leading unit axis. Region 1's tile value is
   max(((x − μ) · s) · γ + β, 0) with the four rows broadcast down the tile. Format changes are the identity here and a
   cast to the same shape is the identity. -/
import proofs.«158367_j15779709845544_2_alg».proof.Proof.Gen.KernelIdeal.Skeleton
import proofs.«158367_j15779709845544_2_alg».proof.Proof.LibPlainMatmul
import proofs.«158367_j15779709845544_2_alg».proof.Proof.LibColSum
import proofs.«158367_j15779709845544_2_alg».proof.Proof.LibBroadcastReads
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

open Idealize.ShloMosaic Idealize.ShloMosaic.ValueIdx Idealize.SL.Sem
open Cert.KernelIdeal Cert.KernelIdeal.Gen

namespace Cert.KernelIdeal.PayValue

/-- The constant 1/8 row the accumulators scale by. -/
theorem pay10_read (q : Fin 64) :
    k0_pay10 (F := Ideal) (ix2 (0 : Fin 1) q) = Ideal.ofBits .f32 0x3E000000#32 := rfl

/-- The zero tile the first accumulator starts from. -/
theorem pay5_read (a : Fin 8) (q : Fin 64) : k0_pay5 (F := Ideal) (ix2 a q) = 0 := by
  unfold k0_pay5
  rw [shapeCast_self, broadcast_apply]
  exact Ideal.ofBits_zero_f32

/-- The zero tile the second accumulator starts from. -/
theorem pay6_read (a : Fin 8) (q : Fin 64) : k0_pay6 (F := Ideal) (ix2 a q) = 0 := by
  unfold k0_pay6
  rw [shapeCast_self, broadcast_apply]
  exact Ideal.ofBits_zero_f32

/-- The first accumulator's update: the old tile plus the row v27 · v32 broadcast down the 8 rows. -/
theorem pay1_read (v27 v32 : FVec Ideal S1x64 .f32) (v31 : Vec Ideal S8x64 .f32) (a : Fin 8) (q : Fin 64) :
    k0_pay1 (F := Ideal) v27 v31 v32 (ix2 a q)
      = v31 (ix2 a q) + v27 (ix2 (0 : Fin 1) q) * v32 (ix2 (0 : Fin 1) q) := by
  unfold k0_pay1
  rw [shapeCast_self, shapeCast_self, addf_apply, broadcastTo_1b_ab_apply, mulf_apply]

/-- The second accumulator's update: the old tile plus the row v30 · (1/8) broadcast down the 8 rows. -/
theorem pay2_read (v30 : FVec Ideal S1x64 .f32) (v40 : Vec Ideal S8x64 .f32) (a : Fin 8) (q : Fin 64) :
    k0_pay2 (F := Ideal) v30 v40 (ix2 a q)
      = v40 (ix2 a q) + v30 (ix2 (0 : Fin 1) q) * Ideal.ofBits .f32 0x3E000000#32 := by
  unfold k0_pay2
  rw [shapeCast_self, shapeCast_self, addf_apply, broadcastTo_1b_ab_apply, mulf_apply, broadcast_apply]
  rfl

/-- The first accumulator copied out: a leading unit axis added. -/
theorem pay3_read (v : Vec Ideal S8x64 .f32) (a : Fin 8) (q : Fin 64) :
    k0_pay3 (F := Ideal) v (ix3 (0 : Fin 1) a q) = v (ix2 a q) := by
  unfold k0_pay3
  exact shapeCast_ab_1ab_apply v _ (0 : Fin 1) a q

/-- The second accumulator copied out: a leading unit axis added. -/
theorem pay4_read (v : Vec Ideal S8x64 .f32) (a : Fin 8) (q : Fin 64) :
    k0_pay4 (F := Ideal) v (ix3 (0 : Fin 1) a q) = v (ix2 a q) := by
  unfold k0_pay4
  exact shapeCast_ab_1ab_apply v _ (0 : Fin 1) a q

/-- Region 1's tile: the normalisation and the clamp at zero, the four rows broadcast down the tile. -/
theorem pay1k1_read (x : Vec Ideal S5000x128 .f32) (mu isd g be : Vec Ideal S1x128 .f32) (r : Fin 5000) (l : Fin 128) :
    k1_pay1 (F := Ideal) x mu isd g be (ix2 r l)
      = max (((x (ix2 r l) - mu (ix2 (0 : Fin 1) l)) * isd (ix2 (0 : Fin 1) l)) * g (ix2 (0 : Fin 1) l)
          + be (ix2 (0 : Fin 1) l)) 0 := by
  unfold k1_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rw [show (Scalar.ofBits (F := Ideal) .f32 0x00000000#32 : Ideal .f32) = 0 from Ideal.ofBits_zero_f32]

/-- The tile of region 0, read at (r, q): two matrix products (the second's left operand scaled row by row), added,
    plus the bias row. -/
theorem pay7_read (x0 x1 : Vec Ideal S5000x64 .f32) (x2 : Vec Ideal S5000x1 .f32) (w1 w2 : Vec Ideal S64x64 .f32)
    (b : Vec Ideal S1x64 .f32) (r : Fin 5000) (q : Fin 64) :
    k0_pay7 (F := Ideal) x0 x1 x2 w1 w2 b (ix2 r q)
      = ((∑ j : Fin 64, x0 (ix2 r j) * w1 (ix2 j q))
          + (∑ j : Fin 64, (x1 (ix2 r j) * x2 (ix2 r (0 : Fin 1))) * w2 (ix2 j q))) + b (ix2 (0 : Fin 1) q) := by
  unfold k0_pay7
  simp only [shapeCast_self]
  rw [addf_apply, addf_apply, broadcastTo_1b_ab_apply]
  have hm : ∀ (l : FVec Ideal S5000x64 .bf16) (rr : FVec Ideal S64x64 .bf16),
      matmul dot_S5000x64_S64x64_S5000x64_1_0_0_1_n_n none l rr
          (constant (F := Ideal) S5000x64 .f32 0x00000000#32) (ix2 r q)
        = ∑ k : Fin 64, l (ix2 r k) * rr (ix2 k q) :=
    fun l rr => Cert.Lib.PlainMatmul.plain_matmul_zero_apply l rr r q
  rw [hm, hm]
  refine congrArg₂ (· + ·) (congrArg₂ (· + ·) rfl ?_) rfl
  exact Finset.sum_congr rfl fun j _ => by
    rw [truncf_apply, truncf_apply, mulf_apply, Cert.Lib.BroadcastReads.broadcastTo_a1_ab_apply]

/-- The tile's column sums, as one row. -/
theorem pay8_read (x0 x1 : Vec Ideal S5000x64 .f32) (x2 : Vec Ideal S5000x1 .f32) (w1 w2 : Vec Ideal S64x64 .f32)
    (b : Vec Ideal S1x64 .f32) (q : Fin 64) :
    k0_pay8 (F := Ideal) x0 x1 x2 w1 w2 b (ix2 (0 : Fin 1) q)
      = ∑ r : Fin 5000, k0_pay7 (F := Ideal) x0 x1 x2 w1 w2 b (ix2 r q) := by
  unfold k0_pay8
  generalize k0_pay7 (F := Ideal) x0 x1 x2 w1 w2 b = T
  refine (shapeCast_a_1a_apply _ _ (0 : Fin 1) q).trans ?_
  exact Cert.Lib.ColSum.colSum_apply T 0x00000000#32 _ _ _ q

/-- The column sums of the tile's squares, as one row. -/
theorem pay9_read (x0 x1 : Vec Ideal S5000x64 .f32) (x2 : Vec Ideal S5000x1 .f32) (w1 w2 : Vec Ideal S64x64 .f32)
    (b : Vec Ideal S1x64 .f32) (q : Fin 64) :
    k0_pay9 (F := Ideal) x0 x1 x2 w1 w2 b (ix2 (0 : Fin 1) q)
      = ∑ r : Fin 5000, k0_pay7 (F := Ideal) x0 x1 x2 w1 w2 b (ix2 r q)
          * k0_pay7 (F := Ideal) x0 x1 x2 w1 w2 b (ix2 r q) := by
  unfold k0_pay9
  generalize k0_pay7 (F := Ideal) x0 x1 x2 w1 w2 b = T
  refine (shapeCast_a_1a_apply _ _ (0 : Fin 1) q).trans ?_
  refine (Cert.Lib.ColSum.colSum_apply (mulf T T) 0x00000000#32 _ _ _ q).trans ?_
  exact Finset.sum_congr rfl fun r _ => mulf_apply T T (ix2 r q)

end Cert.KernelIdeal.PayValue

end
-- ==== Proof.Spec.lean ====
/-
  The specification: a GraphSAGE layer followed by a batch normalisation and a
  rectifier, as plain matrices over the extended reals. Nothing here mentions a program.

  Two groupings of the affine stage (`outK`, `outR`) and two forms of the
  normalisation (`normK` from the column totals of the values and of their squares,
  `normR` from the centred second moment) are stated; Law.lean proves that they agree on
  real data.
-/
import Idealize.ShloMosaic.PureOps.Ideal
import Idealize.ShloMosaic.Lib.ValueIdx

noncomputable section

namespace Cert.Sage

open scoped BigOperators
open Idealize.ShloMosaic

/-- An `n × d` matrix of extended reals. -/
abbrev Mat (n d : Nat) := Fin n → Fin d → EReal

/-- A rank-2 array read as a matrix. -/
def mat {n d : Nat} (A : (⟨2, ![n, d]⟩ : Idealize.ShloMosaic.Shape).Idx → EReal) : Mat n d :=
  fun p q => A (Idealize.ShloMosaic.ValueIdx.ix2 p q)

/-- A rank-1 array read as a vector. -/
def vec {d : Nat} (A : (⟨1, ![d]⟩ : Idealize.ShloMosaic.Shape).Idx → EReal) : Fin d → EReal :=
  fun q => A (Idealize.ShloMosaic.ValueIdx.ix1 q)

/-- kernel grouping: (h·WsT + (msum ⊙ invdeg)·WnT) + b -/
def outK (h msum : Mat 100000 64) (invdeg : Fin 100000 → EReal) (WsT WnT : Mat 64 64)
    (b : Fin 64 → EReal) : Mat 100000 64 :=
  fun p q => ((∑ j, h p j * WsT j q) + (∑ j, (msum p j * invdeg p) * WnT j q)) + b q

/-- reference grouping: (h·WsT + b) + (msum / degm)·WnT , degm = max deg 1 -/
def outR (h msum : Mat 100000 64) (degm : Fin 100000 → EReal) (WsT WnT : Mat 64 64)
    (b : Fin 64 → EReal) : Mat 100000 64 :=
  fun p q => ((∑ j, h p j * WsT j q) + b q)
    + (∑ j, Idealize.ShloMosaic.Ideal.div (msum p j) (degm p) * WnT j q)

/-- The total of each column. -/
def colTot (u : Mat 100000 64) : Fin 64 → EReal := fun q => ∑ p, u p q

/-- The total of the squares of each column. -/
def colTotSq (u : Mat 100000 64) : Fin 64 → EReal := fun q => ∑ p, u p q * u p q

/-- the kernel's normalisation from two column totals S, Q it computed:
    mean = S/Nr, var = max (Q/Nr - mean*mean) 0 -/
def normK (Nr eps : EReal) (u : Mat 100000 64) (S Q g be : Fin 64 → EReal) : Mat 100000 64 :=
  fun p q => max ((u p q - Ideal.div (S q) Nr)
      * Ideal.rsqrt (max (Ideal.div (Q q) Nr - Ideal.div (S q) Nr * Ideal.div (S q) Nr) 0 + eps)
      * g q + be q) 0

/-- the reference's: mean = (Σ u)/Nr, var = (Σ (u - mean)²)/Nr -/
def normR (Nr eps : EReal) (u : Mat 100000 64) (g be : Fin 64 → EReal) : Mat 100000 64 :=
  fun p q => max ((u p q - Ideal.div (colTot u q) Nr)
      * Ideal.rsqrt (Ideal.div (∑ p', (u p' q - Ideal.div (colTot u q) Nr)
          * (u p' q - Ideal.div (colTot u q) Nr)) Nr + eps)
      * g q + be q) 0

/-- The sum of one 5000-row tile of a column. -/
def tileTot (u : Mat 100000 64) (k : Fin 20) (q : Fin 64) : EReal :=
  ∑ r : Fin 5000, u ⟨k.val * 5000 + r.val, by have := k.isLt; have := r.isLt; omega⟩ q

end Cert.Sage

end
-- ==== Proof.LibIsReal.lean ====
/-
  Extended reals that are real numbers.

  A float input that is finite denotes, at the ideal instance, an extended real that is neither infinity: a real
  number. Sums, differences, products and maxima of real numbers are real, and so is a quotient by a nonzero real;
  the laws of arithmetic that fail at the infinities (distributivity, cancellation) hold on such values.
-/
import Idealize.ShloMosaic.PureOps.Ideal

noncomputable section

namespace Cert.Reals

open Idealize.ShloMosaic

/-- `x` is a real number: not an infinity. -/
def IsReal (x : EReal) : Prop := ∃ a : ℝ, x = (a : EReal)

theorem isReal_coe (a : ℝ) : IsReal (a : EReal) := ⟨a, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (by exact_mod_cast h)⟩
  · exact ⟨a, max_eq_left (by exact_mod_cast h)⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real number by a nonzero real number is a real number. -/
theorem IsReal.div_coe {x : EReal} (hx : IsReal x) {y : ℝ} (hy : y ≠ 0) : IsReal (Ideal.div x (y : EReal)) := by
  rw [Ideal.div_coe hy]; exact hx.mul (isReal_coe _)

/-- The quotient of a real number by an extended real that is at least one is a real number: the divisor is a
    nonzero real, or `+∞`, whose inverse is zero. -/
theorem IsReal.div_of_one_le {x y : EReal} (hx : IsReal x) (hy : 1 ≤ y) : IsReal (Ideal.div x y) := by
  obtain ⟨a, rfl⟩ := hx
  induction y using EReal.rec with
  | bot => exact absurd (le_bot_iff.mp hy) (by rw [← EReal.coe_one]; exact EReal.coe_ne_bot 1)
  | top => exact ⟨0, by simp [Ideal.div]⟩
  | coe b =>
    have hb : (1 : ℝ) ≤ b := by exact_mod_cast hy
    exact (isReal_coe a).div_coe (by linarith : b ≠ 0)

end Cert.Reals

end
-- ==== Proof.LibVariance.lean ====
/-
  The sum of squares about the mean, written two ways. For real numbers `x k` indexed by a finite type with `N`
  elements, `N ≠ 0`, and `S = ∑ x k`:

      ∑ (x k)^2 - S * S / N  =  ∑ (x k - S / N)^2 .

  Expanding the square on the right gives `∑ (x k)^2 - 2 (S / N) S + N (S / N)^2`, and the last two terms are
  `- S^2 / N`. The law is stated on the extended reals for entries that are real numbers, with the extended reals'
  own quotient: a sum of reals is a real, a quotient by a nonzero real is a product with its reciprocal, so both
  sides are the coercions of the two sides of the law over the reals.
-/
import Idealize.ShloMosaic.PureOps.Ideal

noncomputable section

open scoped BigOperators

namespace Cert.Variance

open Idealize.ShloMosaic

variable {ι : Type}

/-- A finite sum of real numbers, read in the extended reals, is the sum of the numbers read there. -/
theorem coe_sum (s : Finset ι) (x : ι → ℝ) : ((∑ k ∈ s, x k : ℝ) : EReal) = ∑ k ∈ s, (x k : EReal) := by
  classical
  induction s using Finset.induction_on with
  | empty => simp
  | insert a s ha ih => rw [Finset.sum_insert ha, Finset.sum_insert ha, EReal.coe_add, ih]

/-- The law over the reals. -/
theorem real_law [Fintype ι] (x : ι → ℝ) (N : ℝ) (hN : N ≠ 0) (hc : (Fintype.card ι : ℝ) = N) :
    (∑ k, x k * x k) - (∑ k, x k) * (∑ k, x k) * (1 / N)
      = ∑ k, (x k - (∑ k, x k) * (1 / N)) * (x k - (∑ k, x k) * (1 / N)) := by
  generalize hS : (∑ k, x k) = S
  have hsq : ∀ k, (x k - S * (1 / N)) * (x k - S * (1 / N))
      = x k * x k - 2 * (S * (1 / N)) * x k + (S * (1 / N)) * (S * (1 / N)) := fun k => by ring
  simp only [hsq, Finset.sum_add_distrib, Finset.sum_sub_distrib, ← Finset.mul_sum, Finset.sum_const,
    Finset.card_univ, nsmul_eq_mul, hc, hS]
  field_simp
  ring

/-- The law on the extended reals, for real entries. -/
theorem sumsq_sub_eq [Fintype ι] (x : ι → ℝ) (N : ℝ) (hN : N ≠ 0) (hc : (Fintype.card ι : ℝ) = N) :
    (∑ k, (x k : EReal) * (x k : EReal))
        - Ideal.div ((∑ k, (x k : EReal)) * (∑ k, (x k : EReal))) (N : EReal)
      = ∑ k, ((x k : EReal) - Ideal.div (∑ k, (x k : EReal)) (N : EReal))
          * ((x k : EReal) - Ideal.div (∑ k, (x k : EReal)) (N : EReal)) := by
  rw [← coe_sum, Ideal.div_coe hN, Ideal.div_coe hN]
  simp only [← EReal.coe_mul, ← EReal.coe_sub, ← coe_sum]
  exact congrArg _ (real_law x N hN hc)

end Cert.Variance

end
-- ==== Proof.LibNormSpec.lean ====
/-
  A graph-isomorphism layer with batch normalisation, as functions of matrices of extended reals.

  Nodes are rows. A layer adds to each node's row the sum of its in-neighbours' rows (the aggregate, taken here as a
  given matrix `a`), applies a first affine map, normalises every column by its mean and variance over all the rows,
  scales and shifts it, cuts it at zero, and applies a second affine map. The variance of a column is written in
  two ways: the mean of the squares minus the square of the mean (`varK`), and the mean of the squared deviations
  from the mean (`varR`). They agree on real numbers and may differ at the infinities.

  Everything is stated over plain matrices `Fin n → Fin d → EReal`; `mat`, `row` and `vec` read a rank-2 array, a
  one-row array and a rank-1 array as such.
-/
import Idealize.ShloMosaic.PureOps.Ideal
import Idealize.ShloMosaic.Lib.ValueIdx

noncomputable section

open scoped BigOperators

namespace Cert.Gin

open Idealize.ShloMosaic Idealize.ShloMosaic.ValueIdx

/-- A rank-2 array read as a matrix. -/
def mat {n d : Nat} (A : (⟨2, ![n, d]⟩ : Shape).Idx → EReal) : Fin n → Fin d → EReal := fun p q => A (ix2 p q)

/-- The one row of a `[1, d]` array. -/
def row {d : Nat} (A : (⟨2, ![1, d]⟩ : Shape).Idx → EReal) : Fin d → EReal := fun q => A (ix2 (0 : Fin 1) q)

/-- A matrix written back as a rank-2 array. -/
def unmat {n d : Nat} (M : Fin n → Fin d → EReal) : (⟨2, ![n, d]⟩ : Shape).Idx → EReal := fun i => M (i 0) (i 1)

theorem mat_unmat {n d : Nat} (M : Fin n → Fin d → EReal) : mat (unmat M) = M := rfl

theorem unmat_mat {n d : Nat} (A : (⟨2, ![n, d]⟩ : Shape).Idx → EReal) : unmat (mat A) = A :=
  funext fun i => congrArg A (eq_ix2 i).symm

/-- A rank-1 array read as a vector. -/
def vec {d : Nat} (A : (⟨1, ![d]⟩ : Shape).Idx → EReal) : Fin d → EReal := fun q => A (ix1 q)

variable {n k d e : Nat}

/-- The first affine map of a layer: `(h + a) · W + b`. -/
def pre (h a : Fin n → Fin k → EReal) (W : Fin k → Fin d → EReal) (b : Fin d → EReal) : Fin n → Fin d → EReal :=
  fun p q => (∑ j, (h p j + a p j) * W j q) + b q

/-- The sum of every column over the rows. -/
def colSum (u : Fin n → Fin d → EReal) : Fin d → EReal := fun q => ∑ p, u p q

/-- The sum of the squares of every column over the rows. -/
def colSumSq (u : Fin n → Fin d → EReal) : Fin d → EReal := fun q => ∑ p, u p q * u p q

/-- A column total divided by the number of rows `Nr`. -/
def meanOf (Nr : EReal) (S : Fin d → EReal) : Fin d → EReal := fun q => Ideal.div (S q) Nr

/-- The variance as the mean of the squares minus the square of the mean, from the two column totals. -/
def varK (Nr : EReal) (S Q : Fin d → EReal) : Fin d → EReal :=
  fun q => Ideal.div (Q q) Nr - Ideal.div (S q) Nr * Ideal.div (S q) Nr

/-- The variance as the mean of the squared deviations from the mean. -/
def varR (Nr : EReal) (u : Fin n → Fin d → EReal) : Fin d → EReal :=
  fun q => Ideal.div (∑ p, (u p q - Ideal.div (∑ p', u p' q) Nr) * (u p q - Ideal.div (∑ p', u p' q) Nr)) Nr

/-- Normalise by a given mean and variance, scale, shift, cut at zero. -/
def bnrelu (eps : EReal) (u : Fin n → Fin d → EReal) (μ v g be : Fin d → EReal) : Fin n → Fin d → EReal :=
  fun p q => max ((u p q - μ q) * Ideal.rsqrt (v q + eps) * g q + be q) 0

/-- The second affine map of a layer: `y · W + b`. -/
def lin (y : Fin n → Fin d → EReal) (W : Fin d → Fin e → EReal) (b : Fin e → EReal) : Fin n → Fin e → EReal :=
  fun p r => (∑ q, y p q * W q r) + b r

/-- A whole layer with the variance taken as the mean of the squares minus the square of the mean. -/
def layerK (Nr eps : EReal) (h a : Fin n → Fin k → EReal) (Wa : Fin k → Fin d → EReal) (ba ga bea : Fin d → EReal)
    (Wb : Fin d → Fin e → EReal) (bb : Fin e → EReal) : Fin n → Fin e → EReal :=
  lin (bnrelu eps (pre h a Wa ba) (meanOf Nr (colSum (pre h a Wa ba)))
    (varK Nr (colSum (pre h a Wa ba)) (colSumSq (pre h a Wa ba))) ga bea) Wb bb

/-- A whole layer with the variance taken as the mean of the squared deviations. -/
def layerR (Nr eps : EReal) (h a : Fin n → Fin k → EReal) (Wa : Fin k → Fin d → EReal) (ba ga bea : Fin d → EReal)
    (Wb : Fin d → Fin e → EReal) (bb : Fin e → EReal) : Fin n → Fin e → EReal :=
  lin (bnrelu eps (pre h a Wa ba) (meanOf Nr (colSum (pre h a Wa ba))) (varR Nr (pre h a Wa ba)) ga bea) Wb bb

/-- The normalisation between two layers, first form of the variance. -/
def outerK (Nr eps : EReal) (o : Fin n → Fin d → EReal) (g be : Fin d → EReal) : Fin n → Fin d → EReal :=
  bnrelu eps o (meanOf Nr (colSum o)) (varK Nr (colSum o) (colSumSq o)) g be

/-- The normalisation between two layers, second form of the variance. -/
def outerR (Nr eps : EReal) (o : Fin n → Fin d → EReal) (g be : Fin d → EReal) : Fin n → Fin d → EReal :=
  bnrelu eps o (meanOf Nr (colSum o)) (varR Nr o) g be

/-- Three layers with a normalisation after the first and after the second, first form of the variance. `A1` and
    `A2` are the neighbour aggregation at the input width and at the hidden width. -/
def netK (Nr eps : EReal) (A1 : (Fin n → Fin k → EReal) → Fin n → Fin k → EReal)
    (A2 : (Fin n → Fin d → EReal) → Fin n → Fin d → EReal) (x : Fin n → Fin k → EReal)
    (w1a : Fin k → Fin d → EReal) (b1a g1a be1a : Fin d → EReal) (w1b : Fin d → Fin d → EReal) (b1b g1 be1 : Fin d → EReal)
    (w2a : Fin d → Fin d → EReal) (b2a g2a be2a : Fin d → EReal) (w2b : Fin d → Fin d → EReal) (b2b g2 be2 : Fin d → EReal)
    (w3a : Fin d → Fin d → EReal) (b3a g3a be3a : Fin d → EReal) (w3b : Fin d → Fin e → EReal) (b3b : Fin e → EReal) :
    Fin n → Fin e → EReal :=
  layerK Nr eps
    (outerK Nr eps (layerK Nr eps (outerK Nr eps (layerK Nr eps x (A1 x) w1a b1a g1a be1a w1b b1b) g1 be1)
      (A2 (outerK Nr eps (layerK Nr eps x (A1 x) w1a b1a g1a be1a w1b b1b) g1 be1)) w2a b2a g2a be2a w2b b2b) g2 be2)
    (A2 (outerK Nr eps (layerK Nr eps (outerK Nr eps (layerK Nr eps x (A1 x) w1a b1a g1a be1a w1b b1b) g1 be1)
      (A2 (outerK Nr eps (layerK Nr eps x (A1 x) w1a b1a g1a be1a w1b b1b) g1 be1)) w2a b2a g2a be2a w2b b2b) g2 be2))
    w3a b3a g3a be3a w3b b3b

/-- The same network, second form of the variance. -/
def netR (Nr eps : EReal) (A1 : (Fin n → Fin k → EReal) → Fin n → Fin k → EReal)
    (A2 : (Fin n → Fin d → EReal) → Fin n → Fin d → EReal) (x : Fin n → Fin k → EReal)
    (w1a : Fin k → Fin d → EReal) (b1a g1a be1a : Fin d → EReal) (w1b : Fin d → Fin d → EReal) (b1b g1 be1 : Fin d → EReal)
    (w2a : Fin d → Fin d → EReal) (b2a g2a be2a : Fin d → EReal) (w2b : Fin d → Fin d → EReal) (b2b g2 be2 : Fin d → EReal)
    (w3a : Fin d → Fin d → EReal) (b3a g3a be3a : Fin d → EReal) (w3b : Fin d → Fin e → EReal) (b3b : Fin e → EReal) :
    Fin n → Fin e → EReal :=
  layerR Nr eps
    (outerR Nr eps (layerR Nr eps (outerR Nr eps (layerR Nr eps x (A1 x) w1a b1a g1a be1a w1b b1b) g1 be1)
      (A2 (outerR Nr eps (layerR Nr eps x (A1 x) w1a b1a g1a be1a w1b b1b) g1 be1)) w2a b2a g2a be2a w2b b2b) g2 be2)
    (A2 (outerR Nr eps (layerR Nr eps (outerR Nr eps (layerR Nr eps x (A1 x) w1a b1a g1a be1a w1b b1b) g1 be1)
      (A2 (outerR Nr eps (layerR Nr eps x (A1 x) w1a b1a g1a be1a w1b b1b) g1 be1)) w2a b2a g2a be2a w2b b2b) g2 be2))
    w3a b3a g3a be3a w3b b3b

end Cert.Gin

end
-- ==== Proof.LibNormLaw.lean ====
/-
  On real numbers the two forms of the variance agree.

  For a column `x` of `n` real numbers with total `S`, `n = N ≠ 0`:
      (∑ x²) / N − (S / N)²  =  (∑ (x − S / N)²) / N ,
  because `∑ (x − S/N)² = ∑ x² − S² / N`. On the extended reals the law can fail (it moves a factor across a sum),
  so it is stated for matrices all of whose entries are real numbers. Every stage of a layer keeps real numbers
  real — sums, products, a quotient by the nonzero number of rows, and the reciprocal square root of a
  nonnegative variance plus a positive epsilon — so the law applies at each of the five normalisations of the
  network in turn, and the two forms of the whole network agree on real inputs.
-/
import proofs.«158367_j15779709845544_2_alg».proof.Proof.LibNormSpec
import proofs.«158367_j15779709845544_2_alg».proof.Proof.LibIsReal
import proofs.«158367_j15779709845544_2_alg».proof.Proof.LibVariance

noncomputable section

open scoped BigOperators

namespace Cert.Gin

open Idealize.ShloMosaic Cert.Reals

variable {n k d e : Nat}

/-- Every entry of the matrix is a real number. -/
def RealM (u : Fin n → Fin d → EReal) : Prop := ∀ p q, IsReal (u p q)

/-- Every entry of the vector is a real number. -/
def RealV (b : Fin d → EReal) : Prop := ∀ q, IsReal (b q)

theorem exists_real {u : Fin n → Fin d → EReal} (hu : RealM u) :
    ∃ x : Fin n → Fin d → ℝ, ∀ p q, u p q = (x p q : EReal) := by
  choose x hx using hu
  exact ⟨x, hx⟩

/-- The law for one column over the reals. -/
theorem real_var_law (x : Fin n → ℝ) (N : ℝ) (hN : N ≠ 0) (hc : (n : ℝ) = N) :
    (∑ p, x p * x p) * (1 / N) - (∑ p, x p) * (1 / N) * ((∑ p, x p) * (1 / N))
      = (∑ p, (x p - (∑ p', x p') * (1 / N)) * (x p - (∑ p', x p') * (1 / N))) * (1 / N) := by
  rw [← Cert.Variance.real_law x N hN (by rw [Fintype.card_fin]; exact hc)]
  ring

/-- The two forms of the variance agree on a matrix of real numbers. -/
theorem varK_eq_varR {u : Fin n → Fin d → EReal} (hu : RealM u) {N : ℝ} (hN : N ≠ 0) (hc : (n : ℝ) = N) :
    varK (N : EReal) (colSum u) (colSumSq u) = varR (N : EReal) u := by
  obtain ⟨x, hx⟩ := exists_real hu
  funext q
  simp only [varK, varR, colSum, colSumSq, hx, Ideal.div_coe hN, ← EReal.coe_mul, ← Cert.Variance.coe_sum,
    ← EReal.coe_sub]
  exact congrArg _ (real_var_law (fun p => x p q) N hN hc)

theorem pre_real {h a : Fin n → Fin k → EReal} {W : Fin k → Fin d → EReal} {b : Fin d → EReal}
    (hh : RealM h) (ha : RealM a) (hW : RealM W) (hb : RealV b) : RealM (pre h a W b) :=
  fun p q => (isReal_sum _ _ fun j _ => ((hh p j).add (ha p j)).mul (hW j q)).add (hb q)

theorem colSum_real {u : Fin n → Fin d → EReal} (hu : RealM u) : RealV (colSum u) :=
  fun q => isReal_sum _ _ fun p _ => hu p q

theorem meanOf_real {S : Fin d → EReal} (hS : RealV S) {N : ℝ} (hN : N ≠ 0) : RealV (meanOf (N : EReal) S) :=
  fun q => (hS q).div_coe hN

/-- The variance of a column of real numbers is a nonnegative real number. -/
theorem varR_real_nonneg {u : Fin n → Fin d → EReal} (hu : RealM u) {N : ℝ} (hN : 0 < N) (q : Fin d) :
    ∃ v : ℝ, 0 ≤ v ∧ varR (N : EReal) u q = (v : EReal) := by
  obtain ⟨x, hx⟩ := exists_real hu
  refine ⟨(∑ p, (x p q - (∑ p', x p' q) * (1 / N)) * (x p q - (∑ p', x p' q) * (1 / N))) * (1 / N), ?_, ?_⟩
  · exact mul_nonneg (Finset.sum_nonneg fun p _ => mul_self_nonneg _) (by positivity)
  · simp only [varR, hx, Ideal.div_coe hN.ne', ← EReal.coe_mul, ← Cert.Variance.coe_sum, ← EReal.coe_sub]

/-- The reciprocal square root of a nonnegative real plus a positive real is a real number. -/
theorem rsqrt_real {v ε : ℝ} (hv : 0 ≤ v) (hε : 0 < ε) : IsReal (Ideal.rsqrt ((v : EReal) + (ε : EReal))) := by
  have hpos : 0 < v + ε := by linarith
  rw [← EReal.coe_add, Ideal.rsqrt_coe, if_neg (not_lt.mpr hpos.le), if_neg hpos.ne']
  exact isReal_coe _

theorem bnrelu_real {u : Fin n → Fin d → EReal} {μ v g be : Fin d → EReal} {ε : ℝ} (hε : 0 < ε) (hu : RealM u)
    (hμ : RealV μ) (hv : ∀ q, ∃ r : ℝ, 0 ≤ r ∧ v q = (r : EReal)) (hg : RealV g) (hbe : RealV be) :
    RealM (bnrelu (ε : EReal) u μ v g be) := by
  intro p q
  obtain ⟨r, hr, hvq⟩ := hv q
  have h1 : IsReal (Ideal.rsqrt (v q + (ε : EReal))) := by rw [hvq]; exact rsqrt_real hr hε
  exact (((((hu p q).sub (hμ q)).mul h1).mul (hg q)).add (hbe q)).max isReal_zero

theorem lin_real {y : Fin n → Fin d → EReal} {W : Fin d → Fin e → EReal} {b : Fin e → EReal}
    (hy : RealM y) (hW : RealM W) (hb : RealV b) : RealM (lin y W b) :=
  fun p r => (isReal_sum _ _ fun q _ => (hy p q).mul (hW q r)).add (hb r)

section Layer

variable {N ε : ℝ} {h a : Fin n → Fin k → EReal} {Wa : Fin k → Fin d → EReal} {ba ga bea : Fin d → EReal}
  {Wb : Fin d → Fin e → EReal} {bb : Fin e → EReal}

/-- The two forms of a layer agree on real inputs. -/
theorem layerK_eq_layerR (hN : N ≠ 0) (hc : (n : ℝ) = N) (hh : RealM h) (ha : RealM a) (hWa : RealM Wa)
    (hba : RealV ba) :
    layerK (N : EReal) (ε : EReal) h a Wa ba ga bea Wb bb = layerR (N : EReal) (ε : EReal) h a Wa ba ga bea Wb bb := by
  unfold layerK layerR
  rw [varK_eq_varR (pre_real hh ha hWa hba) hN hc]

/-- A layer of real inputs is real. -/
theorem layerR_real (hN : 0 < N) (hε : 0 < ε) (hh : RealM h) (ha : RealM a) (hWa : RealM Wa) (hba : RealV ba)
    (hga : RealV ga) (hbea : RealV bea) (hWb : RealM Wb) (hbb : RealV bb) :
    RealM (layerR (N : EReal) (ε : EReal) h a Wa ba ga bea Wb bb) :=
  lin_real (bnrelu_real hε (pre_real hh ha hWa hba) (meanOf_real (colSum_real (pre_real hh ha hWa hba)) hN.ne')
    (varR_real_nonneg (pre_real hh ha hWa hba) hN) hga hbea) hWb hbb

end Layer

section Outer

variable {N ε : ℝ} {o : Fin n → Fin d → EReal} {g be : Fin d → EReal}

/-- The two forms of the normalisation between layers agree on real inputs. -/
theorem outerK_eq_outerR (hN : N ≠ 0) (hc : (n : ℝ) = N) (ho : RealM o) :
    outerK (N : EReal) (ε : EReal) o g be = outerR (N : EReal) (ε : EReal) o g be := by
  unfold outerK outerR
  rw [varK_eq_varR ho hN hc]

theorem outerR_real (hN : 0 < N) (hε : 0 < ε) (ho : RealM o) (hg : RealV g) (hbe : RealV be) :
    RealM (outerR (N : EReal) (ε : EReal) o g be) :=
  bnrelu_real hε ho (meanOf_real (colSum_real ho) hN.ne') (varR_real_nonneg ho hN) hg hbe

end Outer

/-- The two forms of the whole network agree when every input is real and the neighbour aggregation keeps
    real numbers real. -/
theorem netK_eq_netR {N ε : ℝ} (hN : 0 < N) (hc : (n : ℝ) = N) (hε : 0 < ε)
    {A1 : (Fin n → Fin k → EReal) → Fin n → Fin k → EReal} {A2 : (Fin n → Fin d → EReal) → Fin n → Fin d → EReal}
    (hA1 : ∀ M, RealM M → RealM (A1 M)) (hA2 : ∀ M, RealM M → RealM (A2 M))
    {x : Fin n → Fin k → EReal} {w1a : Fin k → Fin d → EReal} {b1a g1a be1a : Fin d → EReal}
    {w1b : Fin d → Fin d → EReal} {b1b g1 be1 : Fin d → EReal}
    {w2a : Fin d → Fin d → EReal} {b2a g2a be2a : Fin d → EReal} {w2b : Fin d → Fin d → EReal} {b2b g2 be2 : Fin d → EReal}
    {w3a : Fin d → Fin d → EReal} {b3a g3a be3a : Fin d → EReal} {w3b : Fin d → Fin e → EReal} {b3b : Fin e → EReal}
    (hx : RealM x) (hw1a : RealM w1a) (hb1a : RealV b1a) (hg1a : RealV g1a) (hbe1a : RealV be1a)
    (hw1b : RealM w1b) (hb1b : RealV b1b) (hg1 : RealV g1) (hbe1 : RealV be1)
    (hw2a : RealM w2a) (hb2a : RealV b2a) (hg2a : RealV g2a) (hbe2a : RealV be2a)
    (hw2b : RealM w2b) (hb2b : RealV b2b) (hg2 : RealV g2) (hbe2 : RealV be2)
    (hw3a : RealM w3a) (hb3a : RealV b3a) :
    netK (N : EReal) (ε : EReal) A1 A2 x w1a b1a g1a be1a w1b b1b g1 be1 w2a b2a g2a be2a w2b b2b g2 be2
        w3a b3a g3a be3a w3b b3b
      = netR (N : EReal) (ε : EReal) A1 A2 x w1a b1a g1a be1a w1b b1b g1 be1 w2a b2a g2a be2a w2b b2b g2 be2
        w3a b3a g3a be3a w3b b3b := by
  have r1 := layerR_real (N := N) (ε := ε) hN hε hx (hA1 x hx) hw1a hb1a hg1a hbe1a hw1b hb1b
  have e1 := layerK_eq_layerR (N := N) (ε := ε) (ga := g1a) (bea := be1a) (Wb := w1b) (bb := b1b) hN.ne' hc hx
    (hA1 x hx) hw1a hb1a
  have r2 := outerR_real (N := N) (ε := ε) hN hε r1 hg1 hbe1
  have e2 := outerK_eq_outerR (N := N) (ε := ε) (g := g1) (be := be1) hN.ne' hc r1
  have r3 := layerR_real (N := N) (ε := ε) hN hε r2 (hA2 _ r2) hw2a hb2a hg2a hbe2a hw2b hb2b
  have e3 := layerK_eq_layerR (N := N) (ε := ε) (ga := g2a) (bea := be2a) (Wb := w2b) (bb := b2b) hN.ne' hc r2
    (hA2 _ r2) hw2a hb2a
  have r4 := outerR_real (N := N) (ε := ε) hN hε r3 hg2 hbe2
  have e4 := outerK_eq_outerR (N := N) (ε := ε) (g := g2) (be := be2) hN.ne' hc r3
  have e5 := layerK_eq_layerR (N := N) (ε := ε) (ga := g3a) (bea := be3a) (Wb := w3b) (bb := b3b) hN.ne' hc r4
    (hA2 _ r4) hw3a hb3a
  unfold netK netR
  rw [e1, e2, e3, e4, e5]

/-- The word `0x47435000` is the number of rows, 50000. -/
theorem rows_word : Ideal.ofBits .f32 0x47435000#32 = ((50000 : ℝ) : EReal) := by
  simp [Ideal.ofBits, Ideal.ieee, -EReal.coe_mul]; norm_num

/-- The word `0x3727C5AC` is a positive real number (the f32 nearest to one hundred-thousandth). -/
theorem eps_word : Ideal.ofBits .f32 0x3727C5AC#32 = ((2748779 / 274877906944 : ℝ) : EReal) := by
  simp [Ideal.ofBits, Ideal.ieee, -EReal.coe_mul]; norm_num

end Cert.Gin

end
-- ==== Proof.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.Law.lean ====
/-
  The algebra between the two groupings of the affine stage and the two forms of the
  normalisation, on real data.

  * `out_law`: `(h·WsT + (msum ⊙ invdeg)·WnT) + b = (h·WsT + b) + (msum / degm)·WnT` when
    `invdeg = 1 / degm` and `degm` is a real number that is at least one: a quotient by a
    nonzero real is the product with its reciprocal, and addition on the extended reals is
    commutative and associative.
  * `norm_law`: for a real matrix the mean of the squares minus the square of the mean is the
    mean of the squared deviations, a nonnegative real, so cutting it at zero changes nothing.
  * `eighth_sum`, `acc_total`, `block_tot`: an eighth of a real number added eight times is
    the number; the column total is the sum of the totals of the twenty tiles of 5000 rows.
  * the f32 words of 1/8, 100000, 1 and 1e-5 as real numbers.
-/
import proofs.«158367_j15779709845544_2_alg».proof.Proof.Spec
import proofs.«158367_j15779709845544_2_alg».proof.Proof.LibIsReal
import proofs.«158367_j15779709845544_2_alg».proof.Proof.LibVariance
import proofs.«158367_j15779709845544_2_alg».proof.Proof.LibNormSpec
import proofs.«158367_j15779709845544_2_alg».proof.Proof.LibNormLaw
import proofs.«158367_j15779709845544_2_alg».proof.Proof.LibBlockSum

noncomputable section

namespace Cert.Sage

open scoped BigOperators
open Idealize.ShloMosaic Cert.Reals

/-! ## The affine stage -/

/-- A product with the reciprocal of a real number that is at least one is the quotient by it. -/
theorem mul_inv_eq_div {x d i : EReal} (hd : IsReal d) (h1 : 1 ≤ d) (hi : i = Ideal.div 1 d) :
    x * i = Ideal.div x d := by
  obtain ⟨r, rfl⟩ := hd
  have hr : (1 : ℝ) ≤ r := by exact_mod_cast h1
  have hr0 : r ≠ 0 := by linarith
  rw [hi, Ideal.div_coe hr0, Ideal.div_coe hr0, one_mul]

/-- The two groupings of the affine stage agree when `invdeg = 1 / degm` with `degm` a real
    number that is at least one. -/
theorem out_law {h msum : Mat 100000 64} {invdeg degm : Fin 100000 → EReal} {WsT WnT : Mat 64 64}
    {b : Fin 64 → EReal} (hd : ∀ p, IsReal (degm p)) (h1 : ∀ p, 1 ≤ degm p)
    (hi : ∀ p, invdeg p = Ideal.div 1 (degm p)) :
    outK h msum invdeg WsT WnT b = outR h msum degm WsT WnT b := by
  funext p q
  unfold outK outR
  have e : ∀ j, (msum p j * invdeg p) * WnT j q = Ideal.div (msum p j) (degm p) * WnT j q :=
    fun j => by rw [mul_inv_eq_div (hd p) (h1 p) (hi p)]
  simp only [e]
  exact add_right_comm _ _ _

/-- The affine stage of real inputs is real. -/
theorem outK_real {h msum : Mat 100000 64} {invdeg : Fin 100000 → EReal} {WsT WnT : Mat 64 64}
    {b : Fin 64 → EReal} (hh : ∀ p j, IsReal (h p j)) (hm : ∀ p j, IsReal (msum p j))
    (hi : ∀ p, IsReal (invdeg p)) (hWs : ∀ j q, IsReal (WsT j q)) (hWn : ∀ j q, IsReal (WnT j q))
    (hb : ∀ q, IsReal (b q)) (p : Fin 100000) (q : Fin 64) :
    IsReal (outK h msum invdeg WsT WnT b p q) :=
  ((isReal_sum _ _ fun j _ => (hh p j).mul (hWs j q)).add
    (isReal_sum _ _ fun j _ => ((hm p j).mul (hi p)).mul (hWn j q))).add (hb q)

/-- The reciprocal of a real number that is at least one is real. -/
theorem invdeg_real {d : EReal} (hd : IsReal d) (h1 : 1 ≤ d) : IsReal (Ideal.div 1 d) :=
  isReal_one.div_of_one_le h1

/-- The larger of a real number and one is a real number that is at least one. -/
theorem degm_real {d : EReal} (hd : IsReal d) : IsReal (max d 1) := hd.max isReal_one

theorem one_le_degm (d : EReal) : (1 : EReal) ≤ max d 1 := le_max_right _ _

/-! ## The normalisation -/

/-- The two forms of the normalisation agree on a real matrix of 100000 rows. -/
theorem norm_law {Nr eps : EReal} {u : Mat 100000 64} {S Q g be : Fin 64 → EReal}
    (hu : ∀ p q, IsReal (u p q)) (hN : Nr = ((100000 : ℝ) : EReal)) (hS : S = colTot u)
    (hQ : Q = colTotSq u) : normK Nr eps u S Q g be = normR Nr eps u g be := by
  subst hN hS hQ
  have hN0 : (100000 : ℝ) ≠ 0 := by norm_num
  have hNp : (0 : ℝ) < 100000 := by norm_num
  have hc : ((100000 : ℕ) : ℝ) = 100000 := by norm_num
  funext p q
  have hvar : Ideal.div (colTotSq u q) ((100000 : ℝ) : EReal)
        - Ideal.div (colTot u q) ((100000 : ℝ) : EReal) * Ideal.div (colTot u q) ((100000 : ℝ) : EReal)
      = Ideal.div (∑ p', (u p' q - Ideal.div (colTot u q) ((100000 : ℝ) : EReal))
          * (u p' q - Ideal.div (colTot u q) ((100000 : ℝ) : EReal))) ((100000 : ℝ) : EReal) :=
    congrFun (Cert.Gin.varK_eq_varR (u := u) hu hN0 hc) q
  obtain ⟨v, hv0, hv⟩ := Cert.Gin.varR_real_nonneg (u := u) hu hNp q
  have hv' : Ideal.div (∑ p', (u p' q - Ideal.div (colTot u q) ((100000 : ℝ) : EReal))
          * (u p' q - Ideal.div (colTot u q) ((100000 : ℝ) : EReal))) ((100000 : ℝ) : EReal) = (v : EReal) := hv
  unfold normK normR
  rw [hvar, hv', max_eq_left (by exact_mod_cast hv0 : (0 : EReal) ≤ (v : EReal))]

/-! ## The accumulation of the column totals -/

/-- A real number times an eighth, added eight times, is the number. -/
theorem eighth_sum {x : EReal} (hx : IsReal x) : (∑ _r : Fin 8, x * ((0.125 : ℝ) : EReal)) = x := by
  obtain ⟨a, rfl⟩ := hx
  rw [Finset.sum_const, Finset.card_univ, Fintype.card_fin, ← EReal.coe_mul, ← EReal.coe_nsmul,
    EReal.coe_eq_coe_iff, nsmul_eq_mul]
  norm_num; ring

/-- The sum of real numbers each times a real factor is the sum times the factor. -/
theorem sum_mul_real {ι : Type} (s : Finset ι) (f : ι → EReal) (hf : ∀ i ∈ s, IsReal (f i)) (c : ℝ) :
    (∑ i ∈ s, f i * (c : EReal)) = (∑ i ∈ s, f i) * (c : EReal) := by
  classical
  induction s using Finset.induction_on with
  | empty => simp
  | insert a s ha ih =>
    rw [Finset.sum_insert ha, Finset.sum_insert ha, ih fun i hi => hf i (Finset.mem_insert_of_mem hi)]
    obtain ⟨x, hx⟩ := hf a (Finset.mem_insert_self a s)
    obtain ⟨y, hy⟩ := isReal_sum s f fun i hi => hf i (Finset.mem_insert_of_mem hi)
    rw [hx, hy, ← EReal.coe_mul, ← EReal.coe_mul, ← EReal.coe_add, ← EReal.coe_add, ← EReal.coe_mul,
      EReal.coe_eq_coe_iff]
    ring

/-- Twenty real tile totals, each times an eighth, accumulated ten at a time on two cores into eight
    rows each, then summed over the cores and the rows: the sum of the twenty totals. -/
theorem acc_total (t : Fin 20 → EReal) (ht : ∀ k, IsReal (t k)) :
    (∑ c : Fin 2, ∑ _r : Fin 8, ∑ i : Fin 10,
        t ⟨c.val * 10 + i.val, Cert.BlockSum.block_lt c i⟩ * ((0.125 : ℝ) : EReal)) = ∑ k, t k := by
  rw [Cert.BlockSum.sum_blocks 2 10 t]
  refine Finset.sum_congr rfl fun c _ => ?_
  rw [sum_mul_real _ _ (fun i _ => ht _) 0.125]
  exact eighth_sum (isReal_sum _ _ fun i _ => ht _)

/-- The column total is the sum of the totals of the twenty tiles. -/
theorem block_tot (u : Mat 100000 64) (q : Fin 64) : (∑ k : Fin 20, tileTot u k q) = colTot u q := by
  unfold tileTot colTot
  exact (Cert.BlockSum.sum_blocks_of_eq 20 5000 100000 rfl fun i => u i q).symm

/-- The same for the squares. -/
theorem block_tot_sq (u : Mat 100000 64) (q : Fin 64) :
    (∑ k : Fin 20, tileTot (fun p q => u p q * u p q) k q) = colTotSq u q := by
  unfold tileTot colTotSq
  exact (Cert.BlockSum.sum_blocks_of_eq 20 5000 100000 rfl fun i => u i q * u i q).symm

/-- A tile total of a real matrix is real. -/
theorem tileTot_real {u : Mat 100000 64} (hu : ∀ p q, IsReal (u p q)) (k : Fin 20) (q : Fin 64) :
    IsReal (tileTot u k q) := isReal_sum _ _ fun r _ => hu _ q

/-! ## The f32 words -/

/-- The word `0x3E000000` is an eighth. -/
theorem ofBits_eighth : Ideal.ofBits .f32 0x3E000000#32 = ((0.125 : ℝ) : EReal) := by
  simp [Ideal.ofBits, Ideal.ieee, -EReal.coe_mul]; norm_num

/-- The word `0x47C35000` is the number of rows, 100000. -/
theorem ofBits_1e5 : Ideal.ofBits .f32 0x47C35000#32 = ((100000 : ℝ) : EReal) := by
  simp [Ideal.ofBits, Ideal.ieee, -EReal.coe_mul]; norm_num

/-- The word `0x3F800000` is one. -/
theorem ofBits_one : Ideal.ofBits .f32 0x3F800000#32 = 1 := by
  have h : Ideal.ofBits .f32 0x3F800000#32 = ((1 : ℝ) : EReal) := by
    simp [Ideal.ofBits, Ideal.ieee, -EReal.coe_mul]; norm_num
  rw [h]; norm_cast

/-- The word `0x00000000` is zero. -/
theorem ofBits_zero : Ideal.ofBits .f32 0x00000000#32 = 0 := by simp [Ideal.ofBits, Ideal.ieee]

/-- The word `0x3727C5AC` is a positive real number (the f32 nearest to one hundred-thousandth). -/
theorem ofBits_eps : Ideal.ofBits .f32 0x3727C5AC#32 = ((2748779 / 274877906944 : ℝ) : EReal) :=
  Cert.Gin.eps_word

end Cert.Sage

end
-- ==== Proof.KForm.lean ====
/-
  The kernel's form of the layer and the reference's, in one theorem.

  The kernel accumulates, per core, an eighth of each tile's column total into a row that restarts from
  zero at the first tile of the core (`accAt`), keeps the row eight times, and sums the rows of both
  cores: for real tile totals that is the sum of the twenty tile totals (`accAt_total`), which is the
  column total. With the two column totals so obtained the kernel's normalisation of its affine stage is
  the reference's normalisation of the reference's affine stage (`kernel_form_eq`).
-/
import proofs.«158367_j15779709845544_2_alg».proof.Proof.Spec
import proofs.«158367_j15779709845544_2_alg».proof.Proof.Law

noncomputable section

namespace Cert.Sage

open scoped BigOperators
open Idealize.ShloMosaic Cert.Reals

/-- the accumulator row after grid point n (points 0..19, tile n; it restarts from 0 at points 0 and 10) -/
def accAt (T : Fin 20 → EReal) (e : EReal) : (n : ℕ) → n < 20 → EReal
  | 0, h => 0 + T ⟨0, h⟩ * e
  | n + 1, h => if (n + 1) % 10 = 0 then 0 + T ⟨n + 1, h⟩ * e else accAt T e n (Nat.lt_of_succ_lt h) + T ⟨n + 1, h⟩ * e

/-- After the tenth tile of a core the row holds the core's ten tile totals, each times the factor. -/
theorem accAt_nine (T : Fin 20 → EReal) (e : EReal) (c : Fin 2) :
    accAt T e (c.val * 10 + 9) (by have := c.isLt; omega)
      = ∑ i : Fin 10, T ⟨c.val * 10 + i.val, Cert.BlockSum.block_lt c i⟩ * e := by
  fin_cases c
  · simp [accAt, Fin.sum_univ_succ, add_assoc]
  · simp [accAt, Fin.sum_univ_succ, add_assoc]

/-- Both cores' rows, eight times each, of an eighth of real tile totals: the sum of the twenty totals. -/
theorem accAt_total (T : Fin 20 → EReal) (hT : ∀ k, IsReal (T k)) :
    (∑ c : Fin 2, ∑ _a : Fin 8, accAt T ((0.125 : ℝ) : EReal) (c.val * 10 + 9) (by have := c.isLt; omega))
      = ∑ k, T k := by
  simp only [accAt_nine]
  exact acc_total T hT

/-- The normalisation with the f32 word of zero where `normK` has zero. -/
theorem normK_zero_word (Nr eps : EReal) (u : Mat 100000 64) (S Q g be : Fin 64 → EReal)
    (p : Fin 100000) (q : Fin 64) :
    max ((u p q - Ideal.div (S q) Nr)
        * Ideal.rsqrt (max (Ideal.div (Q q) Nr - Ideal.div (S q) Nr * Ideal.div (S q) Nr)
            (Ideal.ofBits .f32 0x00000000#32) + eps)
        * g q + be q) (Ideal.ofBits .f32 0x00000000#32)
      = normK Nr eps u S Q g be p q := by
  rw [ofBits_zero]; rfl

/-- `normK` at a row and a column. -/
theorem normK_apply (Nr eps : EReal) (u : Mat 100000 64) (S Q g be : Fin 64 → EReal)
    (p : Fin 100000) (q : Fin 64) :
    normK Nr eps u S Q g be p q
      = max ((u p q - Ideal.div (S q) Nr)
        * Ideal.rsqrt (max (Ideal.div (Q q) Nr - Ideal.div (S q) Nr * Ideal.div (S q) Nr) 0 + eps)
        * g q + be q) 0 := rfl

/-- The kernel's normalisation of the kernel's affine stage, from the two totals the kernel accumulates,
    is the reference's normalisation of the reference's affine stage, on real data. -/
theorem kernel_form_eq (h msum : Mat 100000 64) (invdeg degm : Fin 100000 → EReal) (WsT WnT : Mat 64 64)
    (b g be S Q : Fin 64 → EReal)
    (hh : ∀ p j, IsReal (h p j)) (hm : ∀ p j, IsReal (msum p j)) (hd : ∀ p, IsReal (degm p))
    (h1 : ∀ p, 1 ≤ degm p) (hi : ∀ p, invdeg p = Ideal.div 1 (degm p))
    (hWs : ∀ j q, IsReal (WsT j q)) (hWn : ∀ j q, IsReal (WnT j q)) (hb : ∀ q, IsReal (b q))
    (hS : ∀ q, S q = ∑ c : Fin 2, ∑ _a : Fin 8,
      accAt (fun k => tileTot (outK h msum invdeg WsT WnT b) k q) (Ideal.ofBits .f32 0x3E000000#32)
        (c.val * 10 + 9) (by have := c.isLt; omega))
    (hQ : ∀ q, Q q = ∑ c : Fin 2, ∑ _a : Fin 8,
      accAt (fun k => tileTot (fun p q => outK h msum invdeg WsT WnT b p q * outK h msum invdeg WsT WnT b p q) k q)
        (Ideal.ofBits .f32 0x3E000000#32) (c.val * 10 + 9) (by have := c.isLt; omega)) :
    normK (Ideal.ofBits .f32 0x47C35000#32) (Ideal.ofBits .f32 0x3727C5AC#32) (outK h msum invdeg WsT WnT b) S Q g be
      = normR (Ideal.ofBits .f32 0x47C35000#32) (Ideal.ofBits .f32 0x3727C5AC#32) (outR h msum degm WsT WnT b) g be := by
  have hinv : ∀ p, IsReal (invdeg p) := fun p => by rw [hi p]; exact invdeg_real (hd p) (h1 p)
  have hu : ∀ p q, IsReal (outK h msum invdeg WsT WnT b p q) := outK_real hh hm hinv hWs hWn hb
  have hS' : S = colTot (outK h msum invdeg WsT WnT b) := funext fun q => by
    rw [hS q, ofBits_eighth, accAt_total _ (fun k => tileTot_real hu k q), block_tot]
  have hQ' : Q = colTotSq (outK h msum invdeg WsT WnT b) := funext fun q => by
    rw [hQ q, ofBits_eighth,
      accAt_total _ (fun k => tileTot_real (u := fun p q => outK h msum invdeg WsT WnT b p q * outK h msum invdeg WsT WnT b p q)
        (fun p q => (hu p q).mul (hu p q)) k q), block_tot_sq]
  rw [norm_law hu ofBits_1e5 hS' hQ', out_law hd h1 hi]

end Cert.Sage

end
-- ==== Proof.KI.KValue0.lean ====
import proofs.«158367_j15779709845544_2_alg».proof.Proof.KI.Run
import proofs.«158367_j15779709845544_2_alg».proof.Proof.KI.Host0
import proofs.«158367_j15779709845544_2_alg».proof.Proof.KI.Host0Agg
import proofs.«158367_j15779709845544_2_alg».proof.Proof.KI.Host1
import proofs.«158367_j15779709845544_2_alg».proof.Proof.KI.Host2
import proofs.«158367_j15779709845544_2_alg».proof.Proof.KI.Payloads
import proofs.«158367_j15779709845544_2_alg».proof.Proof.KForm

set_option maxRecDepth 16384

noncomputable section

namespace Cert.KernelIdeal.KValue

open scoped BigOperators
open Idealize.ShloMosaic Idealize.ShloMosaic.TcCoe Idealize.ShloMosaic.ValueIdx Idealize.SL.Sem
open Cert.KernelIdeal Cert.KernelIdeal.Gen Cert.KernelIdeal.GenP Cert.KernelIdeal.Hand Cert.KernelIdeal.HostValue
open Cert.KernelIdeal.PayValue Cert.Sage Cert.Reals

variable (m : (ℓ : Loc nD τ sig) → Buf (Elt Ideal) ℓ) (ρ : Dev nD → PrngReg) (c : Dev nD)

/-! ## The arguments, and the linear layer's output as the kernel groups it -/

abbrev A0 : S100000x64.Idx → EReal := m ((c.tc : Thread nD τ).loc main_arg0)
abbrev A1 : S64x64.Idx → EReal := m ((c.tc : Thread nD τ).loc main_arg1)
abbrev A2 : S64.Idx → EReal := m ((c.tc : Thread nD τ).loc main_arg2)
abbrev A3 : S64x64.Idx → EReal := m ((c.tc : Thread nD τ).loc main_arg3)
abbrev A4 : S64.Idx → EReal := m ((c.tc : Thread nD τ).loc main_arg4)
abbrev A5 : S64.Idx → EReal := m ((c.tc : Thread nD τ).loc main_arg5)
abbrev X6 : IVec S1600000 32 := m ((c.tc : Thread nD τ).loc main_arg6)
abbrev X7 : IVec S1600000 32 := m ((c.tc : Thread nD τ).loc main_arg7)

/-- The word of the number one. -/
abbrev oneW : EReal := Ideal.ofBits .f32 0x3F800000#32

/-- The reciprocal of the in-degree cut below at one, per node. -/
def invdegK (p : Fin 100000) : EReal := Ideal.div oneW (max (degK (X7 m c) p) oneW)

/-- The linear layer's output, kernel grouping, of the arguments. -/
def uK : Mat 100000 64 :=
  outK (mat (A0 m c)) (aggK (A0 m c) (X6 m c) (X7 m c)) (invdegK m c) (fun j q => mat (A1 m c) q j) (fun j q => mat (A3 m c) q j) (vec (A2 m c))

/-! ## What region 0 finds in its six operands -/

theorem e_arg0 : (V1 m ρ c main_arg0 : S100000x64.Idx → EReal) = A0 m c := by
  show (StableHlo.after (hostOps0 (F := Ideal)) (W0 m ρ c) (Proc.devRef .tc main_arg0) : S100000x64.Idx → EReal) = _
  rw [h_kept]

theorem e_msum (p : Fin 100000) (j : Fin 64) :
    (V1 m ρ c main_v12 : S100000x64.Idx → EReal) (ix2 p j) = aggK (A0 m c) (X6 m c) (X7 m c) p j := by
  show (StableHlo.after (hostOps0 (F := Ideal)) (W0 m ρ c) (Proc.devRef .tc main_v12) : S100000x64.Idx → EReal) (ix2 p j) = _
  rw [msum_read]

theorem e_invdeg (p : Fin 100000) :
    (V1 m ρ c main_v17 : S100000x1.Idx → EReal) (ix2 p (0 : Fin 1)) = invdegK m c p := by
  show (StableHlo.after (hostOps0 (F := Ideal)) (W0 m ρ c) (Proc.devRef .tc main_v17) : S100000x1.Idx → EReal) (ix2 p (0 : Fin 1)) = _
  rw [invdeg_read]; rfl

theorem e_wsT (j q : Fin 64) : (V1 m ρ c main_v18 : S64x64.Idx → EReal) (ix2 j q) = A1 m c (ix2 q j) := by
  show (StableHlo.after (hostOps0 (F := Ideal)) (W0 m ρ c) (Proc.devRef .tc main_v18) : S64x64.Idx → EReal) (ix2 j q) = _
  rw [wsT_read]

theorem e_wnT (j q : Fin 64) : (V1 m ρ c main_v19 : S64x64.Idx → EReal) (ix2 j q) = A3 m c (ix2 q j) := by
  show (StableHlo.after (hostOps0 (F := Ideal)) (W0 m ρ c) (Proc.devRef .tc main_v19) : S64x64.Idx → EReal) (ix2 j q) = _
  rw [wnT_read]

theorem e_bias (q : Fin 64) : (V1 m ρ c main_v20 : S1x64.Idx → EReal) (ix2 (0 : Fin 1) q) = A2 m c (ix1 q) := by
  show (StableHlo.after (hostOps0 (F := Ideal)) (W0 m ρ c) (Proc.devRef .tc main_v20) : S1x64.Idx → EReal) (ix2 (0 : Fin 1) q) = _
  rw [bias_read]

end Cert.KernelIdeal.KValue

end
-- ==== Proof.KI.Value0Pieces.lean ====
/- What the stores of region 0's body leave in each buffer it writes, in each of the body's three cases, as values of the
   blocks the body was handed: the output tile is one store of the tile value; an accumulator is its last store, whose
   operand reads the accumulator back (at the reset it reads the zero tile just stored, otherwise what the point before
   left); the copies out read the accumulators after their update. For any float values and any whole buffers. -/
import proofs.«158367_j15779709845544_2_alg».proof.Proof.KI.R0RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

theorem v0_hz2 : (![0, 0] : Fin 2 → Nat) = fun _ => 0 := funext fun a => by fin_cases a <;> rfl
theorem v0_hz3 : (![0, 0, 0] : Fin 3 → Nat) = fun _ => 0 := funext fun a => by fin_cases a <;> rfl

theorem piece6_A (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : cond0_0 i) (hc1 : ¬cond0_1 i) (x0 : Vec F S5000x64 .f32) (x1 : Vec F S5000x64 .f32) (x2 : Vec F S5000x1 .f32) (x3 : Vec F S64x64 .f32) (x4 : Vec F S1x64 .f32) (x5 : Vec F S64x64 .f32) (v : View sig .tc .vmem S5000x64 .f32) :
    v.read (Elt F) (v.writes (Elt F) v.junk (kernelRun0_A (F := F) c i arg2 harg2 arg3 harg3 arg4 harg4 arg5 harg5 arg6 harg6 arg7 harg7 arg8 harg8 arg9 harg9 arg10 harg10 arg11 harg11 arg12 harg12 hc0 hc1 x0 x1 x2 x3 x4 x5).1) = k0_pay7 x0 x1 x2 x3 x5 x4 := by
  rw [View.read_writes_junk_eq_canon]
  unfold kernelRun0_A
  dsimp only
  rw [View.canon_unit_zero v0_hz2]
  simp only [View.readAt_eq_ld, harg2.read_unread, harg3.read_unread, harg4.read_unread, harg5.read_unread, harg6.read_unread, harg7.read_unread, harg11.read_unread, harg12.read_unread, View.ld_unit_zero (S := S5000x64) v0_hz2, View.ld_unit_zero (S := S5000x1) v0_hz2, View.ld_unit_zero (S := S64x64) v0_hz2, View.ld_unit_zero (S := S1x64) v0_hz2, View.ld_unit_zero (S := S8x64) v0_hz2]

theorem pieceS0_A (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : cond0_0 i) (hc1 : ¬cond0_1 i) (x0 : Vec F S5000x64 .f32) (x1 : Vec F S5000x64 .f32) (x2 : Vec F S5000x1 .f32) (x3 : Vec F S64x64 .f32) (x4 : Vec F S1x64 .f32) (x5 : Vec F S64x64 .f32) (v : View sig .tc .vmem S8x64 .f32) :
    v.read (Elt F) (v.writes (Elt F) v.junk (kernelRun0_A (F := F) c i arg2 harg2 arg3 harg3 arg4 harg4 arg5 harg5 arg6 harg6 arg7 harg7 arg8 harg8 arg9 harg9 arg10 harg10 arg11 harg11 arg12 harg12 hc0 hc1 x0 x1 x2 x3 x4 x5).2.2.2.1) = k0_pay1 (k0_pay8 x0 x1 x2 x3 x5 x4) k0_pay5 k0_pay10 := by
  rw [View.read_writes_junk_eq_canon]
  unfold kernelRun0_A
  dsimp only
  sl_unfold_words
  rw [View.canon_cons_unit_zero (S := S8x64) v0_hz2, View.readCov_unit_zero (S := S8x64) _ v0_hz2]
  simp only [View.readAt_eq_ld, harg2.read_unread, harg3.read_unread, harg4.read_unread, harg5.read_unread, harg6.read_unread, harg7.read_unread, harg11.read_unread, harg12.read_unread, View.ld_unit_zero (S := S5000x64) v0_hz2, View.ld_unit_zero (S := S5000x1) v0_hz2, View.ld_unit_zero (S := S64x64) v0_hz2, View.ld_unit_zero (S := S1x64) v0_hz2, View.ld_unit_zero (S := S8x64) v0_hz2]

theorem pieceS1_A (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : cond0_0 i) (hc1 : ¬cond0_1 i) (x0 : Vec F S5000x64 .f32) (x1 : Vec F S5000x64 .f32) (x2 : Vec F S5000x1 .f32) (x3 : Vec F S64x64 .f32) (x4 : Vec F S1x64 .f32) (x5 : Vec F S64x64 .f32) (v : View sig .tc .vmem S8x64 .f32) :
    v.read (Elt F) (v.writes (Elt F) v.junk (kernelRun0_A (F := F) c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1) = k0_pay2 (k0_pay9 x0 x1 x2 x3 x5 x4) k0_pay6 := by
  rw [View.read_writes_junk_eq_canon]
  unfold kernelRun0_A
  dsimp only
  sl_unfold_words
  rw [View.canon_cons_unit_zero (S := S8x64) v0_hz2, View.readCov_unit_zero (S := S8x64) _ v0_hz2]
  simp only [View.readAt_eq_ld, harg2.read_unread, harg3.read_unread, harg4.read_unread, harg5.read_unread, harg6.read_unread, harg7.read_unread, harg11.read_unread, harg12.read_unread, View.ld_unit_zero (S := S5000x64) v0_hz2, View.ld_unit_zero (S := S5000x1) v0_hz2, View.ld_unit_zero (S := S64x64) v0_hz2, View.ld_unit_zero (S := S1x64) v0_hz2, View.ld_unit_zero (S := S8x64) v0_hz2]

theorem piece6_B (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : ¬cond0_1 i) (x0 : Vec F S5000x64 .f32) (x1 : Vec F S5000x64 .f32) (x2 : Vec F S5000x1 .f32) (x3 : Vec F S64x64 .f32) (x4 : Vec F S1x64 .f32) (x5 : Vec F S64x64 .f32) (xs0 xs1 : Vec F S8x64 .f32) (v : View sig .tc .vmem S5000x64 .f32) :
    v.read (Elt F) (v.writes (Elt F) v.junk (kernelRun0_B (F := F) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1) = k0_pay7 x0 x1 x2 x3 x5 x4 := by
  rw [View.read_writes_junk_eq_canon]
  unfold kernelRun0_B
  dsimp only
  rw [View.canon_unit_zero v0_hz2]
  simp only [View.readAt_eq_ld, harg2.read_unread, harg3.read_unread, harg4.read_unread, harg5.read_unread, harg6.read_unread, harg7.read_unread, harg11.read_unread, harg12.read_unread, View.ld_unit_zero (S := S5000x64) v0_hz2, View.ld_unit_zero (S := S5000x1) v0_hz2, View.ld_unit_zero (S := S64x64) v0_hz2, View.ld_unit_zero (S := S1x64) v0_hz2, View.ld_unit_zero (S := S8x64) v0_hz2]

theorem pieceS0_B (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : ¬cond0_1 i) (x0 : Vec F S5000x64 .f32) (x1 : Vec F S5000x64 .f32) (x2 : Vec F S5000x1 .f32) (x3 : Vec F S64x64 .f32) (x4 : Vec F S1x64 .f32) (x5 : Vec F S64x64 .f32) (xs0 xs1 : Vec F S8x64 .f32) (v : View sig .tc .vmem S8x64 .f32) :
    v.read (Elt F) (v.writes (Elt F) v.junk (kernelRun0_B (F := F) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1) = k0_pay1 (k0_pay8 x0 x1 x2 x3 x5 x4) xs0 k0_pay10 := by
  rw [View.read_writes_junk_eq_canon]
  unfold kernelRun0_B
  dsimp only
  sl_unfold_words
  rw [View.canon_unit_zero v0_hz2]
  simp only [View.readAt_eq_ld, harg2.read_unread, harg3.read_unread, harg4.read_unread, harg5.read_unread, harg6.read_unread, harg7.read_unread, harg11.read_unread, harg12.read_unread, View.ld_unit_zero (S := S5000x64) v0_hz2, View.ld_unit_zero (S := S5000x1) v0_hz2, View.ld_unit_zero (S := S64x64) v0_hz2, View.ld_unit_zero (S := S1x64) v0_hz2, View.ld_unit_zero (S := S8x64) v0_hz2]

theorem pieceS1_B (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : ¬cond0_1 i) (x0 : Vec F S5000x64 .f32) (x1 : Vec F S5000x64 .f32) (x2 : Vec F S5000x1 .f32) (x3 : Vec F S64x64 .f32) (x4 : Vec F S1x64 .f32) (x5 : Vec F S64x64 .f32) (xs0 xs1 : Vec F S8x64 .f32) (v : View sig .tc .vmem S8x64 .f32) :
    v.read (Elt F) (v.writes (Elt F) v.junk (kernelRun0_B (F := F) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1) = k0_pay2 (k0_pay9 x0 x1 x2 x3 x5 x4) xs1 := by
  rw [View.read_writes_junk_eq_canon]
  unfold kernelRun0_B
  dsimp only
  sl_unfold_words
  rw [View.canon_unit_zero v0_hz2]
  simp only [View.readAt_eq_ld, harg2.read_unread, harg3.read_unread, harg4.read_unread, harg5.read_unread, harg6.read_unread, harg7.read_unread, harg11.read_unread, harg12.read_unread, View.ld_unit_zero (S := S5000x64) v0_hz2, View.ld_unit_zero (S := S5000x1) v0_hz2, View.ld_unit_zero (S := S64x64) v0_hz2, View.ld_unit_zero (S := S1x64) v0_hz2, View.ld_unit_zero (S := S8x64) v0_hz2]

theorem piece6_C (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : cond0_1 i) (x0 : Vec F S5000x64 .f32) (x1 : Vec F S5000x64 .f32) (x2 : Vec F S5000x1 .f32) (x3 : Vec F S64x64 .f32) (x4 : Vec F S1x64 .f32) (x5 : Vec F S64x64 .f32) (xs0 xs1 : Vec F S8x64 .f32) (v : View sig .tc .vmem S5000x64 .f32) :
    v.read (Elt F) (v.writes (Elt F) v.junk (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1) = k0_pay7 x0 x1 x2 x3 x5 x4 := by
  rw [View.read_writes_junk_eq_canon]
  unfold kernelRun0_C
  dsimp only
  rw [View.canon_unit_zero v0_hz2]
  simp only [View.readAt_eq_ld, harg2.read_unread, harg3.read_unread, harg4.read_unread, harg5.read_unread, harg6.read_unread, harg7.read_unread, harg11.read_unread, harg12.read_unread, View.ld_unit_zero (S := S5000x64) v0_hz2, View.ld_unit_zero (S := S5000x1) v0_hz2, View.ld_unit_zero (S := S64x64) v0_hz2, View.ld_unit_zero (S := S1x64) v0_hz2, View.ld_unit_zero (S := S8x64) v0_hz2]

theorem pieceS0_C (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : cond0_1 i) (x0 : Vec F S5000x64 .f32) (x1 : Vec F S5000x64 .f32) (x2 : Vec F S5000x1 .f32) (x3 : Vec F S64x64 .f32) (x4 : Vec F S1x64 .f32) (x5 : Vec F S64x64 .f32) (xs0 xs1 : Vec F S8x64 .f32) (v : View sig .tc .vmem S8x64 .f32) :
    v.read (Elt F) (v.writes (Elt F) v.junk (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1) = k0_pay1 (k0_pay8 x0 x1 x2 x3 x5 x4) xs0 k0_pay10 := by
  rw [View.read_writes_junk_eq_canon]
  unfold kernelRun0_C
  dsimp only
  sl_unfold_words
  rw [View.canon_unit_zero v0_hz2]
  simp only [View.readAt_eq_ld, harg2.read_unread, harg3.read_unread, harg4.read_unread, harg5.read_unread, harg6.read_unread, harg7.read_unread, harg11.read_unread, harg12.read_unread, View.ld_unit_zero (S := S5000x64) v0_hz2, View.ld_unit_zero (S := S5000x1) v0_hz2, View.ld_unit_zero (S := S64x64) v0_hz2, View.ld_unit_zero (S := S1x64) v0_hz2, View.ld_unit_zero (S := S8x64) v0_hz2]

theorem pieceS1_C (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : cond0_1 i) (x0 : Vec F S5000x64 .f32) (x1 : Vec F S5000x64 .f32) (x2 : Vec F S5000x1 .f32) (x3 : Vec F S64x64 .f32) (x4 : Vec F S1x64 .f32) (x5 : Vec F S64x64 .f32) (xs0 xs1 : Vec F S8x64 .f32) (v : View sig .tc .vmem S8x64 .f32) :
    v.read (Elt F) (v.writes (Elt F) v.junk (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1) = k0_pay2 (k0_pay9 x0 x1 x2 x3 x5 x4) xs1 := by
  rw [View.read_writes_junk_eq_canon]
  unfold kernelRun0_C
  dsimp only
  sl_unfold_words
  rw [View.canon_unit_zero v0_hz2]
  simp only [View.readAt_eq_ld, harg2.read_unread, harg3.read_unread, harg4.read_unread, harg5.read_unread, harg6.read_unread, harg7.read_unread, harg11.read_unread, harg12.read_unread, View.ld_unit_zero (S := S5000x64) v0_hz2, View.ld_unit_zero (S := S5000x1) v0_hz2, View.ld_unit_zero (S := S64x64) v0_hz2, View.ld_unit_zero (S := S1x64) v0_hz2, View.ld_unit_zero (S := S8x64) v0_hz2]

theorem piece7_C (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : cond0_1 i) (x0 : Vec F S5000x64 .f32) (x1 : Vec F S5000x64 .f32) (x2 : Vec F S5000x1 .f32) (x3 : Vec F S64x64 .f32) (x4 : Vec F S1x64 .f32) (x5 : Vec F S64x64 .f32) (xs0 xs1 : Vec F S8x64 .f32) (v : View sig .tc .vmem S1x8x64 .f32) :
    v.read (Elt F) (v.writes (Elt F) v.junk (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1) = k0_pay3 (k0_pay1 (k0_pay8 x0 x1 x2 x3 x5 x4) xs0 k0_pay10) := by
  rw [View.read_writes_junk_eq_canon]
  unfold kernelRun0_C
  dsimp only
  sl_unfold_words
  rw [View.canon_unit_zero v0_hz3, View.readCov_unit_zero (S := S8x64) _ v0_hz2]
  simp only [View.readAt_eq_ld, harg2.read_unread, harg3.read_unread, harg4.read_unread, harg5.read_unread, harg6.read_unread, harg7.read_unread, harg11.read_unread, harg12.read_unread, View.ld_unit_zero (S := S5000x64) v0_hz2, View.ld_unit_zero (S := S5000x1) v0_hz2, View.ld_unit_zero (S := S64x64) v0_hz2, View.ld_unit_zero (S := S1x64) v0_hz2, View.ld_unit_zero (S := S8x64) v0_hz2]

theorem piece8_C (c : Dev nD) (i : grid0.Coords) (arg2 : Memref sig .tc .vmem S5000x64 .f32) (harg2 : arg2.IsWhole) (arg3 : Memref sig .tc .vmem S5000x64 .f32) (harg3 : arg3.IsWhole) (arg4 : Memref sig .tc .vmem S5000x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S5000x64 .f32) (harg8 : arg8.IsWhole) (arg9 : Memref sig .tc .vmem S1x8x64 .f32) (harg9 : arg9.IsWhole) (arg10 : Memref sig .tc .vmem S1x8x64 .f32) (harg10 : arg10.IsWhole) (arg11 : Memref sig .tc .vmem S8x64 .f32) (harg11 : arg11.IsWhole) (arg12 : Memref sig .tc .vmem S8x64 .f32) (harg12 : arg12.IsWhole) (hc0 : ¬cond0_0 i) (hc1 : cond0_1 i) (x0 : Vec F S5000x64 .f32) (x1 : Vec F S5000x64 .f32) (x2 : Vec F S5000x1 .f32) (x3 : Vec F S64x64 .f32) (x4 : Vec F S1x64 .f32) (x5 : Vec F S64x64 .f32) (xs0 xs1 : Vec F S8x64 .f32) (v : View sig .tc .vmem S1x8x64 .f32) :
    v.read (Elt F) (v.writes (Elt F) v.junk (kernelRun0_C (F := F) c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1) = k0_pay4 (k0_pay2 (k0_pay9 x0 x1 x2 x3 x5 x4) xs1) := by
  rw [View.read_writes_junk_eq_canon]
  unfold kernelRun0_C
  dsimp only
  sl_unfold_words
  rw [View.canon_unit_zero v0_hz3, View.readCov_unit_zero (S := S8x64) _ v0_hz2]
  simp only [View.readAt_eq_ld, harg2.read_unread, harg3.read_unread, harg4.read_unread, harg5.read_unread, harg6.read_unread, harg7.read_unread, harg11.read_unread, harg12.read_unread, View.ld_unit_zero (S := S5000x64) v0_hz2, View.ld_unit_zero (S := S5000x1) v0_hz2, View.ld_unit_zero (S := S64x64) v0_hz2, View.ld_unit_zero (S := S1x64) v0_hz2, View.ld_unit_zero (S := S8x64) v0_hz2]

end Cert.KernelIdeal.Hand

end
-- ==== Proof.KI.Value0.lean ====
/- Region 0 point by point, as values. At grid point t the body is handed the six blocks of its inputs; after it the
   output tile holds the tile value of those blocks, and the two accumulators hold the recursion acc0 / acc1: restarted
   from the zero tile where the point's second coordinate is 0, otherwise what the point before left, plus the column
   sums (of the tile, of its squares) scaled by 1/8 on 8 equal rows. Where the second coordinate is 9 the two copied-out
   windows hold the accumulators with a leading unit axis. For any float values. -/
import proofs.«158367_j15779709845544_2_alg».proof.Proof.KI.R0Body
import proofs.«158367_j15779709845544_2_alg».proof.Proof.KI.Value0Pieces
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

variable (V : (c : Dev nD) → (b : Ref sig .tc) → Buf (Elt F) ((c : Thread nD τ).loc b))

set_option maxHeartbeats 400000

/-! ## The buffers after the body at a grid point of the region, in each of its three cases -/

theorem out6_A (c : Dev nD) (t : Fin cfg0.N) (h0 : t.val % 10 = 0) (h1 : ¬t.val % 10 = 9) : (outsOfA V c t h0 h1).1 = k0_pay7 (iblk0 V c 0 t) (iblk0 V c 1 t) (iblk0 V c 2 t) (iblk0 V c 3 t) (iblk0 V c 5 t) (iblk0 V c 4 t) := by
  have h := piece6_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) VO0_6
  unfold outsOfA outsOf
  dsimp only
  exact h
theorem s0_A (c : Dev nD) (t : Fin cfg0.N) (h0 : t.val % 10 = 0) (h1 : ¬t.val % 10 = 9) : (outsOfA V c t h0 h1).2.2.2.1 = k0_pay1 (k0_pay8 (iblk0 V c 0 t) (iblk0 V c 1 t) (iblk0 V c 2 t) (iblk0 V c 3 t) (iblk0 V c 5 t) (iblk0 V c 4 t)) k0_pay5 k0_pay10 := by
  have h := pieceS0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) VS0_0
  unfold outsOfA outsOf
  dsimp only
  exact h
theorem s1_A (c : Dev nD) (t : Fin cfg0.N) (h0 : t.val % 10 = 0) (h1 : ¬t.val % 10 = 9) : (outsOfA V c t h0 h1).2.2.2.2 = k0_pay2 (k0_pay9 (iblk0 V c 0 t) (iblk0 V c 1 t) (iblk0 V c 2 t) (iblk0 V c 3 t) (iblk0 V c 5 t) (iblk0 V c 4 t)) k0_pay6 := by
  have h := pieceS1_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) VS0_1
  unfold outsOfA outsOf
  dsimp only
  exact h
theorem out6_B (c : Dev nD) (t : Fin cfg0.N) (h0 : ¬t.val % 10 = 0) (h1 : ¬t.val % 10 = 9) (xs0 xs1 : Vec F S8x64 .f32) : (outsOfB V c t h0 h1 xs0 xs1).1 = k0_pay7 (iblk0 V c 0 t) (iblk0 V c 1 t) (iblk0 V c 2 t) (iblk0 V c 3 t) (iblk0 V c 5 t) (iblk0 V c 4 t) := by
  have h := piece6_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0 xs1 VO0_6
  unfold outsOfB outsOf
  dsimp only
  exact h
theorem s0_B (c : Dev nD) (t : Fin cfg0.N) (h0 : ¬t.val % 10 = 0) (h1 : ¬t.val % 10 = 9) (xs0 xs1 : Vec F S8x64 .f32) : (outsOfB V c t h0 h1 xs0 xs1).2.2.2.1 = k0_pay1 (k0_pay8 (iblk0 V c 0 t) (iblk0 V c 1 t) (iblk0 V c 2 t) (iblk0 V c 3 t) (iblk0 V c 5 t) (iblk0 V c 4 t)) xs0 k0_pay10 := by
  have h := pieceS0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0 xs1 VS0_0
  unfold outsOfB outsOf
  dsimp only
  exact h
theorem s1_B (c : Dev nD) (t : Fin cfg0.N) (h0 : ¬t.val % 10 = 0) (h1 : ¬t.val % 10 = 9) (xs0 xs1 : Vec F S8x64 .f32) : (outsOfB V c t h0 h1 xs0 xs1).2.2.2.2 = k0_pay2 (k0_pay9 (iblk0 V c 0 t) (iblk0 V c 1 t) (iblk0 V c 2 t) (iblk0 V c 3 t) (iblk0 V c 5 t) (iblk0 V c 4 t)) xs1 := by
  have h := pieceS1_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0 xs1 VS0_1
  unfold outsOfB outsOf
  dsimp only
  exact h
theorem out6_C (c : Dev nD) (t : Fin cfg0.N) (h0 : ¬t.val % 10 = 0) (h1 : t.val % 10 = 9) (xs0 xs1 : Vec F S8x64 .f32) : (outsOfC V c t h0 h1 xs0 xs1).1 = k0_pay7 (iblk0 V c 0 t) (iblk0 V c 1 t) (iblk0 V c 2 t) (iblk0 V c 3 t) (iblk0 V c 5 t) (iblk0 V c 4 t) := by
  have h := piece6_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0 xs1 VO0_6
  unfold outsOfC outsOf
  dsimp only
  exact h
theorem s0_C (c : Dev nD) (t : Fin cfg0.N) (h0 : ¬t.val % 10 = 0) (h1 : t.val % 10 = 9) (xs0 xs1 : Vec F S8x64 .f32) : (outsOfC V c t h0 h1 xs0 xs1).2.2.2.1 = k0_pay1 (k0_pay8 (iblk0 V c 0 t) (iblk0 V c 1 t) (iblk0 V c 2 t) (iblk0 V c 3 t) (iblk0 V c 5 t) (iblk0 V c 4 t)) xs0 k0_pay10 := by
  have h := pieceS0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0 xs1 VS0_0
  unfold outsOfC outsOf
  dsimp only
  exact h
theorem s1_C (c : Dev nD) (t : Fin cfg0.N) (h0 : ¬t.val % 10 = 0) (h1 : t.val % 10 = 9) (xs0 xs1 : Vec F S8x64 .f32) : (outsOfC V c t h0 h1 xs0 xs1).2.2.2.2 = k0_pay2 (k0_pay9 (iblk0 V c 0 t) (iblk0 V c 1 t) (iblk0 V c 2 t) (iblk0 V c 3 t) (iblk0 V c 5 t) (iblk0 V c 4 t)) xs1 := by
  have h := pieceS1_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0 xs1 VS0_1
  unfold outsOfC outsOf
  dsimp only
  exact h
theorem o7_C (c : Dev nD) (t : Fin cfg0.N) (h0 : ¬t.val % 10 = 0) (h1 : t.val % 10 = 9) (xs0 xs1 : Vec F S8x64 .f32) : (outsOfC V c t h0 h1 xs0 xs1).2.1 = k0_pay3 (k0_pay1 (k0_pay8 (iblk0 V c 0 t) (iblk0 V c 1 t) (iblk0 V c 2 t) (iblk0 V c 3 t) (iblk0 V c 5 t) (iblk0 V c 4 t)) xs0 k0_pay10) := by
  have h := piece7_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0 xs1 VO0_7
  unfold outsOfC outsOf
  dsimp only
  exact h
theorem o8_C (c : Dev nD) (t : Fin cfg0.N) (h0 : ¬t.val % 10 = 0) (h1 : t.val % 10 = 9) (xs0 xs1 : Vec F S8x64 .f32) : (outsOfC V c t h0 h1 xs0 xs1).2.2.1 = k0_pay4 (k0_pay2 (k0_pay9 (iblk0 V c 0 t) (iblk0 V c 1 t) (iblk0 V c 2 t) (iblk0 V c 3 t) (iblk0 V c 5 t) (iblk0 V c 4 t)) xs1) := by
  have h := piece8_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0 xs1 VO0_8
  unfold outsOfC outsOf
  dsimp only
  exact h

/-! ## The accumulators as an explicit recursion over the grid points

At a point whose second coordinate is 0 an accumulator restarts from the zero tile; elsewhere it adds to what the point
before left. -/

/-- The first accumulator after point n: the column sums of the tile, scaled by 1/8, on 8 equal rows, added up since
    the last reset. -/
def acc0 (c : Dev nD) : (n : ℕ) → n < cfg0.N → Vec F S8x64 .f32
  | 0, h => k0_pay1 (k0_pay8 (iblk0 V c 0 ⟨0, h⟩) (iblk0 V c 1 ⟨0, h⟩) (iblk0 V c 2 ⟨0, h⟩) (iblk0 V c 3 ⟨0, h⟩) (iblk0 V c 5 ⟨0, h⟩) (iblk0 V c 4 ⟨0, h⟩)) k0_pay5 k0_pay10
  | n + 1, h =>
    if (n + 1) % 10 = 0 then k0_pay1 (k0_pay8 (iblk0 V c 0 ⟨n + 1, h⟩) (iblk0 V c 1 ⟨n + 1, h⟩) (iblk0 V c 2 ⟨n + 1, h⟩) (iblk0 V c 3 ⟨n + 1, h⟩) (iblk0 V c 5 ⟨n + 1, h⟩) (iblk0 V c 4 ⟨n + 1, h⟩)) k0_pay5 k0_pay10
    else k0_pay1 (k0_pay8 (iblk0 V c 0 ⟨n + 1, h⟩) (iblk0 V c 1 ⟨n + 1, h⟩) (iblk0 V c 2 ⟨n + 1, h⟩) (iblk0 V c 3 ⟨n + 1, h⟩) (iblk0 V c 5 ⟨n + 1, h⟩) (iblk0 V c 4 ⟨n + 1, h⟩)) (acc0 c n (Nat.lt_of_succ_lt h)) k0_pay10

/-- The second accumulator after point n: the same with the column sums of the tile's squares. -/
def acc1 (c : Dev nD) : (n : ℕ) → n < cfg0.N → Vec F S8x64 .f32
  | 0, h => k0_pay2 (k0_pay9 (iblk0 V c 0 ⟨0, h⟩) (iblk0 V c 1 ⟨0, h⟩) (iblk0 V c 2 ⟨0, h⟩) (iblk0 V c 3 ⟨0, h⟩) (iblk0 V c 5 ⟨0, h⟩) (iblk0 V c 4 ⟨0, h⟩)) k0_pay6
  | n + 1, h =>
    if (n + 1) % 10 = 0 then k0_pay2 (k0_pay9 (iblk0 V c 0 ⟨n + 1, h⟩) (iblk0 V c 1 ⟨n + 1, h⟩) (iblk0 V c 2 ⟨n + 1, h⟩) (iblk0 V c 3 ⟨n + 1, h⟩) (iblk0 V c 5 ⟨n + 1, h⟩) (iblk0 V c 4 ⟨n + 1, h⟩)) k0_pay6
    else k0_pay2 (k0_pay9 (iblk0 V c 0 ⟨n + 1, h⟩) (iblk0 V c 1 ⟨n + 1, h⟩) (iblk0 V c 2 ⟨n + 1, h⟩) (iblk0 V c 3 ⟨n + 1, h⟩) (iblk0 V c 5 ⟨n + 1, h⟩) (iblk0 V c 4 ⟨n + 1, h⟩)) (acc1 c n (Nat.lt_of_succ_lt h))

theorem acc0_zero (c : Dev nD) (h : 0 < cfg0.N) :
    acc0 V c 0 h = k0_pay1 (k0_pay8 (iblk0 V c 0 ⟨0, h⟩) (iblk0 V c 1 ⟨0, h⟩) (iblk0 V c 2 ⟨0, h⟩) (iblk0 V c 3 ⟨0, h⟩) (iblk0 V c 5 ⟨0, h⟩) (iblk0 V c 4 ⟨0, h⟩)) k0_pay5 k0_pay10 := rfl
theorem acc0_succ_reset (c : Dev nD) (n : ℕ) (h : n + 1 < cfg0.N) (h0 : (n + 1) % 10 = 0) :
    acc0 V c (n + 1) h = k0_pay1 (k0_pay8 (iblk0 V c 0 ⟨n + 1, h⟩) (iblk0 V c 1 ⟨n + 1, h⟩) (iblk0 V c 2 ⟨n + 1, h⟩) (iblk0 V c 3 ⟨n + 1, h⟩) (iblk0 V c 5 ⟨n + 1, h⟩) (iblk0 V c 4 ⟨n + 1, h⟩)) k0_pay5 k0_pay10 := if_pos h0
theorem acc0_succ_add (c : Dev nD) (n : ℕ) (h : n + 1 < cfg0.N) (h0 : ¬(n + 1) % 10 = 0) :
    acc0 V c (n + 1) h = k0_pay1 (k0_pay8 (iblk0 V c 0 ⟨n + 1, h⟩) (iblk0 V c 1 ⟨n + 1, h⟩) (iblk0 V c 2 ⟨n + 1, h⟩) (iblk0 V c 3 ⟨n + 1, h⟩) (iblk0 V c 5 ⟨n + 1, h⟩) (iblk0 V c 4 ⟨n + 1, h⟩)) (acc0 V c n (Nat.lt_of_succ_lt h)) k0_pay10 := if_neg h0
theorem acc1_zero (c : Dev nD) (h : 0 < cfg0.N) :
    acc1 V c 0 h = k0_pay2 (k0_pay9 (iblk0 V c 0 ⟨0, h⟩) (iblk0 V c 1 ⟨0, h⟩) (iblk0 V c 2 ⟨0, h⟩) (iblk0 V c 3 ⟨0, h⟩) (iblk0 V c 5 ⟨0, h⟩) (iblk0 V c 4 ⟨0, h⟩)) k0_pay6 := rfl
theorem acc1_succ_reset (c : Dev nD) (n : ℕ) (h : n + 1 < cfg0.N) (h0 : (n + 1) % 10 = 0) :
    acc1 V c (n + 1) h = k0_pay2 (k0_pay9 (iblk0 V c 0 ⟨n + 1, h⟩) (iblk0 V c 1 ⟨n + 1, h⟩) (iblk0 V c 2 ⟨n + 1, h⟩) (iblk0 V c 3 ⟨n + 1, h⟩) (iblk0 V c 5 ⟨n + 1, h⟩) (iblk0 V c 4 ⟨n + 1, h⟩)) k0_pay6 := if_pos h0
theorem acc1_succ_add (c : Dev nD) (n : ℕ) (h : n + 1 < cfg0.N) (h0 : ¬(n + 1) % 10 = 0) :
    acc1 V c (n + 1) h = k0_pay2 (k0_pay9 (iblk0 V c 0 ⟨n + 1, h⟩) (iblk0 V c 1 ⟨n + 1, h⟩) (iblk0 V c 2 ⟨n + 1, h⟩) (iblk0 V c 3 ⟨n + 1, h⟩) (iblk0 V c 5 ⟨n + 1, h⟩) (iblk0 V c 4 ⟨n + 1, h⟩)) (acc1 V c n (Nat.lt_of_succ_lt h)) := if_neg h0

/-- The recursion of the buffers' contents, one step, in each case. -/
theorem outsAt0_succ_A (c : Dev nD) (n : ℕ) (hn : n + 1 < cfg0.N) (h0 : (n + 1) % 10 = 0) (h1 : ¬(n + 1) % 10 = 9) :
    outsAt0 V c (n + 1) hn = outsOfA V c ⟨n + 1, hn⟩ h0 h1 := (dif_pos h0).trans ((dif_neg h1).trans rfl)
theorem outsAt0_succ_B (c : Dev nD) (n : ℕ) (hn : n + 1 < cfg0.N) (h0 : ¬(n + 1) % 10 = 0) (h1 : ¬(n + 1) % 10 = 9) :
    outsAt0 V c (n + 1) hn = outsOfB V c ⟨n + 1, hn⟩ h0 h1 (outsAt0 V c n (Nat.lt_of_succ_lt hn)).2.2.2.1
      (outsAt0 V c n (Nat.lt_of_succ_lt hn)).2.2.2.2 := (dif_neg h0).trans ((dif_neg h1).trans rfl)
theorem outsAt0_succ_C (c : Dev nD) (n : ℕ) (hn : n + 1 < cfg0.N) (h0 : ¬(n + 1) % 10 = 0) (h1 : (n + 1) % 10 = 9) :
    outsAt0 V c (n + 1) hn = outsOfC V c ⟨n + 1, hn⟩ h0 h1 (outsAt0 V c n (Nat.lt_of_succ_lt hn)).2.2.2.1
      (outsAt0 V c n (Nat.lt_of_succ_lt hn)).2.2.2.2 := (dif_neg h0).trans ((dif_pos h1).trans rfl)
theorem outsAt0_zero (c : Dev nD) (hn : 0 < cfg0.N) :
    outsAt0 V c 0 hn = outsOfA V c ⟨0, hn⟩ (Nat.zero_mod _) (show ¬(0 : ℕ) % 10 = 9 by decide) := rfl

/-- The two accumulators after point n are the recursion's: by induction on the point. -/
theorem accs_eq (c : Dev nD) : ∀ (n : ℕ) (hn : n < cfg0.N),
    (outsAt0 V c n hn).2.2.2.1 = acc0 V c n hn ∧ (outsAt0 V c n hn).2.2.2.2 = acc1 V c n hn
  | 0, hn => by
    rw [outsAt0_zero V c hn]
    exact ⟨s0_A V c ⟨0, hn⟩ _ _, s1_A V c ⟨0, hn⟩ _ _⟩
  | n + 1, hn => by
    obtain ⟨ih0, ih1⟩ := accs_eq c n (Nat.lt_of_succ_lt hn)
    by_cases h0 : (n + 1) % 10 = 0
    · have h1 : ¬(n + 1) % 10 = 9 := by omega
      rw [outsAt0_succ_A V c n hn h0 h1, acc0_succ_reset V c n hn h0, acc1_succ_reset V c n hn h0]
      exact ⟨s0_A V c ⟨n + 1, hn⟩ h0 h1, s1_A V c ⟨n + 1, hn⟩ h0 h1⟩
    · rw [acc0_succ_add V c n hn h0, acc1_succ_add V c n hn h0, ← ih0, ← ih1]
      by_cases h1 : (n + 1) % 10 = 9
      · rw [outsAt0_succ_C V c n hn h0 h1]
        exact ⟨s0_C V c ⟨n + 1, hn⟩ h0 h1 _ _, s1_C V c ⟨n + 1, hn⟩ h0 h1 _ _⟩
      · rw [outsAt0_succ_B V c n hn h0 h1]
        exact ⟨s0_B V c ⟨n + 1, hn⟩ h0 h1 _ _, s1_B V c ⟨n + 1, hn⟩ h0 h1 _ _⟩

theorem acc0_eq (c : Dev nD) (n : ℕ) (hn : n < cfg0.N) : (outsAt0 V c n hn).2.2.2.1 = acc0 V c n hn := (accs_eq V c n hn).1
theorem acc1_eq (c : Dev nD) (n : ℕ) (hn : n < cfg0.N) : (outsAt0 V c n hn).2.2.2.2 = acc1 V c n hn := (accs_eq V c n hn).2

/-- The output tile after point t is the tile value at t's blocks, in every case. -/
theorem outs6_eq (c : Dev nD) (t : Fin cfg0.N) :
    (outsAt0 V c t.val t.isLt).1 = k0_pay7 (iblk0 V c 0 t) (iblk0 V c 1 t) (iblk0 V c 2 t) (iblk0 V c 3 t) (iblk0 V c 5 t) (iblk0 V c 4 t) := by
  by_cases h0 : t.val % 10 = 0
  · have h1 : ¬t.val % 10 = 9 := by omega
    rw [outsAt0_A V c t h0 h1]; exact out6_A V c t h0 h1
  · by_cases h1 : t.val % 10 = 9
    · rw [outsAt0_C V c t h0 h1]; exact out6_C V c t h0 h1 _ _
    · rw [outsAt0_B V c t h0 h1]; exact out6_B V c t h0 h1 _ _

/-- Where the second coordinate is 9 the first copied-out window holds the first accumulator with a leading unit axis. -/
theorem outs7_eq (c : Dev nD) (t : Fin cfg0.N) (h1 : t.val % 10 = 9) :
    (outsAt0 V c t.val t.isLt).2.1 = k0_pay3 (acc0 V c t.val t.isLt) := by
  obtain ⟨n, hn⟩ := t
  cases n with
  | zero => exfalso; dsimp only at h1; omega
  | succ n =>
    have h0 : ¬(n + 1) % 10 = 0 := by dsimp only at h1; omega
    show (outsAt0 V c (n + 1) hn).2.1 = k0_pay3 (acc0 V c (n + 1) hn)
    rw [outsAt0_succ_C V c n hn h0 h1, acc0_succ_add V c n hn h0, ← acc0_eq V c n (Nat.lt_of_succ_lt hn)]
    exact o7_C V c ⟨n + 1, hn⟩ h0 h1 _ _

/-- And the second copied-out window the second accumulator. -/
theorem outs8_eq (c : Dev nD) (t : Fin cfg0.N) (h1 : t.val % 10 = 9) :
    (outsAt0 V c t.val t.isLt).2.2.1 = k0_pay4 (acc1 V c t.val t.isLt) := by
  obtain ⟨n, hn⟩ := t
  cases n with
  | zero => exfalso; dsimp only at h1; omega
  | succ n =>
    have h0 : ¬(n + 1) % 10 = 0 := by dsimp only at h1; omega
    show (outsAt0 V c (n + 1) hn).2.2.1 = k0_pay4 (acc1 V c (n + 1) hn)
    rw [outsAt0_succ_C V c n hn h0 h1, acc1_succ_add V c n hn h0, ← acc1_eq V c n (Nat.lt_of_succ_lt hn)]
    exact o8_C V c ⟨n + 1, hn⟩ h0 h1 _ _

end Cert.KernelIdeal.Hand

end
-- ==== Proof.KI.Value0Acc.lean ====
/- The two accumulators of region 0 on the extended reals, entry by entry: after grid point n every one of the 8 rows of
   the first accumulator holds, in column q, the row that restarts from 0 at points 0 and 10 and adds at each point the
   tile's column total times 1/8; the second the same with the column totals of the tile's squares. -/
import proofs.«158367_j15779709845544_2_alg».proof.Proof.KI.Value0
import proofs.«158367_j15779709845544_2_alg».proof.Proof.KI.Payloads
import proofs.«158367_j15779709845544_2_alg».proof.Proof.KForm

set_option maxRecDepth 16384
set_option maxHeartbeats 400000

noncomputable section

namespace Cert.KernelIdeal.Hand

open scoped BigOperators
open Idealize.ShloMosaic Idealize.ShloMosaic.TcCoe Idealize.ShloMosaic.ValueIdx
open Idealize.SL.Sem
open Cert.KernelIdeal Cert.KernelIdeal.Gen Cert.KernelIdeal.GenP Cert.KernelIdeal.PayValue

variable (V : (c : Dev nD) → (b : Ref sig .tc) → Buf (Elt Ideal) ((c : Thread nD τ).loc b))

/-- The tile totals of column q: at point k the sum over the tile's 5000 rows of the tile value. -/
def tileTot0 (c : Dev nD) (q : Fin 64) : Fin 20 → EReal := fun k =>
  ∑ r : Fin 5000, k0_pay7 (F := Ideal) (iblk0 V c 0 (k.cast N_0.symm)) (iblk0 V c 1 (k.cast N_0.symm)) (iblk0 V c 2 (k.cast N_0.symm)) (iblk0 V c 3 (k.cast N_0.symm)) (iblk0 V c 5 (k.cast N_0.symm)) (iblk0 V c 4 (k.cast N_0.symm)) (ix2 r q)

/-- The same for the squares of the tile value. -/
def tileTot1 (c : Dev nD) (q : Fin 64) : Fin 20 → EReal := fun k =>
  ∑ r : Fin 5000, k0_pay7 (F := Ideal) (iblk0 V c 0 (k.cast N_0.symm)) (iblk0 V c 1 (k.cast N_0.symm)) (iblk0 V c 2 (k.cast N_0.symm)) (iblk0 V c 3 (k.cast N_0.symm)) (iblk0 V c 5 (k.cast N_0.symm)) (iblk0 V c 4 (k.cast N_0.symm)) (ix2 r q) * k0_pay7 (F := Ideal) (iblk0 V c 0 (k.cast N_0.symm)) (iblk0 V c 1 (k.cast N_0.symm)) (iblk0 V c 2 (k.cast N_0.symm)) (iblk0 V c 3 (k.cast N_0.symm)) (iblk0 V c 5 (k.cast N_0.symm)) (iblk0 V c 4 (k.cast N_0.symm)) (ix2 r q)

theorem accAt_succ (T : Fin 20 → EReal) (e : EReal) (n : ℕ) (h : n + 1 < 20) :
    Cert.Sage.accAt T e (n + 1) h
      = if (n + 1) % 10 = 0 then 0 + T ⟨n + 1, h⟩ * e
        else Cert.Sage.accAt T e n (Nat.lt_of_succ_lt h) + T ⟨n + 1, h⟩ * e := rfl

/-- The first accumulator after point n, at row a and column q. -/
theorem acc0_read (c : Dev nD) : ∀ (n : ℕ) (hn : n < cfg0.N) (a : Fin 8) (q : Fin 64),
    acc0 (F := Ideal) V c n hn (ix2 a q)
      = Cert.Sage.accAt (tileTot0 V c q) (Ideal.ofBits .f32 0x3E000000#32) n (lt_of_lt_of_eq hn N_0)
  | 0, hn, a, q => by
    rw [acc0_zero V c hn]
    refine (pay1_read (k0_pay8 (F := Ideal) (iblk0 V c 0 ⟨0, hn⟩) (iblk0 V c 1 ⟨0, hn⟩) (iblk0 V c 2 ⟨0, hn⟩) (iblk0 V c 3 ⟨0, hn⟩) (iblk0 V c 5 ⟨0, hn⟩) (iblk0 V c 4 ⟨0, hn⟩)) (k0_pay10 (F := Ideal)) (k0_pay5 (F := Ideal)) a q).trans ?_
    rw [pay5_read a q, pay10_read q, pay8_read (iblk0 V c 0 ⟨0, hn⟩) (iblk0 V c 1 ⟨0, hn⟩) (iblk0 V c 2 ⟨0, hn⟩) (iblk0 V c 3 ⟨0, hn⟩) (iblk0 V c 5 ⟨0, hn⟩) (iblk0 V c 4 ⟨0, hn⟩) q]
    rfl
  | n + 1, hn, a, q => by
    rw [accAt_succ]
    by_cases h0 : (n + 1) % 10 = 0
    · rw [acc0_succ_reset V c n hn h0, if_pos h0]
      refine (pay1_read (k0_pay8 (F := Ideal) (iblk0 V c 0 ⟨n + 1, hn⟩) (iblk0 V c 1 ⟨n + 1, hn⟩) (iblk0 V c 2 ⟨n + 1, hn⟩) (iblk0 V c 3 ⟨n + 1, hn⟩) (iblk0 V c 5 ⟨n + 1, hn⟩) (iblk0 V c 4 ⟨n + 1, hn⟩)) (k0_pay10 (F := Ideal)) (k0_pay5 (F := Ideal)) a q).trans ?_
      rw [pay5_read a q, pay10_read q, pay8_read (iblk0 V c 0 ⟨n + 1, hn⟩) (iblk0 V c 1 ⟨n + 1, hn⟩) (iblk0 V c 2 ⟨n + 1, hn⟩) (iblk0 V c 3 ⟨n + 1, hn⟩) (iblk0 V c 5 ⟨n + 1, hn⟩) (iblk0 V c 4 ⟨n + 1, hn⟩) q]
      rfl
    · rw [acc0_succ_add V c n hn h0, if_neg h0]
      refine (pay1_read (k0_pay8 (F := Ideal) (iblk0 V c 0 ⟨n + 1, hn⟩) (iblk0 V c 1 ⟨n + 1, hn⟩) (iblk0 V c 2 ⟨n + 1, hn⟩) (iblk0 V c 3 ⟨n + 1, hn⟩) (iblk0 V c 5 ⟨n + 1, hn⟩) (iblk0 V c 4 ⟨n + 1, hn⟩)) (k0_pay10 (F := Ideal)) (acc0 (F := Ideal) V c n (Nat.lt_of_succ_lt hn)) a q).trans ?_
      rw [acc0_read c n (Nat.lt_of_succ_lt hn) a q, pay10_read q, pay8_read (iblk0 V c 0 ⟨n + 1, hn⟩) (iblk0 V c 1 ⟨n + 1, hn⟩) (iblk0 V c 2 ⟨n + 1, hn⟩) (iblk0 V c 3 ⟨n + 1, hn⟩) (iblk0 V c 5 ⟨n + 1, hn⟩) (iblk0 V c 4 ⟨n + 1, hn⟩) q]
      rfl

/-- The second accumulator after point n, at row a and column q. -/
theorem acc1_read (c : Dev nD) : ∀ (n : ℕ) (hn : n < cfg0.N) (a : Fin 8) (q : Fin 64),
    acc1 (F := Ideal) V c n hn (ix2 a q)
      = Cert.Sage.accAt (tileTot1 V c q) (Ideal.ofBits .f32 0x3E000000#32) n (lt_of_lt_of_eq hn N_0)
  | 0, hn, a, q => by
    rw [acc1_zero V c hn]
    refine (pay2_read (k0_pay9 (F := Ideal) (iblk0 V c 0 ⟨0, hn⟩) (iblk0 V c 1 ⟨0, hn⟩) (iblk0 V c 2 ⟨0, hn⟩) (iblk0 V c 3 ⟨0, hn⟩) (iblk0 V c 5 ⟨0, hn⟩) (iblk0 V c 4 ⟨0, hn⟩)) (k0_pay6 (F := Ideal)) a q).trans ?_
    rw [pay6_read a q, pay9_read (iblk0 V c 0 ⟨0, hn⟩) (iblk0 V c 1 ⟨0, hn⟩) (iblk0 V c 2 ⟨0, hn⟩) (iblk0 V c 3 ⟨0, hn⟩) (iblk0 V c 5 ⟨0, hn⟩) (iblk0 V c 4 ⟨0, hn⟩) q]
    rfl
  | n + 1, hn, a, q => by
    rw [accAt_succ]
    by_cases h0 : (n + 1) % 10 = 0
    · rw [acc1_succ_reset V c n hn h0, if_pos h0]
      refine (pay2_read (k0_pay9 (F := Ideal) (iblk0 V c 0 ⟨n + 1, hn⟩) (iblk0 V c 1 ⟨n + 1, hn⟩) (iblk0 V c 2 ⟨n + 1, hn⟩) (iblk0 V c 3 ⟨n + 1, hn⟩) (iblk0 V c 5 ⟨n + 1, hn⟩) (iblk0 V c 4 ⟨n + 1, hn⟩)) (k0_pay6 (F := Ideal)) a q).trans ?_
      rw [pay6_read a q, pay9_read (iblk0 V c 0 ⟨n + 1, hn⟩) (iblk0 V c 1 ⟨n + 1, hn⟩) (iblk0 V c 2 ⟨n + 1, hn⟩) (iblk0 V c 3 ⟨n + 1, hn⟩) (iblk0 V c 5 ⟨n + 1, hn⟩) (iblk0 V c 4 ⟨n + 1, hn⟩) q]
      rfl
    · rw [acc1_succ_add V c n hn h0, if_neg h0]
      refine (pay2_read (k0_pay9 (F := Ideal) (iblk0 V c 0 ⟨n + 1, hn⟩) (iblk0 V c 1 ⟨n + 1, hn⟩) (iblk0 V c 2 ⟨n + 1, hn⟩) (iblk0 V c 3 ⟨n + 1, hn⟩) (iblk0 V c 5 ⟨n + 1, hn⟩) (iblk0 V c 4 ⟨n + 1, hn⟩)) (acc1 (F := Ideal) V c n (Nat.lt_of_succ_lt hn)) a q).trans ?_
      rw [acc1_read c n (Nat.lt_of_succ_lt hn) a q, pay9_read (iblk0 V c 0 ⟨n + 1, hn⟩) (iblk0 V c 1 ⟨n + 1, hn⟩) (iblk0 V c 2 ⟨n + 1, hn⟩) (iblk0 V c 3 ⟨n + 1, hn⟩) (iblk0 V c 5 ⟨n + 1, hn⟩) (iblk0 V c 4 ⟨n + 1, hn⟩) q]
      rfl

end Cert.KernelIdeal.Hand

end
-- ==== Proof.KI.Value0Arr.lean ====
/- Region 0's three output arrays after the region, from blocks to arrays: the tile array row by row from the tile
   its point leaves, the two statistics arrays from what the last point of each core's sweep copies out; and the
   region's six input blocks read off their arrays. -/
import proofs.«158367_j15779709845544_2_alg».proof.Proof.KI.R0Body
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.KernelIdeal.GenP
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks, read off their arrays -/

/-- A point's number is below twenty. -/
theorem pt_lt (t : Fin cfg0.N) : t.val < 20 := by
  exact lt_of_lt_of_eq t.isLt (show cfg0.N = 20 from N_0)
/-- Row `r` of tile `t` is a row of the array. -/
theorem blk_row_lt (t : Fin cfg0.N) (r : Fin 5000) : t.val * 5000 + r.val < 100000 := by
  have := pt_lt t; have := r.isLt; omega

theorem idx_in0_0 : ∀ t : Fin cfg0.N, win0_0.index t (0 : Fin 2) = t.val ∧ win0_0.index t (1 : Fin 2) = 0 :=
  (by decide +kernel : ∀ t : Fin grid0.N, _)
theorem idx_in0_1 : ∀ t : Fin cfg0.N, win0_1.index t (0 : Fin 2) = t.val ∧ win0_1.index t (1 : Fin 2) = 0 :=
  (by decide +kernel : ∀ t : Fin grid0.N, _)
theorem idx_in0_2 : ∀ t : Fin cfg0.N, win0_2.index t (0 : Fin 2) = t.val ∧ win0_2.index t (1 : Fin 2) = 0 :=
  (by decide +kernel : ∀ t : Fin grid0.N, _)
theorem idx_in0_3 : ∀ t : Fin cfg0.N, win0_3.index t (0 : Fin 2) = 0 ∧ win0_3.index t (1 : Fin 2) = 0 :=
  (by decide +kernel : ∀ t : Fin grid0.N, _)
theorem idx_in0_4 : ∀ t : Fin cfg0.N, win0_4.index t (0 : Fin 2) = 0 ∧ win0_4.index t (1 : Fin 2) = 0 :=
  (by decide +kernel : ∀ t : Fin grid0.N, _)
theorem idx_in0_5 : ∀ t : Fin cfg0.N, win0_5.index t (0 : Fin 2) = 0 ∧ win0_5.index t (1 : Fin 2) = 0 :=
  (by decide +kernel : ∀ t : Fin grid0.N, _)

theorem iblk0_0_read (c : Dev nD) (t : Fin cfg0.N) (r : Fin 5000) (q : Fin 64) :
    iblk0 V c 0 t (ix2 r q) = (V c main_arg0 : S100000x64.Idx → Elt F .f32) (ix2 ((⟨t.val * 5000 + r.val, blk_row_lt t r⟩ : Fin 100000)) q) := by
  obtain ⟨e0, e1⟩ := idx_in0_0 t
  show V c main_arg0 (((cfg0.win 0).blk t).view.emb (ix2 r q)) = _
  refine congrArg (V c main_arg0) (funext fun a => Fin.ext ?_)
  match a with
  | ⟨0, _⟩ => show win0_0.index t (0 : Fin 2) * 5000 + 1 * r.val = t.val * 5000 + r.val; omega
  | ⟨1, _⟩ => show win0_0.index t (1 : Fin 2) * 64 + 1 * q.val = q.val; omega

theorem iblk0_1_read (c : Dev nD) (t : Fin cfg0.N) (r : Fin 5000) (q : Fin 64) :
    iblk0 V c 1 t (ix2 r q) = (V c main_v12 : S100000x64.Idx → Elt F .f32) (ix2 ((⟨t.val * 5000 + r.val, blk_row_lt t r⟩ : Fin 100000)) q) := by
  obtain ⟨e0, e1⟩ := idx_in0_1 t
  show V c main_v12 (((cfg0.win 1).blk t).view.emb (ix2 r q)) = _
  refine congrArg (V c main_v12) (funext fun a => Fin.ext ?_)
  match a with
  | ⟨0, _⟩ => show win0_1.index t (0 : Fin 2) * 5000 + 1 * r.val = t.val * 5000 + r.val; omega
  | ⟨1, _⟩ => show win0_1.index t (1 : Fin 2) * 64 + 1 * q.val = q.val; omega

theorem iblk0_2_read (c : Dev nD) (t : Fin cfg0.N) (r : Fin 5000) (q : Fin 1) :
    iblk0 V c 2 t (ix2 r q) = (V c main_v17 : S100000x1.Idx → Elt F .f32) (ix2 ((⟨t.val * 5000 + r.val, blk_row_lt t r⟩ : Fin 100000)) q) := by
  obtain ⟨e0, e1⟩ := idx_in0_2 t
  show V c main_v17 (((cfg0.win 2).blk t).view.emb (ix2 r q)) = _
  refine congrArg (V c main_v17) (funext fun a => Fin.ext ?_)
  match a with
  | ⟨0, _⟩ => show win0_2.index t (0 : Fin 2) * 5000 + 1 * r.val = t.val * 5000 + r.val; omega
  | ⟨1, _⟩ => show win0_2.index t (1 : Fin 2) * 1 + 1 * q.val = q.val; omega

theorem iblk0_3_read (c : Dev nD) (t : Fin cfg0.N) (r : Fin 64) (q : Fin 64) :
    iblk0 V c 3 t (ix2 r q) = (V c main_v18 : S64x64.Idx → Elt F .f32) (ix2 (r) q) := by
  obtain ⟨e0, e1⟩ := idx_in0_3 t
  show V c main_v18 (((cfg0.win 3).blk t).view.emb (ix2 r q)) = _
  refine congrArg (V c main_v18) (funext fun a => Fin.ext ?_)
  match a with
  | ⟨0, _⟩ => show win0_3.index t (0 : Fin 2) * 64 + 1 * r.val = r.val; omega
  | ⟨1, _⟩ => show win0_3.index t (1 : Fin 2) * 64 + 1 * q.val = q.val; omega

theorem iblk0_4_read (c : Dev nD) (t : Fin cfg0.N) (r : Fin 1) (q : Fin 64) :
    iblk0 V c 4 t (ix2 r q) = (V c main_v20 : S1x64.Idx → Elt F .f32) (ix2 (r) q) := by
  obtain ⟨e0, e1⟩ := idx_in0_4 t
  show V c main_v20 (((cfg0.win 4).blk t).view.emb (ix2 r q)) = _
  refine congrArg (V c main_v20) (funext fun a => Fin.ext ?_)
  match a with
  | ⟨0, _⟩ => show win0_4.index t (0 : Fin 2) * 1 + 1 * r.val = r.val; omega
  | ⟨1, _⟩ => show win0_4.index t (1 : Fin 2) * 64 + 1 * q.val = q.val; omega

theorem iblk0_5_read (c : Dev nD) (t : Fin cfg0.N) (r : Fin 64) (q : Fin 64) :
    iblk0 V c 5 t (ix2 r q) = (V c main_v19 : S64x64.Idx → Elt F .f32) (ix2 (r) q) := by
  obtain ⟨e0, e1⟩ := idx_in0_5 t
  show V c main_v19 (((cfg0.win 5).blk t).view.emb (ix2 r q)) = _
  refine congrArg (V c main_v19) (funext fun a => Fin.ext ?_)
  match a with
  | ⟨0, _⟩ => show win0_5.index t (0 : Fin 2) * 64 + 1 * r.val = r.val; omega
  | ⟨1, _⟩ => show win0_5.index t (1 : Fin 2) * 64 + 1 * q.val = q.val; omega

/-! ## The accumulation at a position does not depend on how the position is written -/

theorem outsAt0_congr (c : Dev nD) {n n' : ℕ} (e : n = n') (h : n < cfg0.N) (h' : n' < cfg0.N) :
    outsAt0 V c n h = outsAt0 V c n' h' := by subst e; rfl

/-! ## The tile array (output window 6) -/

theorem tile_lt (p : Fin 100000) : p.val / 5000 < cfg0.N := by
  show _ < grid0.N; rw [N_0]; have := p.isLt; omega
theorem row_lt (p : Fin 100000) : p.val % 5000 < 5000 := Nat.mod_lt _ (by decide)
/-- The last position of sweep `k` is a position of the grid. -/
theorem last_lt (k : Fin 2) : k.val * 10 + 9 < cfg0.N := by
  show _ < grid0.N; rw [N_0]; have := k.isLt; omega

/-- The tile array after the region: row `p` from the tile point `p / 5000` leaves, at row `p % 5000`. -/
def G0_6 (c : Dev nD) : S100000x64.Idx → Elt F .f32 := fun i =>
  (outsAt0 V c ((i 0 : Fin 100000).val / 5000) (tile_lt _)).1 (ix2 (⟨(i 0 : Fin 100000).val % 5000, row_lt _⟩ : Fin 5000) (i 1 : Fin 64))

theorem idx_out0_6 : ∀ t : Fin cfg0.N, win0_6.index t (0 : Fin 2) = t.val ∧ win0_6.index t (1 : Fin 2) = 0 :=
  (by decide +kernel : ∀ t : Fin grid0.N, _)

/-- What point `t` writes back to the tile array is block `t` of `G0_6`. -/
theorem flushed0_6_eq (c : Dev nD) (t : Fin cfg0.N) :
    (dat0 V c).flushed 6 t = ((cfg0.win 6).blk t).view.read (Elt F) (G0_6 V c) := by
  show (cfg0.win 6).cut (grid0.coords t) ((dat0 V c).after 6 t) = _
  rw [after0_6]
  obtain ⟨e0, e1⟩ := idx_out0_6 t
  funext j
  show (outsAt0 V c t.val t.isLt).1 j = G0_6 V c (((cfg0.win 6).blk t).view.emb j)
  unfold G0_6
  have hj0 : (j 0).val < 5000 := (j 0).isLt
  have hr : ((((cfg0.win 6).blk t).view.emb j) 0 : Fin 100000).val = t.val * 5000 + (j 0).val := by
    show win0_6.index t (0 : Fin 2) * 5000 + 1 * (j 0).val = _; omega
  have hc : ((((cfg0.win 6).blk t).view.emb j) 1 : Fin 64).val = (j 1).val := by
    show win0_6.index t (1 : Fin 2) * 64 + 1 * (j 1).val = _; omega
  have hn : ((((cfg0.win 6).blk t).view.emb j) 0 : Fin 100000).val / 5000 = t.val := by rw [hr]; omega
  rw [outsAt0_congr V c hn _ t.isLt]
  refine congrArg (outsAt0 V c t.val t.isLt).1 (funext fun a => Fin.ext ?_)
  match a with
  | ⟨0, _⟩ => show (j 0).val = ((((cfg0.win 6).blk t).view.emb j) 0 : Fin 100000).val % 5000; rw [hr]; omega
  | ⟨1, _⟩ => show (j 1).val = ((((cfg0.win 6).blk t).view.emb j) 1 : Fin 64).val; rw [hc]

theorem mem_blk0_6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v21_0).slice (win0_6.rect t)).set ↔ _
  rw [View.set_slice_whole, Rect.mem_set_unit]
  exact Iff.rfl

theorem cover0_6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : (i 0).val / 5000 < cfg0.N := by show _ < grid0.N; rw [N_0]; omega
  refine ⟨⟨(i 0).val / 5000, hN⟩, flush0_6 _, ?_⟩
  rw [mem_blk0_6]
  obtain ⟨e0, e1⟩ := idx_out0_6 ⟨(i 0).val / 5000, hN⟩
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hN⟩ (1 : Fin 2) * 64 ≤ (i 1).val ∧ (i 1).val < win0_6.index ⟨(i 0).val / 5000, hN⟩ (1 : Fin 2) * 64 + 64
    rw [e1]; omega

/-- THE TILE ARRAY after the region. -/
theorem arr0_6 (c : Dev nD) : (dat0 V c).arrAt 6 cfg0.N = G0_6 V c :=
  (dat0 V c).arrAt_eq_of_cover 6 (G0_6 V c) (fun t _ => flushed0_6_eq V c t) cover0_6

theorem arr0_6_read (c : Dev nD) (p : Fin 100000) (q : Fin 64) :
    ((dat0 V c).arrAt 6 cfg0.N : S100000x64.Idx → Elt F .f32) (ix2 p q)
      = (outsAt0 V c (p.val / 5000) (tile_lt p)).1 (ix2 (⟨p.val % 5000, row_lt p⟩ : Fin 5000) q) := by
  rw [arr0_6]; rfl

/-! ## The statistics array of output window 7 -/

/-- The array after the region: plane `k` is what the last point of sweep `k` (position `10 k + 9`) copies out. -/
def G0_7 (c : Dev nD) : S2x8x64.Idx → Elt F .f32 := fun i =>
  (outsAt0 V c ((i 0 : Fin 2).val * 10 + 9) (last_lt _)).2.1 (ix3 (0 : Fin 1) (i 1 : Fin 8) (i 2 : Fin 64))

theorem idx_out0_7 : ∀ t : Fin cfg0.N, win0_7.index t (0 : Fin 3) = t.val / 10 ∧ win0_7.index t (1 : Fin 3) = 0 ∧ win0_7.index t (2 : Fin 3) = 0 :=
  (by decide +kernel : ∀ t : Fin grid0.N, _)

/-- What a point that writes back (the last of a sweep) writes to the array is its block of `G0_7`. -/
theorem flushed0_7_eq (c : Dev nD) (t : Fin cfg0.N) (hf : (cfg0.win 7).flush t = true) :
    (dat0 V c).flushed 7 t = ((cfg0.win 7).blk t).view.read (Elt F) (G0_7 V c) := by
  have h9 : t.val % 10 = 9 := (flush0_7 t).mp hf
  show (cfg0.win 7).cut (grid0.coords t) ((dat0 V c).after 7 t) = _
  rw [after0_7]
  obtain ⟨e0, e1, e2⟩ := idx_out0_7 t
  funext j
  show (outsAt0 V c t.val t.isLt).2.1 j = G0_7 V c (((cfg0.win 7).blk t).view.emb j)
  unfold G0_7
  have hj0 : (j 0).val < 1 := (j 0).isLt
  have hp : ((((cfg0.win 7).blk t).view.emb j) 0 : Fin 2).val = t.val / 10 := by
    show win0_7.index t (0 : Fin 3) * 1 + 1 * (j 0).val = _; omega
  have ha : ((((cfg0.win 7).blk t).view.emb j) 1 : Fin 8).val = (j 1).val := by
    show win0_7.index t (1 : Fin 3) * 8 + 1 * (j 1).val = _; omega
  have hq : ((((cfg0.win 7).blk t).view.emb j) 2 : Fin 64).val = (j 2).val := by
    show win0_7.index t (2 : Fin 3) * 64 + 1 * (j 2).val = _; omega
  have hn : ((((cfg0.win 7).blk t).view.emb j) 0 : Fin 2).val * 10 + 9 = t.val := by rw [hp]; omega
  rw [outsAt0_congr V c hn _ t.isLt]
  refine congrArg (outsAt0 V c t.val t.isLt).2.1 (funext fun a => Fin.ext ?_)
  match a with
  | ⟨0, _⟩ => show (j 0).val = 0; omega
  | ⟨1, _⟩ => show (j 1).val = ((((cfg0.win 7).blk t).view.emb j) 1 : Fin 8).val; rw [ha]
  | ⟨2, _⟩ => show (j 2).val = ((((cfg0.win 7).blk t).view.emb j) 2 : Fin 64).val; rw [hq]

theorem mem_blk0_7 (t : Fin cfg0.N) (i : S2x8x64.Idx) :
    i ∈ ((cfg0.win 7).blk t).view.set ↔ ∀ a : Fin 3, win0_7.index t a * S1x8x64.size a ≤ (i a).val ∧ (i a).val < win0_7.index t a * S1x8x64.size a + S1x8x64.size a := by
  show i ∈ ((View.whole main_v21_1).slice (win0_7.rect t)).set ↔ _
  rw [View.set_slice_whole, Rect.mem_set_unit]
  exact Iff.rfl

theorem cover0_7 (i : S2x8x64.Idx) : ∃ t : Fin cfg0.N, (cfg0.win 7).flush t = true ∧ i ∈ ((cfg0.win 7).blk t).view.set := by
  have hi0 : (i 0).val < 2 := (i 0).isLt
  have hi1 : (i 1).val < 8 := (i 1).isLt
  have hi2 : (i 2).val < 64 := (i 2).isLt
  have hN : (i 0).val * 10 + 9 < cfg0.N := by show _ < grid0.N; rw [N_0]; omega
  refine ⟨⟨(i 0).val * 10 + 9, hN⟩, (flush0_7 _).mpr (by show ((i 0).val * 10 + 9) % 10 = 9; omega), ?_⟩
  rw [mem_blk0_7]
  obtain ⟨e0, e1, e2⟩ := idx_out0_7 ⟨(i 0).val * 10 + 9, hN⟩
  intro a
  match a with
  | ⟨0, _⟩ =>
    show win0_7.index ⟨(i 0).val * 10 + 9, hN⟩ (0 : Fin 3) * 1 ≤ (i 0).val ∧ (i 0).val < win0_7.index ⟨(i 0).val * 10 + 9, hN⟩ (0 : Fin 3) * 1 + 1
    rw [e0]; show ((i 0).val * 10 + 9) / 10 * 1 ≤ (i 0).val ∧ (i 0).val < ((i 0).val * 10 + 9) / 10 * 1 + 1; omega
  | ⟨1, _⟩ =>
    show win0_7.index ⟨(i 0).val * 10 + 9, hN⟩ (1 : Fin 3) * 8 ≤ (i 1).val ∧ (i 1).val < win0_7.index ⟨(i 0).val * 10 + 9, hN⟩ (1 : Fin 3) * 8 + 8
    rw [e1]; omega
  | ⟨2, _⟩ =>
    show win0_7.index ⟨(i 0).val * 10 + 9, hN⟩ (2 : Fin 3) * 64 ≤ (i 2).val ∧ (i 2).val < win0_7.index ⟨(i 0).val * 10 + 9, hN⟩ (2 : Fin 3) * 64 + 64
    rw [e2]; omega

/-- THE ARRAY after the region. -/
theorem arr0_7 (c : Dev nD) : (dat0 V c).arrAt 7 cfg0.N = G0_7 V c :=
  (dat0 V c).arrAt_eq_of_cover 7 (G0_7 V c) (fun t hf => flushed0_7_eq V c t hf) cover0_7

theorem arr0_7_read (c : Dev nD) (k : Fin 2) (a : Fin 8) (q : Fin 64) :
    ((dat0 V c).arrAt 7 cfg0.N : S2x8x64.Idx → Elt F .f32) (ix3 k a q)
      = (outsAt0 V c (k.val * 10 + 9) (last_lt k)).2.1 (ix3 (0 : Fin 1) a q) := by
  rw [arr0_7]; rfl

/-! ## The statistics array of output window 8 -/

/-- The array after the region: plane `k` is what the last point of sweep `k` (position `10 k + 9`) copies out. -/
def G0_8 (c : Dev nD) : S2x8x64.Idx → Elt F .f32 := fun i =>
  (outsAt0 V c ((i 0 : Fin 2).val * 10 + 9) (last_lt _)).2.2.1 (ix3 (0 : Fin 1) (i 1 : Fin 8) (i 2 : Fin 64))

theorem idx_out0_8 : ∀ t : Fin cfg0.N, win0_8.index t (0 : Fin 3) = t.val / 10 ∧ win0_8.index t (1 : Fin 3) = 0 ∧ win0_8.index t (2 : Fin 3) = 0 :=
  (by decide +kernel : ∀ t : Fin grid0.N, _)

/-- What a point that writes back (the last of a sweep) writes to the array is its block of `G0_8`. -/
theorem flushed0_8_eq (c : Dev nD) (t : Fin cfg0.N) (hf : (cfg0.win 8).flush t = true) :
    (dat0 V c).flushed 8 t = ((cfg0.win 8).blk t).view.read (Elt F) (G0_8 V c) := by
  have h9 : t.val % 10 = 9 := (flush0_8 t).mp hf
  show (cfg0.win 8).cut (grid0.coords t) ((dat0 V c).after 8 t) = _
  rw [after0_8]
  obtain ⟨e0, e1, e2⟩ := idx_out0_8 t
  funext j
  show (outsAt0 V c t.val t.isLt).2.2.1 j = G0_8 V c (((cfg0.win 8).blk t).view.emb j)
  unfold G0_8
  have hj0 : (j 0).val < 1 := (j 0).isLt
  have hp : ((((cfg0.win 8).blk t).view.emb j) 0 : Fin 2).val = t.val / 10 := by
    show win0_8.index t (0 : Fin 3) * 1 + 1 * (j 0).val = _; omega
  have ha : ((((cfg0.win 8).blk t).view.emb j) 1 : Fin 8).val = (j 1).val := by
    show win0_8.index t (1 : Fin 3) * 8 + 1 * (j 1).val = _; omega
  have hq : ((((cfg0.win 8).blk t).view.emb j) 2 : Fin 64).val = (j 2).val := by
    show win0_8.index t (2 : Fin 3) * 64 + 1 * (j 2).val = _; omega
  have hn : ((((cfg0.win 8).blk t).view.emb j) 0 : Fin 2).val * 10 + 9 = t.val := by rw [hp]; omega
  rw [outsAt0_congr V c hn _ t.isLt]
  refine congrArg (outsAt0 V c t.val t.isLt).2.2.1 (funext fun a => Fin.ext ?_)
  match a with
  | ⟨0, _⟩ => show (j 0).val = 0; omega
  | ⟨1, _⟩ => show (j 1).val = ((((cfg0.win 8).blk t).view.emb j) 1 : Fin 8).val; rw [ha]
  | ⟨2, _⟩ => show (j 2).val = ((((cfg0.win 8).blk t).view.emb j) 2 : Fin 64).val; rw [hq]

theorem mem_blk0_8 (t : Fin cfg0.N) (i : S2x8x64.Idx) :
    i ∈ ((cfg0.win 8).blk t).view.set ↔ ∀ a : Fin 3, win0_8.index t a * S1x8x64.size a ≤ (i a).val ∧ (i a).val < win0_8.index t a * S1x8x64.size a + S1x8x64.size a := by
  show i ∈ ((View.whole main_v21_2).slice (win0_8.rect t)).set ↔ _
  rw [View.set_slice_whole, Rect.mem_set_unit]
  exact Iff.rfl

theorem cover0_8 (i : S2x8x64.Idx) : ∃ t : Fin cfg0.N, (cfg0.win 8).flush t = true ∧ i ∈ ((cfg0.win 8).blk t).view.set := by
  have hi0 : (i 0).val < 2 := (i 0).isLt
  have hi1 : (i 1).val < 8 := (i 1).isLt
  have hi2 : (i 2).val < 64 := (i 2).isLt
  have hN : (i 0).val * 10 + 9 < cfg0.N := by show _ < grid0.N; rw [N_0]; omega
  refine ⟨⟨(i 0).val * 10 + 9, hN⟩, (flush0_8 _).mpr (by show ((i 0).val * 10 + 9) % 10 = 9; omega), ?_⟩
  rw [mem_blk0_8]
  obtain ⟨e0, e1, e2⟩ := idx_out0_8 ⟨(i 0).val * 10 + 9, hN⟩
  intro a
  match a with
  | ⟨0, _⟩ =>
    show win0_8.index ⟨(i 0).val * 10 + 9, hN⟩ (0 : Fin 3) * 1 ≤ (i 0).val ∧ (i 0).val < win0_8.index ⟨(i 0).val * 10 + 9, hN⟩ (0 : Fin 3) * 1 + 1
    rw [e0]; show ((i 0).val * 10 + 9) / 10 * 1 ≤ (i 0).val ∧ (i 0).val < ((i 0).val * 10 + 9) / 10 * 1 + 1; omega
  | ⟨1, _⟩ =>
    show win0_8.index ⟨(i 0).val * 10 + 9, hN⟩ (1 : Fin 3) * 8 ≤ (i 1).val ∧ (i 1).val < win0_8.index ⟨(i 0).val * 10 + 9, hN⟩ (1 : Fin 3) * 8 + 8
    rw [e1]; omega
  | ⟨2, _⟩ =>
    show win0_8.index ⟨(i 0).val * 10 + 9, hN⟩ (2 : Fin 3) * 64 ≤ (i 2).val ∧ (i 2).val < win0_8.index ⟨(i 0).val * 10 + 9, hN⟩ (2 : Fin 3) * 64 + 64
    rw [e2]; omega

/-- THE ARRAY after the region. -/
theorem arr0_8 (c : Dev nD) : (dat0 V c).arrAt 8 cfg0.N = G0_8 V c :=
  (dat0 V c).arrAt_eq_of_cover 8 (G0_8 V c) (fun t hf => flushed0_8_eq V c t hf) cover0_8

theorem arr0_8_read (c : Dev nD) (k : Fin 2) (a : Fin 8) (q : Fin 64) :
    ((dat0 V c).arrAt 8 cfg0.N : S2x8x64.Idx → Elt F .f32) (ix3 k a q)
      = (outsAt0 V c (k.val * 10 + 9) (last_lt k)).2.2.1 (ix3 (0 : Fin 1) a q) := by
  rw [arr0_8]; rfl

end Cert.KernelIdeal.Hand

end
-- ==== Proof.KI.KValue0R.lean ====
/- What region 0 leaves in its three output arrays, as functions of the program's arguments, on the extended reals: the
   first array is the linear layer's output u (kernel grouping) of the arguments; each of the two statistics arrays,
   summed over its two leading axes, is the sum over the two cores and the 8 equal rows of the row that restarts at each
   core's first tile and adds, tile by tile, an eighth of the tile's column total of u (of u², for the second). -/
import proofs.«158367_j15779709845544_2_alg».proof.Proof.KI.KValue0
import proofs.«158367_j15779709845544_2_alg».proof.Proof.KI.Value0Acc
import proofs.«158367_j15779709845544_2_alg».proof.Proof.KI.Value0Arr

set_option maxRecDepth 16384
set_option maxHeartbeats 400000

noncomputable section

namespace Cert.KernelIdeal.KValue

open scoped BigOperators
open Idealize.ShloMosaic Idealize.ShloMosaic.TcCoe Idealize.ShloMosaic.ValueIdx Idealize.SL.Sem
open Cert.KernelIdeal Cert.KernelIdeal.Gen Cert.KernelIdeal.GenP Cert.KernelIdeal.Hand Cert.KernelIdeal.HostValue
open Cert.KernelIdeal.PayValue Cert.Sage Cert.Reals

variable (m : (ℓ : Loc nD τ sig) → Buf (Elt Ideal) ℓ) (ρ : Dev nD → PrngReg) (c : Dev nD)

theorem tileRow_lt (k : Fin cfg0.N) (r : Fin 5000) : k.val * 5000 + r.val < 100000 := by
  have h1 := k.isLt; have h2 : cfg0.N = 20 := N_0; have h3 := r.isLt; omega
theorem tileOf_lt (p : Fin 100000) : p.val / 5000 < cfg0.N := by
  have h2 : cfg0.N = 20 := N_0; have := p.isLt; omega
theorem lastPt_lt (cc : Fin 2) : cc.val * 10 + 9 < cfg0.N := by
  have h2 : cfg0.N = 20 := N_0; have := cc.isLt; omega

/-- The tile value at point k's blocks, at row r of the tile and column q, is u at row 5000 k + r: the blocks are rows
    of the arrays the region finds, and those are the arguments, the neighbour sums and the reciprocal degrees. -/
theorem pay7_at (k : Fin cfg0.N) (r : Fin 5000) (q : Fin 64) :
    k0_pay7 (F := Ideal) (iblk0 (V1 m ρ) c 0 k) (iblk0 (V1 m ρ) c 1 k) (iblk0 (V1 m ρ) c 2 k) (iblk0 (V1 m ρ) c 3 k) (iblk0 (V1 m ρ) c 5 k) (iblk0 (V1 m ρ) c 4 k) (ix2 r q)
      = uK m c ⟨k.val * 5000 + r.val, tileRow_lt k r⟩ q := by
  refine (pay7_read (iblk0 (V1 m ρ) c 0 k) (iblk0 (V1 m ρ) c 1 k) (iblk0 (V1 m ρ) c 2 k) (iblk0 (V1 m ρ) c 3 k) (iblk0 (V1 m ρ) c 5 k) (iblk0 (V1 m ρ) c 4 k) r q).trans ?_
  unfold uK outK
  refine congrArg₂ (· + ·) (congrArg₂ (· + ·) (Finset.sum_congr rfl fun j _ => ?_) (Finset.sum_congr rfl fun j _ => ?_)) ?_
  · exact congrArg₂ (· * ·)
      ((iblk0_0_read (V1 m ρ) c k r j).trans (congrFun (e_arg0 m ρ c) _))
      ((iblk0_3_read (V1 m ρ) c k j q).trans (e_wsT m ρ c j q))
  · exact congrArg₂ (· * ·)
      (congrArg₂ (· * ·)
        ((iblk0_1_read (V1 m ρ) c k r j).trans (e_msum m ρ c _ j))
        ((iblk0_2_read (V1 m ρ) c k r (0 : Fin 1)).trans (e_invdeg m ρ c _)))
      ((iblk0_5_read (V1 m ρ) c k j q).trans (e_wnT m ρ c j q))
  · exact (iblk0_4_read (V1 m ρ) c k (0 : Fin 1) q).trans (e_bias m ρ c q)

/-- The first output array is u. -/
theorem pre_read (p : Fin 100000) (q : Fin 64) :
    (W2 m ρ c (Proc.devRef .tc main_v21_0) : S100000x64.Idx → EReal) (ix2 p q) = uK m c p q := by
  have e6 := W2_arr m ρ c 6
  refine (congrFun e6 (ix2 p q)).trans ?_
  refine (arr0_6_read (V1 m ρ) c p q).trans ?_
  refine (congrFun (outs6_eq (V1 m ρ) c ⟨p.val / 5000, tileOf_lt p⟩) (ix2 (⟨p.val % 5000, Nat.mod_lt _ (by decide)⟩ : Fin 5000) q)).trans ?_
  refine (pay7_at m ρ c ⟨p.val / 5000, tileOf_lt p⟩ ⟨p.val % 5000, Nat.mod_lt _ (by decide)⟩ q).trans ?_
  exact congrArg (fun x => uK m c x q) (Fin.ext (Nat.div_add_mod' p.val 5000))

/-- The tile totals of u are the tile sums of the tile value. -/
theorem tileTot0_eq (q : Fin 64) : tileTot0 (V1 m ρ) c q = fun k => tileTot (uK m c) k q := funext fun k => by
  unfold tileTot0 tileTot
  exact Finset.sum_congr rfl fun r _ => pay7_at m ρ c (k.cast N_0.symm) r q

theorem tileTot1_eq (q : Fin 64) :
    tileTot1 (V1 m ρ) c q = fun k => tileTot (fun p q => uK m c p q * uK m c p q) k q := funext fun k => by
  unfold tileTot1 tileTot
  exact Finset.sum_congr rfl fun r _ =>
    congrArg₂ (· * ·) (pay7_at m ρ c (k.cast N_0.symm) r q) (pay7_at m ρ c (k.cast N_0.symm) r q)

/-- The first statistics array, summed over its two leading axes. -/
theorem S_read (q : Fin 64) :
    tot (W2 m ρ c (Proc.devRef .tc main_v21_1) : S2x8x64.Idx → EReal) q
      = ∑ cc : Fin 2, ∑ _a : Fin 8, accAt (fun k => tileTot (uK m c) k q) (Ideal.ofBits .f32 0x3E000000#32)
          (cc.val * 10 + 9) (by have := cc.isLt; omega) := by
  refine (tot_eq _ q).trans ?_
  refine Finset.sum_congr rfl fun cc _ => Finset.sum_congr rfl fun a _ => ?_
  have e7 := W2_arr m ρ c 7
  refine (congrFun e7 (ix3 cc a q)).trans ?_
  refine (arr0_7_read (V1 m ρ) c cc a q).trans ?_
  refine (congrFun (outs7_eq (V1 m ρ) c ⟨cc.val * 10 + 9, lastPt_lt cc⟩ (by show (cc.val * 10 + 9) % 10 = 9; omega)) (ix3 (0 : Fin 1) a q)).trans ?_
  refine (pay3_read (acc0 (F := Ideal) (V1 m ρ) c (cc.val * 10 + 9) (lastPt_lt cc)) a q).trans ?_
  refine (acc0_read (V1 m ρ) c (cc.val * 10 + 9) (lastPt_lt cc) a q).trans ?_
  rw [tileTot0_eq m ρ c q]

/-- The second statistics array, summed over its two leading axes. -/
theorem Q_read (q : Fin 64) :
    tot (W2 m ρ c (Proc.devRef .tc main_v21_2) : S2x8x64.Idx → EReal) q
      = ∑ cc : Fin 2, ∑ _a : Fin 8, accAt (fun k => tileTot (fun p q => uK m c p q * uK m c p q) k q)
          (Ideal.ofBits .f32 0x3E000000#32) (cc.val * 10 + 9) (by have := cc.isLt; omega) := by
  refine (tot_eq _ q).trans ?_
  refine Finset.sum_congr rfl fun cc _ => Finset.sum_congr rfl fun a _ => ?_
  have e8 := W2_arr m ρ c 8
  refine (congrFun e8 (ix3 cc a q)).trans ?_
  refine (arr0_8_read (V1 m ρ) c cc a q).trans ?_
  refine (congrFun (outs8_eq (V1 m ρ) c ⟨cc.val * 10 + 9, lastPt_lt cc⟩ (by show (cc.val * 10 + 9) % 10 = 9; omega)) (ix3 (0 : Fin 1) a q)).trans ?_
  refine (pay4_read (acc1 (F := Ideal) (V1 m ρ) c (cc.val * 10 + 9) (lastPt_lt cc)) a q).trans ?_
  refine (acc1_read (V1 m ρ) c (cc.val * 10 + 9) (lastPt_lt cc) a q).trans ?_
  rw [tileTot1_eq m ρ c q]

end Cert.KernelIdeal.KValue

end
-- ==== Proof.KI.Value1.lean ====
/- The value of region 1's output array: one whole-array function of the region's five input arrays, element by
   element — the normalised, scaled, shifted and rectified input, each column with its own four parameters. -/
import proofs.«158367_j15779709845544_2_alg».proof.Proof.KI.R1Body
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem zero_corner : (![0, 0] : Fin 2 → Nat) = fun _ => 0 := funext fun a => by fin_cases a <;> rfl

/-- The grid of region 1 has ten points. -/
theorem grid1_N : grid1.N = 10 := by decide

/-- One element of the result: the input less its column's mean, times the column's inverse deviation, times its scale,
    plus its shift, and the larger of that and zero. -/
def bnRelu (x mu s g b : F .f32) : F .f32 :=
  FloatOps.maximumf (FloatOps.addf (FloatOps.mulf (FloatOps.mulf (FloatOps.subf x mu) s) g) b) (Scalar.ofBits .f32 0x00000000#32)

/-- The whole result array from the whole input array and the four parameter rows, element by element. -/
def G1 (a0 : S50000x128.Idx → Elt F .f32) (a1 a2 a3 a4 : S1x128.Idx → Elt F .f32) : S50000x128.Idx → Elt F .f32 :=
  fun i => bnRelu (a0 i) (a1 (ix2 (0 : Fin 1) (i 1 : Fin 128))) (a2 (ix2 (0 : Fin 1) (i 1 : Fin 128)))
    (a3 (ix2 (0 : Fin 1) (i 1 : Fin 128))) (a4 (ix2 (0 : Fin 1) (i 1 : Fin 128)))

/-- A row broadcast over the block's rows reads, at any element, the row at the element's column. -/
theorem row_read (x : Vec F S1x128 .f32) (j : S5000x128.Idx) :
    broadcastTo S5000x128 x broadcasts_S1x128_S5000x128 j = x (ix2 (0 : Fin 1) (j 1 : Fin 128)) := by
  have e := broadcastTo_1b_ab_apply (a := 5000) (b := 128) x broadcasts_S1x128_S5000x128 (j 0) (j 1)
  exact (congrArg (broadcastTo S5000x128 x broadcasts_S1x128_S5000x128) (eq_ix2 (n0 := 5000) (n1 := 128) j)).trans e

/-- The body's payload, element by element. -/
theorem pay1_apply (x0 : Vec F S5000x128 .f32) (x1 x2 x3 x4 : Vec F S1x128 .f32) (j : S5000x128.Idx) :
    k1_pay1 x0 x1 x2 x3 x4 j = bnRelu (x0 j) (x1 (ix2 (0 : Fin 1) (j 1 : Fin 128))) (x2 (ix2 (0 : Fin 1) (j 1 : Fin 128)))
      (x3 (ix2 (0 : Fin 1) (j 1 : Fin 128))) (x4 (ix2 (0 : Fin 1) (j 1 : Fin 128))) := by
  unfold k1_pay1 bnRelu
  simp only [shapeCast_self]
  show FloatOps.maximumf (FloatOps.addf (FloatOps.mulf (FloatOps.mulf (FloatOps.subf (x0 j) (broadcastTo S5000x128 x1 broadcasts_S1x128_S5000x128 j))
      (broadcastTo S5000x128 x2 broadcasts_S1x128_S5000x128 j)) (broadcastTo S5000x128 x3 broadcasts_S1x128_S5000x128 j))
      (broadcastTo S5000x128 x4 broadcasts_S1x128_S5000x128 j)) (Scalar.ofBits .f32 0x00000000#32) = _
  rw [row_read, row_read, row_read, row_read]

/-- The printed index maps, decided over the grid: the input block moves with the output block, the four rows stay,
    and the output's block index is the point's number. -/
theorem idx_facts1 : ∀ t : Fin cfg1.N, win1_0.index t (0 : Fin 2) = win1_5.index t (0 : Fin 2)
    ∧ win1_0.index t (1 : Fin 2) = win1_5.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 1000000 in
/-- What point `t` writes back is block `t` of `G1` of the input arrays as the region finds them. -/
theorem flushed1_eq (c : Dev nD) (t : Fin cfg1.N) :
    (dat1 V c).flushed 5 t = ((cfg1.win 5).blk t).view.read (Elt F)
      (G1 (V c main_v35) (V c main_v39) (V c main_v43) (V c main_v47) (V c main_v51)) := by
  show (cfg1.win 5).cut (grid1.coords t) ((dat1 V c).after 5 t) = _
  rw [after1_5]
  unfold out1_5
  rw [View.canon_unit_zero zero_corner]
  simp only [View.ld_unit_zero (S := S5000x128) zero_corner, View.ld_unit_zero (S := S1x128) zero_corner]
  obtain ⟨e0, e1, e2, e3, e4, e5, e6, e7, e8, e9, e10, e11⟩ := idx_facts1 t
  funext j
  show k1_pay1 (iblk1 V c 0 t) (iblk1 V c 1 t) (iblk1 V c 2 t) (iblk1 V c 3 t) (iblk1 V c 4 t) j
    = G1 (V c main_v35) (V c main_v39) (V c main_v43) (V c main_v47) (V c main_v51) (((cfg1.win 5).blk t).view.emb j)
  rw [pay1_apply]
  unfold G1
  have a0 : iblk1 V c 0 t j = V c main_v35 (((cfg1.win 5).blk t).view.emb j) := by
    show V c main_v35 (((cfg1.win 0).blk t).view.emb j) = _
    refine congrArg (V c main_v35) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * (j 1).val = win1_5.index t (1 : Fin 2) * 128 + 1 * (j 1).val; omega
  have a1 : iblk1 V c 1 t (ix2 (0 : Fin 1) (j 1 : Fin 128)) = V c main_v39 (ix2 (0 : Fin 1) ((((cfg1.win 5).blk t).view.emb j) 1 : Fin 128)) := by
    show V c main_v39 (((cfg1.win 1).blk t).view.emb (ix2 (0 : Fin 1) (j 1 : Fin 128))) = _
    refine congrArg (V c main_v39) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_5.index t (1 : Fin 2) * 128 + 1 * (j 1).val; omega
  have a2 : iblk1 V c 2 t (ix2 (0 : Fin 1) (j 1 : Fin 128)) = V c main_v43 (ix2 (0 : Fin 1) ((((cfg1.win 5).blk t).view.emb j) 1 : Fin 128)) := by
    show V c main_v43 (((cfg1.win 2).blk t).view.emb (ix2 (0 : Fin 1) (j 1 : Fin 128))) = _
    refine congrArg (V c main_v43) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega
  have a3 : iblk1 V c 3 t (ix2 (0 : Fin 1) (j 1 : Fin 128)) = V c main_v47 (ix2 (0 : Fin 1) ((((cfg1.win 5).blk t).view.emb j) 1 : Fin 128)) := by
    show V c main_v47 (((cfg1.win 3).blk t).view.emb (ix2 (0 : Fin 1) (j 1 : Fin 128))) = _
    refine congrArg (V c main_v47) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have a4 : iblk1 V c 4 t (ix2 (0 : Fin 1) (j 1 : Fin 128)) = V c main_v51 (ix2 (0 : Fin 1) ((((cfg1.win 5).blk t).view.emb j) 1 : Fin 128)) := by
    show V c main_v51 (((cfg1.win 4).blk t).view.emb (ix2 (0 : Fin 1) (j 1 : Fin 128))) = _
    refine congrArg (V c main_v51) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  rw [a0, a1, a2, a3, a4]

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v52).slice (win1_5.rect t)).set ↔ _
  rw [View.set_slice_whole, Rect.mem_set_unit]
  exact Iff.rfl

/-- Every index of the array is in the block of the point numbered by its row's block: row `r` in block `r / 5000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := by show _ < grid1.N; rw [grid1_N]; omega
  refine ⟨⟨(i 0).val / 5000, hN⟩, flush1_5 _, ?_⟩
  rw [mem_blk1]
  obtain ⟨e0, e1, e2, e3, e4, e5, e6, e7, e8, e9, e10, e11⟩ := idx_facts1 ⟨(i 0).val / 5000, hN⟩
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e10]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e11]; omega

/-- THE ARRAY after the region: `G1` of the input arrays as the region finds them, everywhere. -/
theorem arr1_5 (c : Dev nD) : (dat1 V c).arrAt 5 cfg1.N
    = G1 (V c main_v35) (V c main_v39) (V c main_v43) (V c main_v47) (V c main_v51) :=
  (dat1 V c).arrAt_eq_of_cover 5 (G1 (V c main_v35) (V c main_v39) (V c main_v43) (V c main_v47) (V c main_v51))
    (fun t _ => flushed1_eq V c t) cover1

end Cert.KernelIdeal.Hand

end
-- ==== Proof.KI.AggReal.lean ====
import proofs.«158367_j15779709845544_2_alg».proof.Proof.KI.AggDefs
import proofs.«158367_j15779709845544_2_alg».proof.Proof.LibIsReal
import Idealize.ShloMosaic.Lib.IdealHost

/-! # The aggregation sums are real numbers

When every feature is a real number, the sum over the edges landing on a node is a finite sum of reals,
hence real. The degree is a finite sum of ones: real and non-negative. The larger of the degree and one
is therefore real and at least one, so dividing by it stays within the reals. -/

noncomputable section

namespace Cert.KernelIdeal.HostValue

open scoped BigOperators
open Idealize.ShloMosaic Idealize.ShloMosaic.ValueIdx
open Cert.Reals

/-- The neighbour sum of real features is real. -/
theorem aggK_isReal (h : (⟨2, ![100000, 64]⟩ : Shape).Idx → EReal) (hh : ∀ i, IsReal (h i))
    (src dst : IVec ⟨1, ![1600000]⟩ 32) (p : Fin 100000) (j : Fin 64) : IsReal (aggK h src dst p j) :=
  isReal_zero.add (isReal_sum _ _ fun _ _ => hh _)

/-- The degree is real. -/
theorem degK_isReal (dst : IVec ⟨1, ![1600000]⟩ 32) (p : Fin 100000) : IsReal (degK dst p) :=
  isReal_zero.add (isReal_sum _ _ fun _ _ => isReal_one)

/-- The degree is non-negative. -/
theorem degK_nonneg (dst : IVec ⟨1, ![1600000]⟩ 32) (p : Fin 100000) : 0 ≤ degK dst p := by
  unfold degK
  rw [zero_add]
  exact Finset.sum_nonneg fun _ _ => zero_le_one

/-- The larger of the degree and one is real. -/
theorem maxDeg_isReal (dst : IVec ⟨1, ![1600000]⟩ 32) (p : Fin 100000) : IsReal (max (degK dst p) 1) :=
  (degK_isReal dst p).max isReal_one

/-- The larger of the degree and one is at least one. -/
theorem one_le_maxDeg (dst : IVec ⟨1, ![1600000]⟩ 32) (p : Fin 100000) : 1 ≤ max (degK dst p) 1 :=
  le_max_right _ _

/-- The same two facts with the one spelt as the program's 32-bit word. -/
theorem maxDeg_word_isReal (dst : IVec ⟨1, ![1600000]⟩ 32) (p : Fin 100000) :
    IsReal (max (degK dst p) (Ideal.ofBits .f32 0x3F800000#32)) := by
  rw [Ideal.ofBits_one_f32]
  exact maxDeg_isReal dst p

theorem one_le_maxDeg_word (dst : IVec ⟨1, ![1600000]⟩ 32) (p : Fin 100000) :
    1 ≤ max (degK dst p) (Ideal.ofBits .f32 0x3F800000#32) := by
  rw [Ideal.ofBits_one_f32]
  exact one_le_maxDeg dst p

/-- The inverse degree is real. -/
theorem invDeg_isReal (dst : IVec ⟨1, ![1600000]⟩ 32) (p : Fin 100000) :
    IsReal (Ideal.div (Ideal.ofBits .f32 0x3F800000#32) (max (degK dst p) (Ideal.ofBits .f32 0x3F800000#32))) := by
  refine IsReal.div_of_one_le ?_ (one_le_maxDeg_word dst p)
  rw [Ideal.ofBits_one_f32]
  exact isReal_one

end Cert.KernelIdeal.HostValue
-- ==== Proof.LibAbsFinite.lean ====
/- A finiteness test read on the extended reals: the f32 word 0x7F800000 denotes +∞, and an extended real whose absolute
   value (max y (-y)) compares strictly below that word is a real number — it is neither infinity. This is the element
   fact behind a precondition of the form |y| < +∞ at every entry. Nothing here depends on a particular program. -/
import Idealize.ShloMosaic.PureOps.Ideal
import Idealize.ShloMosaic.PureOps.Ideal.Laws
import proofs.«158367_j15779709845544_2_alg».proof.Proof.LibIsReal

noncomputable section

namespace Cert.Lib.AbsFinite

open Idealize.ShloMosaic Cert.Reals

/-- The float word 0x7F800000 denotes +∞. -/
theorem inf_word : Ideal.ofBits .f32 0x7F800000#32 = ⊤ := by simp [Ideal.ofBits, Ideal.ieee]

/-- An extended real whose absolute value compares below the word of +∞ is a real number. -/
theorem isReal_of_abs_lt {y : EReal} (e : Ideal.cmp .olt (max y (-y)) (Ideal.ofBits .f32 0x7F800000#32) = 1#1) : IsReal y := by
  rw [inf_word] at e
  induction y using EReal.rec with
  | bot => simp [Ideal.cmp] at e
  | top => simp [Ideal.cmp] at e
  | coe a => exact ⟨a, rfl⟩

end Cert.Lib.AbsFinite

end
-- ==== Proof.Finite.lean ====
/-
  From the precondition to real entries. The precondition is the conjunction, over the six float
  arguments, of "every entry's absolute value is below the f32 word of +∞"; an extended real whose
  absolute value is below +∞ is neither infinity, so every entry of the six arrays is a real number.
-/
import proofs.«158367_j15779709845544_2_alg».proof.Pre_finite_inputs
import Idealize.ShloMosaic.Lib.ReduceAll
import Idealize.ShloMosaic.Lib.ValueIdx
import Idealize.ShloMosaic.PureOps.Ideal.Laws
import proofs.«158367_j15779709845544_2_alg».proof.Proof.LibIsReal
import proofs.«158367_j15779709845544_2_alg».proof.Proof.LibAbsFinite

noncomputable section

namespace Cert.Pre_finite_inputs.Finite

open Idealize.ShloMosaic Cert.Reals Cert.Pre_finite_inputs

instance : Subsingleton S_.Idx := ⟨fun a b => funext fun d => d.elim0⟩

/-- One entry: if the comparison of its absolute value with the word of +∞ is true, it is real. -/
theorem elem_real {s : Shape} (hb : S_.BroadcastsInDim s (![] : Fin 0 → Fin s.rank)) (x : FVec Ideal s .f32)
    (i : s.Idx)
    (e : cmpf .olt (Host.absf x) (broadcastInDim s ![] hb (constant (F := Ideal) S_ .f32 0x7F800000#32)) i = 1#1) :
    IsReal (x i) :=
  Cert.Lib.AbsFinite.isReal_of_abs_lt (y := x i) e

/-- One array: if the conjunction over all its entries is true, every entry is real. -/
theorem array_real {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
        (cmpf .olt (Host.absf x) (broadcastInDim s ![] hb (constant (F := Ideal) S_ .f32 0x7F800000#32)))
        (constantI S_ 1 1#1) hr hu ValueIdx.ix0 = 1#1) (i : s.Idx) : IsReal (x i) :=
  elem_real hb x i (Host.reduce_andi_all _ _ hr hu ValueIdx.ix0 e i)

variable [Facts]
open Facts

/-- The precondition makes every entry of the six float arguments a real number. -/
theorem reals_of_pre (a0 : FVec Ideal S100000x64 .f32) (a1 : FVec Ideal S64x64 .f32) (a2 : FVec Ideal S64 .f32)
    (a3 : FVec Ideal S64x64 .f32) (a4 a5 : FVec Ideal S64 .f32) (x6 x7 : IVec S1600000 32)
    (h : fn (F := Ideal) a0 a1 a2 a3 a4 a5 x6 x7 = (fun _ => 1#1)) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) := by
  have h0 := congrFun h ValueIdx.ix0
  dsimp only [fn, fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨array_real _ _ _ a0 e0, array_real _ _ _ a1 e1, array_real _ _ _ a2 e2, array_real _ _ _ a3 e3,
    array_real _ _ _ a4 e4, array_real _ _ _ a5 e5⟩

end Cert.Pre_finite_inputs.Finite

end
-- ==== Proof.KI.KValue.lean ====
/-
  The value the kernel leaves in its result. Row `p`, column `q` of the result is row `p / 2`, column
  `(p % 2) * 64 + q` of the second region's array, which holds there the first region's output at row
  `p`, column `q` less the column's mean, times the column's inverse deviation, times the scale, plus the
  shift, cut below at zero — the statistics being the totals, over the two cores and the eight rows, of
  the first region's accumulators divided by the number of rows. That is the kernel's form of the
  normalisation (`normK`) of the kernel's grouping of the affine stage (`outK`); on real inputs it is
  the reference's form of both (KForm.lean).
-/
import proofs.«158367_j15779709845544_2_alg».proof.Defs
import proofs.«158367_j15779709845544_2_alg».proof.Proof.Gen.Pre_finite_inputs
import proofs.«158367_j15779709845544_2_alg».proof.Proof.KI.KValue0
import proofs.«158367_j15779709845544_2_alg».proof.Proof.KI.KValue0R
import proofs.«158367_j15779709845544_2_alg».proof.Proof.KI.Value1
import proofs.«158367_j15779709845544_2_alg».proof.Proof.KI.AggReal
import proofs.«158367_j15779709845544_2_alg».proof.Proof.Finite
import proofs.«158367_j15779709845544_2_alg».proof.Proof.KForm

set_option maxRecDepth 16384

noncomputable section

namespace Cert.KernelIdeal.KValue

open scoped BigOperators
open Idealize.ShloMosaic Idealize.ShloMosaic.TcCoe Idealize.ShloMosaic.ValueIdx Idealize.SL.Sem
open Cert.KernelIdeal Cert.KernelIdeal.Gen Cert.KernelIdeal.GenP Cert.KernelIdeal.Hand Cert.KernelIdeal.HostValue
open Cert.KernelIdeal.PayValue Cert.Sage Cert.Reals

section Pieces

variable (m : (ℓ : Loc nD τ sig) → Buf (Elt Ideal) ℓ) (ρ : Dev nD → PrngReg) (c : Dev nD)

/-! ## Index arithmetic of the two reshapes -/

/-- The wide layout's row holding row `p` of the narrow one. -/
abbrev rOf (p : Fin 100000) : Fin 50000 := ⟨p.val / 2, by have := p.isLt; omega⟩

/-- The wide layout's column holding column `q` of row `p` of the narrow one. -/
abbrev lOf (p : Fin 100000) (q : Fin 64) : Fin 128 := ⟨(p.val % 2) * 64 + q.val, by have := q.isLt; omega⟩

theorem rowEq (p : Fin 100000) (q : Fin 64) :
    (⟨2 * (rOf p).val + (lOf p q).val / 64, by have := p.isLt; have := q.isLt; show 2 * (p.val / 2) + ((p.val % 2) * 64 + q.val) / 64 < 100000; omega⟩ : Fin 100000) = p :=
  Fin.ext (by have := q.isLt; show 2 * (p.val / 2) + ((p.val % 2) * 64 + q.val) / 64 = p.val; omega)

theorem colEq (p : Fin 100000) (q : Fin 64) :
    (⟨(lOf p q).val % 64, Nat.mod_lt _ (by decide)⟩ : Fin 64) = q :=
  Fin.ext (by have := q.isLt; show ((p.val % 2) * 64 + q.val) % 64 = q.val; omega)

/-! ## The two totals the first region leaves -/

/-- The total of the column sums' accumulators. -/
def SK : Fin 64 → EReal := fun q => tot (W2 m ρ c (Proc.devRef .tc main_v21_1) : S2x8x64.Idx → EReal) q

/-- The total of the accumulators of the column sums of squares. -/
def QK : Fin 64 → EReal := fun q => tot (W2 m ρ c (Proc.devRef .tc main_v21_2) : S2x8x64.Idx → EReal) q

/-! ## What the second region finds in its five operands, at the indices one result element reads -/

theorem x_at (p : Fin 100000) (q : Fin 64) :
    (V3 m ρ c main_v35 : S50000x128.Idx → EReal) (ix2 (rOf p) (lOf p q)) = uK m c p q := by
  refine (x2_read (W2 m ρ c) (rOf p) (lOf p q)).trans ?_
  rw [rowEq, colEq]
  exact pre_read m ρ c p q

theorem mean_at (p : Fin 100000) (q : Fin 64) :
    (V3 m ρ c main_v39 : S1x128.Idx → EReal) (ix2 (0 : Fin 1) (lOf p q))
      = Ideal.div (SK m ρ c q) (Ideal.ofBits .f32 0x47C35000#32) := by
  refine (mean2_read (W2 m ρ c) (lOf p q)).trans ?_
  rw [colEq]
  rfl

theorem invstd_at (p : Fin 100000) (q : Fin 64) :
    (V3 m ρ c main_v43 : S1x128.Idx → EReal) (ix2 (0 : Fin 1) (lOf p q))
      = Ideal.rsqrt
          (max (Ideal.div (QK m ρ c q) (Ideal.ofBits .f32 0x47C35000#32)
                - Ideal.div (SK m ρ c q) (Ideal.ofBits .f32 0x47C35000#32)
                  * Ideal.div (SK m ρ c q) (Ideal.ofBits .f32 0x47C35000#32))
               (Ideal.ofBits .f32 0x00000000#32)
            + Ideal.ofBits .f32 0x3727C5AC#32) := by
  refine (invstd2_read (W2 m ρ c) (lOf p q)).trans ?_
  rw [colEq]
  rfl

theorem arg4_kept : (W2 m ρ c (Proc.devRef .tc main_arg4) : S64.Idx → EReal) = A4 m c :=
  (W2_of_ne m ρ c main_arg4 (by decide)).trans (W1_of m ρ c main_arg4 (by decide))

theorem arg5_kept : (W2 m ρ c (Proc.devRef .tc main_arg5) : S64.Idx → EReal) = A5 m c :=
  (W2_of_ne m ρ c main_arg5 (by decide)).trans (W1_of m ρ c main_arg5 (by decide))

theorem gamma_at (p : Fin 100000) (q : Fin 64) :
    (V3 m ρ c main_v47 : S1x128.Idx → EReal) (ix2 (0 : Fin 1) (lOf p q)) = vec (A4 m c) q := by
  refine (gamma2_read (W2 m ρ c) (lOf p q)).trans ?_
  rw [colEq, arg4_kept]
  rfl

theorem beta_at (p : Fin 100000) (q : Fin 64) :
    (V3 m ρ c main_v51 : S1x128.Idx → EReal) (ix2 (0 : Fin 1) (lOf p q)) = vec (A5 m c) q := by
  refine (beta2_read (W2 m ρ c) (lOf p q)).trans ?_
  rw [colEq, arg5_kept]
  rfl

/-! ## The result, element by element, in the kernel's form -/

/-- The second region's array after the region. -/
theorem arr_v52 :
    (W4 m ρ c (Proc.devRef .tc main_v52) : S50000x128.Idx → EReal)
      = G1 (F := Ideal) (V3 m ρ c main_v35) (V3 m ρ c main_v39) (V3 m ρ c main_v43) (V3 m ρ c main_v47) (V3 m ρ c main_v51) :=
  (W4_arr m ρ c 5).trans (arr1_5 (V3 m ρ) c)

/-- Row `p`, column `q` of the result is the kernel's normalisation of the kernel's affine stage. -/
theorem result_at (p : Fin 100000) (q : Fin 64) :
    (W5 m ρ c (Proc.devRef .tc main_v53) : S100000x64.Idx → EReal) (ix2 p q)
      = normK (Ideal.ofBits .f32 0x47C35000#32) (Ideal.ofBits .f32 0x3727C5AC#32) (uK m c) (SK m ρ c) (QK m ρ c)
          (vec (A4 m c)) (vec (A5 m c)) p q := by
  refine (out_read (W4 m ρ c) p q).trans ?_
  rw [arr_v52]
  show bnRelu (F := Ideal) ((V3 m ρ c main_v35 : S50000x128.Idx → EReal) (ix2 (rOf p) (lOf p q)))
      ((V3 m ρ c main_v39 : S1x128.Idx → EReal) (ix2 (0 : Fin 1) (lOf p q)))
      ((V3 m ρ c main_v43 : S1x128.Idx → EReal) (ix2 (0 : Fin 1) (lOf p q)))
      ((V3 m ρ c main_v47 : S1x128.Idx → EReal) (ix2 (0 : Fin 1) (lOf p q)))
      ((V3 m ρ c main_v51 : S1x128.Idx → EReal) (ix2 (0 : Fin 1) (lOf p q))) = _
  rw [x_at, mean_at, invstd_at, gamma_at, beta_at]
  exact normK_zero_word _ _ _ _ _ _ _ p q

end Pieces

/-! ## The result in the reference's form -/

theorem result_fun (m : (ℓ : Loc nD τ sig) → Buf (Elt Ideal) ℓ) (ρ : Dev nD → PrngReg)
    (hpre : Cert.Pre_KernelIdeal (hPre_finite_inputs := Cert.Pre_finite_inputs.Gen.facts) m) (c : Dev nD) :
    (Cert.KernelIdeal.Hand.W5 m ρ c (Proc.devRef .tc main_v53) : S100000x64.Idx → EReal)
      = fun i => normR (Ideal.ofBits .f32 0x47C35000#32) (Ideal.ofBits .f32 0x3727C5AC#32)
          (outR (mat (m ((c.tc : Thread nD τ).loc main_arg0)))
            (aggK (m ((c.tc : Thread nD τ).loc main_arg0)) (m ((c.tc : Thread nD τ).loc main_arg6))
              (m ((c.tc : Thread nD τ).loc main_arg7)))
            (fun p => max (degK (m ((c.tc : Thread nD τ).loc main_arg7)) p) (Ideal.ofBits .f32 0x3F800000#32))
            (fun j q => mat (m ((c.tc : Thread nD τ).loc main_arg1)) q j)
            (fun j q => mat (m ((c.tc : Thread nD τ).loc main_arg3)) q j)
            (vec (m ((c.tc : Thread nD τ).loc main_arg2))))
          (vec (m ((c.tc : Thread nD τ).loc main_arg4))) (vec (m ((c.tc : Thread nD τ).loc main_arg5))) (i 0) (i 1) := by
  obtain ⟨r0, r1, r2, r3, r4, r5⟩ := Cert.Pre_finite_inputs.Finite.reals_of_pre _ _ _ _ _ _ _ _ (hpre c)
  have hform := kernel_form_eq (mat (A0 m c)) (aggK (A0 m c) (X6 m c) (X7 m c)) (invdegK m c)
    (fun p => max (degK (X7 m c) p) oneW) (fun j q => mat (A1 m c) q j) (fun j q => mat (A3 m c) q j)
    (vec (A2 m c)) (vec (A4 m c)) (vec (A5 m c)) (SK m ρ c) (QK m ρ c)
    (fun p j => r0 _) (fun p j => aggK_isReal _ r0 _ _ p j) (fun p => maxDeg_word_isReal _ p)
    (fun p => one_le_maxDeg_word _ p)
    (fun p => congrArg (fun z => Ideal.div z (max (degK (X7 m c) p) oneW)) Cert.Sage.ofBits_one)
    (fun j q => r1 _) (fun j q => r3 _) (fun q => r2 _)
    (fun q => S_read m ρ c q) (fun q => Q_read m ρ c q)
  funext i
  conv_lhs => rw [eq_ix2 i]
  refine (result_at m ρ c (i 0) (i 1)).trans ?_
  exact congrFun (congrFun hform (i 0)) (i 1)

end Cert.KernelIdeal.KValue

end
-- ==== Proof.LibVecScatter.lean ====
/-
  An accumulating scatter into a vector, read at an entry.

  A vector of `N` entries has `E` update values added into it at `E` positions. The positions are an array of shape
  `[E, 1]`: the index vector lies along axis 1 and has the single component that names axis 0 of the vector; there is no
  window axis. For such dimension numbers the scatter adds to entry `n` the update values `j` whose position
  `idx[j, 0]`, read as a signed integer, is exactly `n` (a position outside `[0, N)` names no entry: the update is
  dropped).
-/
import Idealize.ShloMosaic.Lib.ValueIdx
import Idealize.ShloMosaic.PureOps.Contract
import Mathlib.Algebra.BigOperators.Fin

noncomputable section

open scoped BigOperators

namespace Cert.Lib.VecScatter

open Idealize.ShloMosaic Idealize.ShloMosaic.ValueIdx

variable {N E w : Nat}

/-- The position array is read at `[j, 0]`: the update's coordinate, and the one component of the index vector. -/
theorem siIdx1 (d : ScatterDims ⟨1, ![N]⟩ ⟨2, ![E, 1]⟩ ⟨1, ![E]⟩)
    (hu : d.updateWindowDims = []) (hv : d.indexVectorDim = 1)
    (j : (⟨1, ![E]⟩ : Shape).Idx) (c : Fin d.scatterDimsToOperandDims.length) :
    d.siIdx j c = ix2 (j 0) 0 := by
  obtain ⟨uw, iw, sd, iv, wf⟩ := d
  obtain rfl : uw = [] := hu
  obtain rfl : iv = 1 := hv
  funext b; refine Fin.ext ?_
  match b with
  | ⟨0, _⟩ => rfl
  | ⟨1, _⟩ =>
    have hl : sd.length = 1 := by
      have h := wf.2.2.2.2.1
      rw [dif_pos (show (1 : Nat) < 2 by omega)] at h
      exact h
    have h1 : c.val < sd.length := c.isLt
    show c.val = 0
    omega

/-- On the vector's one axis the window starts at the position, read as a signed integer. -/
theorem start1_zero (d : ScatterDims ⟨1, ![N]⟩ ⟨2, ![E, 1]⟩ ⟨1, ![E]⟩)
    (hu : d.updateWindowDims = []) (hs : d.scatterDimsToOperandDims = [0]) (hv : d.indexVectorDim = 1)
    (j : (⟨1, ![E]⟩ : Shape).Idx) (idx : IVec ⟨2, ![E, 1]⟩ w) :
    d.start j idx 0 = (idx (ix2 (j 0) 0)).toInt := by
  have hm : (0 : Fin 1) ∈ d.scatterDimsToOperandDims := by rw [hs]; exact List.mem_singleton.mpr rfl
  unfold ScatterDims.start
  rw [dif_pos hm, siIdx1 d hu hv]
  rfl

/-- The vector's one axis is an inserted axis: its window coordinate is 0. -/
theorem window1_zero (d : ScatterDims ⟨1, ![N]⟩ ⟨2, ![E, 1]⟩ ⟨1, ![E]⟩)
    (hi : d.insertedWindowDims = [0]) (j : (⟨1, ![E]⟩ : Shape).Idx) :
    d.window j 0 = 0 := by
  have hm : (0 : Fin 1) ∉ d.sKept := by
    show (0 : Fin 1) ∉ Shape.kept _ d.insertedWindowDims
    rw [hi]; show (0 : Fin 1) ∉ (List.finRange 1).filter (· ∉ ([0] : List (Fin 1))); decide
  unfold ScatterDims.window
  rw [dif_neg hm]

/-- WHERE AN UPDATE LANDS. Update `j` lands on entry `i` exactly when its position `idx[j, 0]`, read as a signed
    integer, is `i`. (A position that is negative or at least `N` is no entry of the vector: the update lands nowhere.) -/
theorem resultIdx1_eq_some_iff (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (j : (⟨1, ![E]⟩ : Shape).Idx) (idx : IVec ⟨2, ![E, 1]⟩ w) (i : (⟨1, ![N]⟩ : Shape).Idx) :
    d.resultIdx? j idx = some i ↔ (idx (ix2 (j 0) 0)).toInt = ((i 0).val : Int) := by
  have s0 := start1_zero d hu hs hv j idx
  have w0 := window1_zero d hi j
  have hi0 : (i 0).val < N := (i 0).isLt
  unfold ScatterDims.resultIdx?
  constructor
  · intro h
    split at h
    · rename_i hb
      have h' := Option.some.inj h
      have e0 : (d.start j idx 0 + (d.window j 0 : Int)).toNat = (i 0).val := congrArg (fun f => (f 0).val) h'
      have hb0 := (hb 0).1
      rw [s0, w0] at e0 hb0
      omega
    · exact absurd h (by simp)
  · intro hz
    have hall : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [s0, w0]; omega
    rw [dif_pos hall]
    congr 1
    funext a
    refine Fin.ext ?_
    match a with
    | ⟨0, _⟩ =>
      show (d.start j idx 0 + (d.window j 0 : Int)).toNat = (i 0).val
      rw [s0, w0]; omega

/-- THE ACCUMULATING SCATTER READ AT `n`: the vector's entry plus every update value `j` whose position `idx[j, 0]`,
    read as a signed integer, is `n`. -/
theorem scatterAdd1_apply {φ : FTy} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ j ∈ Finset.univ.filter (fun j : Fin E => (idx (ix2 j 0)).toInt = (n.val : Int)), upd (ix1 j) := by
  show x (ix1 n) + _ = x (ix1 n) + _
  congr 1
  refine Finset.sum_nbij' (fun j' : (⟨1, ![E]⟩ : Shape).Idx => (j' 0 : Fin E)) (fun j : Fin E => ix1 j) ?_ ?_ ?_ ?_ ?_
  · intro j' hj'
    have hl := (resultIdx1_eq_some_iff d hu hi hs hv j' idx (ix1 n)).mp (Finset.mem_filter.mp hj').2
    exact Finset.mem_filter.mpr ⟨Finset.mem_univ _, hl⟩
  · intro j hj
    have hr := (Finset.mem_filter.mp hj).2
    exact Finset.mem_filter.mpr ⟨Finset.mem_univ _,
      (resultIdx1_eq_some_iff d hu hi hs hv (ix1 j) idx (ix1 n)).mpr hr⟩
  · intro j' _
    exact (eq_ix1 j').symm
  · intro j _
    rfl
  · intro j' _
    exact congrArg upd (eq_ix1 j')

end Cert.Lib.VecScatter

end
-- ==== Proof.KI.Agg.lean ====
import proofs.«158367_j15779709845544_2_alg».proof.Proof.Gen.ReferenceIdeal.Read
import proofs.«158367_j15779709845544_2_alg».proof.Proof.KI.AggDefs
import proofs.«158367_j15779709845544_2_alg».proof.Proof.LibRowScatter
import proofs.«158367_j15779709845544_2_alg».proof.Proof.LibVecScatter
import Idealize.ShloMosaic.Lib.ValueIdx
import Idealize.ShloMosaic.Lib.Pipeline.Value
import Idealize.ShloMosaic.Lib.IdealHost
import Idealize.ShloMosaic.PureOps.Ideal.Laws

/-! # The reference's neighbour aggregation is the same sums over edges

The reference gathers the source feature row of every edge and adds the `[1600000, 64]` rows into a zero
`[100000, 64]` table at the destination nodes; separately it adds a one per edge into a zero `[100000]`
vector at the destination nodes. Read at an entry these are the sums `aggK` and `degK` over the edges
landing on the node, with the same normalisation and clamping of the source word. -/

noncomputable section

namespace Cert.KernelIdeal.HostValue

open scoped BigOperators
open Idealize.ShloMosaic Idealize.ShloMosaic.ValueIdx
open Cert.ReferenceIdeal Cert.ReferenceIdeal.Gen Cert.ReferenceIdeal.Read

theorem ref_add_congr2 {a b c d : EReal} (h1 : a = c) (h2 : b = d) : a + b = c + d := by rw [h1, h2]

/-- The reference's row-number column at edge `e` is the edge's normalised source word. -/
theorem ref_srcCol_read (a6 : (⟨S1600000, .i32⟩ : BufTy).Contents (Elt Ideal)) (e : Fin 1600000) :
    val_main_v5 (F := Ideal) a6 (ix2 e (0 : Fin 1)) = wrapWord (a6 (ix1 e)) := by
  unfold val_main_v5
  refine (broadcastInDim_apply (s := S1600000) (t := S1600000x1) _ _ _ _ (ix1 e) ?_).trans ?_
  · intro a
    match a with
    | ⟨0, _⟩ => rfl
  rfl

/-- The reference's destination column (feature scatter) at edge `e` is the edge's destination word. -/
theorem ref_dstCol_read (a7 : (⟨S1600000, .i32⟩ : BufTy).Contents (Elt Ideal)) (e : Fin 1600000) :
    val_main_v8 (F := Ideal) a7 (ix2 e (0 : Fin 1)) = a7 (ix1 e) := by
  unfold val_main_v8
  refine broadcastInDim_apply (s := S1600000) (t := S1600000x1) _ _ _ _ (ix1 e) ?_
  intro a
  match a with
  | ⟨0, _⟩ => rfl

/-- The reference's destination column (degree scatter) at edge `e` is the edge's destination word. -/
theorem ref_dstCol_deg_read (a7 : (⟨S1600000, .i32⟩ : BufTy).Contents (Elt Ideal)) (e : Fin 1600000) :
    val_main_v12 (F := Ideal) a7 (ix2 e (0 : Fin 1)) = a7 (ix1 e) := by
  unfold val_main_v12
  refine broadcastInDim_apply (s := S1600000) (t := S1600000x1) _ _ _ _ (ix1 e) ?_
  intro a
  match a with
  | ⟨0, _⟩ => rfl

/-- The reference's gathered rows: edge `e`, feature `j` is the source row's feature. -/
theorem ref_gather_read (a0 : (⟨S100000x64, .f32⟩ : BufTy).Contents (Elt Ideal))
    (a6 : (⟨S1600000, .i32⟩ : BufTy).Contents (Elt Ideal)) (e : Fin 1600000) (j : Fin 64) :
    val_main_v6 (F := Ideal) a0 a6 (ix2 e j) = a0 (ix2 (srcRow a6 e) j) := by
  unfold val_main_v6
  refine (Cert.Lib.RowScatter.gather2_apply gather_S100000x64_S1600000x1_S1600000x64_1_0_n_n_0_1_164
    rfl rfl rfl rfl rfl rfl (by decide) a0 (val_main_v5 (F := Ideal) a6) e j).trans ?_
  unfold srcRow
  rw [ref_srcCol_read]

/-- THE REFERENCE'S NEIGHBOUR SUM at node `p`, feature `j` is `aggK`. -/
theorem ref_msum (a0 : (⟨S100000x64, .f32⟩ : BufTy).Contents (Elt Ideal))
    (a6 a7 : (⟨S1600000, .i32⟩ : BufTy).Contents (Elt Ideal)) (p : Fin 100000) (j : Fin 64) :
    val_main_v9 (F := Ideal) a0 a6 a7 (ix2 p j) = aggK a0 a6 a7 p j := by
  unfold val_main_v9
  refine (Cert.Lib.RowScatter.scatterAdd2_apply scatter_S100000x64_S1600000x1_S1600000x64_1_0_0_1 rfl rfl rfl rfl
    _ _ _ p j).trans ?_
  unfold aggK lands
  refine ref_add_congr2
    ((show val_main_v7 (F := Ideal) (ix2 p j) = Ideal.ofBits .f32 0x00000000#32 from rfl).trans Ideal.ofBits_zero_f32) ?_
  refine Finset.sum_congr (Finset.filter_congr fun e _ => ?_) fun e _ => ref_gather_read a0 a6 e j
  rw [ref_dstCol_read]

/-- THE REFERENCE'S DEGREE at node `p` is `degK`. -/
theorem ref_deg (a7 : (⟨S1600000, .i32⟩ : BufTy).Contents (Elt Ideal)) (p : Fin 100000) :
    val_main_v13 (F := Ideal) a7 (ix1 p) = degK a7 p := by
  unfold val_main_v13
  refine (Cert.Lib.VecScatter.scatterAdd1_apply scatter_S100000_S1600000x1_S1600000_n_0_0_1 rfl rfl rfl rfl
    _ _ _ p).trans ?_
  unfold degK lands
  refine ref_add_congr2
    ((show val_main_v11 (F := Ideal) (ix1 p) = Ideal.ofBits .f32 0x00000000#32 from rfl).trans Ideal.ofBits_zero_f32) ?_
  refine Finset.sum_congr (Finset.filter_congr fun e _ => ?_) fun e _ =>
    (show val_main_v10 (F := Ideal) (ix1 e) = Ideal.ofBits .f32 0x3F800000#32 from rfl).trans Ideal.ofBits_one_f32
  rw [ref_dstCol_deg_read]

end Cert.KernelIdeal.HostValue
-- ==== Proof.RefRead.lean ====
/-
  The reference is the specification: the value the reference program leaves in its result, read
  index by index, is `normR` of `outR` (Spec.lean) of the argument arrays, of the neighbour totals
  (the reference's first accumulation, kept as an array) and of the degrees cut below at one (its second).
  Every stage after the two accumulations reads one element, or one row or column, of its operands; the
  chain of those readings is composed here.
-/
import proofs.«158367_j15779709845544_2_alg».proof.Proof.Gen.ReferenceIdeal.Run
import proofs.«158367_j15779709845544_2_alg».proof.Proof.Gen.ReferenceIdeal.Read
import proofs.«158367_j15779709845544_2_alg».proof.Proof.Spec

noncomputable section

namespace Cert.ReferenceIdeal.RefValue

open scoped BigOperators
open Cert.ReferenceIdeal Cert.ReferenceIdeal.Gen Cert.ReferenceIdeal.Read Idealize.ShloMosaic
  Idealize.ShloMosaic.TcCoe Idealize.SL.Sem Idealize.ShloMosaic.ValueIdx Cert.Sage

variable (a0 : (⟨S100000x64, .f32⟩ : BufTy).Contents (Elt Ideal))
  (a1 : (⟨S64x64, .f32⟩ : BufTy).Contents (Elt Ideal))
  (a2 : (⟨S64, .f32⟩ : BufTy).Contents (Elt Ideal))
  (a3 : (⟨S64x64, .f32⟩ : BufTy).Contents (Elt Ideal))
  (a4 a5 : (⟨S64, .f32⟩ : BufTy).Contents (Elt Ideal))
  (x6 x7 : (⟨S1600000, .i32⟩ : BufTy).Contents (Elt Ideal))

/-- The neighbour totals the reference accumulates, as a matrix. -/
def msumR : Mat 100000 64 := mat (val_main_v9 (F := Ideal) a0 x6 x7)

/-- The degrees the reference accumulates, cut below at one. -/
def degmR : Fin 100000 → EReal :=
  fun p => max (val_main_v13 (F := Ideal) x7 (ix1 p)) (Ideal.ofBits .f32 0x3F800000#32)

/-- The affine stage of the reference: `outR` of the arguments (the two weight matrices transposed). -/
def refOut : Mat 100000 64 :=
  outR (mat a0) (msumR a0 x6 x7) (degmR x7) (fun j q => mat a1 q j) (fun j q => mat a3 q j) (vec a2)

/-- The number of rows and the epsilon, as the reference spells them. -/
abbrev nrW : EReal := Ideal.ofBits .f32 0x47C35000#32
abbrev epsW : EReal := Ideal.ofBits .f32 0x3727C5AC#32

/-! ### Index arithmetic of the layout stages -/

theorem i17 (p : Fin 100000) (j : Fin 64) : idx_main_v16 (idx_main_v17 (ix2 p j)) = ix1 p :=
  funext fun a => match a with | ⟨0, _⟩ => rfl
theorem i19 (j q : Fin 64) : idx_main_v19 (ix2 j q) = ix2 q j :=
  funext fun a => match a with | ⟨0, _⟩ => rfl | ⟨1, _⟩ => rfl
theorem i24 (j q : Fin 64) : idx_main_v24 (ix2 j q) = ix2 q j :=
  funext fun a => match a with | ⟨0, _⟩ => rfl | ⟨1, _⟩ => rfl
theorem l20 (p : Fin 100000) (q k : Fin 64) : lidx_main_v20 (ix2 p q) k = ix2 p k :=
  funext fun a => match a with | ⟨0, _⟩ => rfl | ⟨1, _⟩ => rfl
theorem r20 (p : Fin 100000) (q k : Fin 64) : ridx_main_v20 (ix2 p q) k = ix2 k q :=
  funext fun a => match a with | ⟨0, _⟩ => rfl | ⟨1, _⟩ => rfl
theorem l25 (p : Fin 100000) (q k : Fin 64) : lidx_main_v25 (ix2 p q) k = ix2 p k :=
  funext fun a => match a with | ⟨0, _⟩ => rfl | ⟨1, _⟩ => rfl
theorem r25 (p : Fin 100000) (q k : Fin 64) : ridx_main_v25 (ix2 p q) k = ix2 k q :=
  funext fun a => match a with | ⟨0, _⟩ => rfl | ⟨1, _⟩ => rfl
theorem i22 (p : Fin 100000) (q : Fin 64) : idx_main_v21 (idx_main_v22 (ix2 p q)) = ix1 q :=
  funext fun a => match a with | ⟨0, _⟩ => rfl
theorem i27 (q : Fin 64) (k : Fin 100000) : idx_main_v27 (ix1 q) k = ix2 k q :=
  funext fun a => match a with | ⟨0, _⟩ => rfl | ⟨1, _⟩ => rfl
theorem i34 (q : Fin 64) (k : Fin 100000) : idx_main_v34 (ix1 q) k = ix2 k q :=
  funext fun a => match a with | ⟨0, _⟩ => rfl | ⟨1, _⟩ => rfl
theorem i31 (p : Fin 100000) (q : Fin 64) : idx_main_v30 (idx_main_v31 (ix2 p q)) = ix1 q :=
  funext fun a => match a with | ⟨0, _⟩ => rfl
theorem i38 (p : Fin 100000) (q : Fin 64) : idx_main_v37 (idx_main_v38 (ix2 p q)) = ix1 q :=
  funext fun a => match a with | ⟨0, _⟩ => rfl
theorem i44 (p : Fin 100000) (q : Fin 64) : idx_main_v43 (idx_main_v44 (ix2 p q)) = ix1 q :=
  funext fun a => match a with | ⟨0, _⟩ => rfl
theorem i47 (p : Fin 100000) (q : Fin 64) : idx_main_v46 (idx_main_v47 (ix2 p q)) = ix1 q :=
  funext fun a => match a with | ⟨0, _⟩ => rfl
theorem i50 (p : Fin 100000) (q : Fin 64) : idx_main_v49 (idx_main_v50 (ix2 p q)) = ix1 q :=
  funext fun a => match a with | ⟨0, _⟩ => rfl

/-! ### The affine stage -/

theorem v17_at (p : Fin 100000) (j : Fin 64) : val_main_v17 (F := Ideal) x7 (ix2 p j) = degmR x7 p := by
  rw [val_main_v17_apply, val_main_v16_apply, i17, val_main_v15_apply, val_main_v14_apply, val_main_cst_3_apply]
  rfl

theorem v18_at (p : Fin 100000) (j : Fin 64) :
    val_main_v18 (F := Ideal) a0 x6 x7 (ix2 p j) = Ideal.div (msumR a0 x6 x7 p j) (degmR x7 p) := by
  rw [val_main_v18_apply, v17_at]
  rfl

theorem v19_at (j q : Fin 64) : val_main_v19 (F := Ideal) a1 (ix2 j q) = mat a1 q j := by
  rw [val_main_v19_apply, i19]; rfl

theorem v24_at (j q : Fin 64) : val_main_v24 (F := Ideal) a3 (ix2 j q) = mat a3 q j := by
  rw [val_main_v24_apply, i24]; rfl

theorem v22_at (p : Fin 100000) (q : Fin 64) : val_main_v22 (F := Ideal) a2 (ix2 p q) = vec a2 q := by
  rw [val_main_v22_apply, val_main_v21_apply, i22]; rfl

theorem v26_at (p : Fin 100000) (q : Fin 64) :
    val_main_v26 (F := Ideal) a0 a1 a2 a3 x6 x7 (ix2 p q) = refOut a0 a1 a2 a3 x6 x7 p q := by
  rw [val_main_v26_apply, val_main_v23_apply, val_main_v20_apply, val_main_v25_apply, v22_at]
  have e1 : ∀ k : Fin 64, a0 (lidx_main_v20 (ix2 p q) k) * val_main_v19 (F := Ideal) a1 (ridx_main_v20 (ix2 p q) k)
      = mat a0 p k * mat a1 q k := fun k => by rw [l20, r20, v19_at]; rfl
  have e2 : ∀ k : Fin 64, val_main_v18 (F := Ideal) a0 x6 x7 (lidx_main_v25 (ix2 p q) k)
        * val_main_v24 (F := Ideal) a3 (ridx_main_v25 (ix2 p q) k)
      = Ideal.div (msumR a0 x6 x7 p k) (degmR x7 p) * mat a3 q k := fun k => by rw [l25, r25, v18_at, v24_at]
  simp only [e1, e2]
  rfl

/-! ### The normalisation -/

theorem v27_at (q : Fin 64) :
    val_main_v27 (F := Ideal) a0 a1 a2 a3 x6 x7 (ix1 q) = colTot (refOut a0 a1 a2 a3 x6 x7) q := by
  rw [val_main_v27_apply, val_main_cst_4_apply]
  have e : ∀ k : Fin 100000, val_main_v26 (F := Ideal) a0 a1 a2 a3 x6 x7 (idx_main_v27 (ix1 q) k)
      = refOut a0 a1 a2 a3 x6 x7 k q := fun k => by rw [i27, v26_at]
  simp only [e, Ideal.ofBits_def, Ideal.ofBits_zero_f32, zero_add]
  rfl

/-- The mean of a column, as the reference computes it. -/
theorem v29_at (q : Fin 64) :
    val_main_v29 (F := Ideal) a0 a1 a2 a3 x6 x7 (ix1 q) = Ideal.div (colTot (refOut a0 a1 a2 a3 x6 x7) q) nrW := by
  rw [val_main_v29_apply, v27_at, val_main_v28_apply, val_main_cst_5_apply]
  rfl

theorem v31_at (p : Fin 100000) (q : Fin 64) :
    val_main_v31 (F := Ideal) a0 a1 a2 a3 x6 x7 (ix2 p q) = Ideal.div (colTot (refOut a0 a1 a2 a3 x6 x7) q) nrW := by
  rw [val_main_v31_apply, val_main_v30_apply, i31, v29_at]

theorem v38_at (p : Fin 100000) (q : Fin 64) :
    val_main_v38 (F := Ideal) a0 a1 a2 a3 x6 x7 (ix2 p q) = Ideal.div (colTot (refOut a0 a1 a2 a3 x6 x7) q) nrW := by
  rw [val_main_v38_apply, val_main_v37_apply, i38, v29_at]

theorem v32_at (p : Fin 100000) (q : Fin 64) :
    val_main_v32 (F := Ideal) a0 a1 a2 a3 x6 x7 (ix2 p q)
      = refOut a0 a1 a2 a3 x6 x7 p q - Ideal.div (colTot (refOut a0 a1 a2 a3 x6 x7) q) nrW := by
  rw [val_main_v32_apply, v26_at, v31_at]; rfl

theorem v39_at (p : Fin 100000) (q : Fin 64) :
    val_main_v39 (F := Ideal) a0 a1 a2 a3 x6 x7 (ix2 p q)
      = refOut a0 a1 a2 a3 x6 x7 p q - Ideal.div (colTot (refOut a0 a1 a2 a3 x6 x7) q) nrW := by
  rw [val_main_v39_apply, v26_at, v38_at]; rfl

/-- The variance of a column, as the reference computes it. -/
theorem v36_at (q : Fin 64) :
    val_main_v36 (F := Ideal) a0 a1 a2 a3 x6 x7 (ix1 q)
      = Ideal.div (∑ p', (refOut a0 a1 a2 a3 x6 x7 p' q - Ideal.div (colTot (refOut a0 a1 a2 a3 x6 x7) q) nrW)
          * (refOut a0 a1 a2 a3 x6 x7 p' q - Ideal.div (colTot (refOut a0 a1 a2 a3 x6 x7) q) nrW)) nrW := by
  rw [val_main_v36_apply, val_main_v34_apply, val_main_cst_6_apply, val_main_v35_apply, val_main_cst_7_apply]
  have e : ∀ k : Fin 100000, val_main_v33 (F := Ideal) a0 a1 a2 a3 x6 x7 (idx_main_v34 (ix1 q) k)
      = (refOut a0 a1 a2 a3 x6 x7 k q - Ideal.div (colTot (refOut a0 a1 a2 a3 x6 x7) q) nrW)
        * (refOut a0 a1 a2 a3 x6 x7 k q - Ideal.div (colTot (refOut a0 a1 a2 a3 x6 x7) q) nrW) :=
    fun k => by rw [i34, val_main_v33_apply, v32_at]; rfl
  simp only [e, Ideal.ofBits_def, Ideal.ofBits_zero_f32, zero_add]
  rfl

theorem v44_at (p : Fin 100000) (q : Fin 64) :
    val_main_v44 (F := Ideal) a0 a1 a2 a3 x6 x7 (ix2 p q)
      = Ideal.rsqrt (Ideal.div (∑ p', (refOut a0 a1 a2 a3 x6 x7 p' q - Ideal.div (colTot (refOut a0 a1 a2 a3 x6 x7) q) nrW)
          * (refOut a0 a1 a2 a3 x6 x7 p' q - Ideal.div (colTot (refOut a0 a1 a2 a3 x6 x7) q) nrW)) nrW + epsW) := by
  rw [val_main_v44_apply, val_main_v43_apply, i44, val_main_v42_apply, val_main_v41_apply, v36_at,
    val_main_v40_apply, val_main_cst_8_apply]
  rfl

theorem v47_at (p : Fin 100000) (q : Fin 64) : val_main_v47 (F := Ideal) a4 (ix2 p q) = vec a4 q := by
  rw [val_main_v47_apply, val_main_v46_apply, i47]; rfl

theorem v50_at (p : Fin 100000) (q : Fin 64) : val_main_v50 (F := Ideal) a5 (ix2 p q) = vec a5 q := by
  rw [val_main_v50_apply, val_main_v49_apply, i50]; rfl

/-- The reference's result, at row `p` and column `q`, is the specification's normalisation of its affine
    stage. -/
theorem ref_eq (p : Fin 100000) (q : Fin 64) :
    val_main_v52 (F := Ideal) a0 a1 a2 a3 a4 a5 x6 x7 (ix2 p q)
      = normR nrW epsW (refOut a0 a1 a2 a3 x6 x7) (vec a4) (vec a5) p q := by
  rw [val_main_v52_apply, val_main_v51_apply, val_main_v48_apply, val_main_v45_apply, v39_at, v44_at, v47_at,
    v50_at, val_main_call0_v0_apply, val_main_call0_cst_apply]
  simp only [Ideal.ofBits_def, Ideal.ofBits_zero_f32]
  rfl

/-- The same as an equation between arrays: the reference's result array is the specification read at
    an index's two coordinates. -/
theorem ref_fun :
    val_main_v52 (F := Ideal) a0 a1 a2 a3 a4 a5 x6 x7
      = fun i => normR nrW epsW (refOut a0 a1 a2 a3 x6 x7) (vec a4) (vec a5) (i 0) (i 1) := by
  funext i
  conv_lhs => rw [eq_ix2 i]
  exact ref_eq a0 a1 a2 a3 a4 a5 x6 x7 (i 0) (i 1)

/-- The term the generated run names as the reference's result, at a memory `m`: the specification of
    the argument arrays `m` holds. -/
theorem res_eq (m : (ℓ : Loc nD τ sig) → Buf (Elt Ideal) ℓ) (c : Dev nD) :
    Cert.ReferenceIdeal.Value.res_main_v52 (F := Ideal) m c
      = fun i => normR nrW epsW
          (refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg6)) (m ((c.tc : Thread nD τ).loc main_arg7)))
          (vec (m ((c.tc : Thread nD τ).loc main_arg4))) (vec (m ((c.tc : Thread nD τ).loc main_arg5))) (i 0) (i 1) := by
  rw [val_main_v52_eq]
  exact ref_fun _ _ _ _ _ _ _ _

end Cert.ReferenceIdeal.RefValue

end
-- ==== Proof.Alg.lean ====
/-
  The algebraic claim, assembled. Both programs end with the same array: at row `p`, column `q` the
  reference's normalisation (Spec.lean, `normR`) of the reference's grouping of the affine stage (`outR`)
  of the argument arrays, of the neighbour totals and of the degrees cut below at one, both written as sums
  over the edges. The kernel's run and value supply the first half, the reference's generated run and its
  reading as the specification the second, after the reference's arguments are rewritten to the kernel's.
-/
import proofs.«158367_j15779709845544_2_alg».proof.Defs
import proofs.«158367_j15779709845544_2_alg».proof.Proof.Gen.KernelIdeal
import proofs.«158367_j15779709845544_2_alg».proof.Proof.Gen.ReferenceIdeal
import proofs.«158367_j15779709845544_2_alg».proof.Proof.Gen.Pre_finite_inputs
import proofs.«158367_j15779709845544_2_alg».proof.Proof.Gen.ReferenceIdeal.Run
import proofs.«158367_j15779709845544_2_alg».proof.Proof.KI.Run
import proofs.«158367_j15779709845544_2_alg».proof.Proof.KI.KValue
import proofs.«158367_j15779709845544_2_alg».proof.Proof.KI.Agg
import proofs.«158367_j15779709845544_2_alg».proof.Proof.RefRead

noncomputable section

namespace Cert.Proof.Alg

open Idealize.ShloMosaic Idealize.ShloMosaic.TcCoe Idealize.SL.Sem Idealize.ShloMosaic.ValueIdx Cert.Sage
open Cert.KernelIdeal.HostValue

/-- The array both programs end with, as a function of the eight argument arrays. -/
def G (a0 : (⟨2, ![100000, 64]⟩ : Shape).Idx → EReal) (a1 : (⟨2, ![64, 64]⟩ : Shape).Idx → EReal)
    (a2 : (⟨1, ![64]⟩ : Shape).Idx → EReal) (a3 : (⟨2, ![64, 64]⟩ : Shape).Idx → EReal)
    (a4 a5 : (⟨1, ![64]⟩ : Shape).Idx → EReal) (x6 x7 : IVec ⟨1, ![1600000]⟩ 32) :
    (⟨2, ![100000, 64]⟩ : Shape).Idx → EReal :=
  fun i => normR (Ideal.ofBits .f32 0x47C35000#32) (Ideal.ofBits .f32 0x3727C5AC#32)
    (outR (mat a0) (aggK a0 x6 x7) (fun p => max (degK x7 p) (Ideal.ofBits .f32 0x3F800000#32))
      (fun j q => mat a1 q j) (fun j q => mat a3 q j) (vec a2))
    (vec a4) (vec a5) (i 0) (i 1)

/-- The reference's affine stage is the specification's over the sums over the edges. -/
theorem refOut_eq (a0 : (⟨Cert.ReferenceIdeal.S100000x64, .f32⟩ : BufTy).Contents (Elt Ideal))
    (a1 : (⟨Cert.ReferenceIdeal.S64x64, .f32⟩ : BufTy).Contents (Elt Ideal))
    (a2 : (⟨Cert.ReferenceIdeal.S64, .f32⟩ : BufTy).Contents (Elt Ideal))
    (a3 : (⟨Cert.ReferenceIdeal.S64x64, .f32⟩ : BufTy).Contents (Elt Ideal))
    (x6 x7 : (⟨Cert.ReferenceIdeal.S1600000, .i32⟩ : BufTy).Contents (Elt Ideal)) :
    Cert.ReferenceIdeal.RefValue.refOut a0 a1 a2 a3 x6 x7
      = outR (mat a0) (aggK a0 x6 x7) (fun p => max (degK x7 p) (Ideal.ofBits .f32 0x3F800000#32))
          (fun j q => mat a1 q j) (fun j q => mat a3 q j) (vec a2) := by
  have e1 : Cert.ReferenceIdeal.RefValue.msumR a0 x6 x7 = aggK a0 x6 x7 :=
    funext fun p => funext fun j => ref_msum a0 x6 x7 p j
  have e2 : Cert.ReferenceIdeal.RefValue.degmR x7
      = fun p => max (degK x7 p) (Ideal.ofBits .f32 0x3F800000#32) :=
    funext fun p => congrArg (fun d => max d (Ideal.ofBits .f32 0x3F800000#32)) (ref_deg x7 p)
  unfold Cert.ReferenceIdeal.RefValue.refOut
  rw [e1, e2]

/-- The reference's result array is `G` of the arrays its memory holds. -/
theorem ref_G (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v52 (F := Ideal) m' c
      = G (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) := by
  rw [Cert.ReferenceIdeal.RefValue.res_eq, refOut_eq]
  rfl

/-- The kernel's result array is `G` of the arrays its memory holds. -/
theorem ker_G (m : (ℓ : Loc Cert.KernelIdeal.nD Cert.KernelIdeal.τ Cert.KernelIdeal.sig) → Buf (Elt Ideal) ℓ)
    (ρ : Dev Cert.KernelIdeal.nD → PrngReg)
    (hpre : Cert.Pre_KernelIdeal (hPre_finite_inputs := Cert.Pre_finite_inputs.Gen.facts) m)
    (c : Dev Cert.KernelIdeal.nD) :
    Cert.KernelIdeal.Hand.W5 m ρ c (Proc.devRef .tc Cert.KernelIdeal.main_v53)
      = G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) :=
  Cert.KernelIdeal.KValue.result_fun m ρ hpre c

/-- At the extended reals the kernel and the reference end with the same array, given real inputs that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)), ?_, ?_⟩
  · exact (θ_run (Cert.KernelIdeal.defs (F := Ideal)) _ _).mono (fun r h c =>
      ⟨(h c _ (Cert.KernelIdeal.Hand.mem_uc Cert.KernelIdeal.main_v53 (by decide))).trans (ker_G m ρ hpre c),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c),
       (h c _ (Cert.KernelIdeal.Hand.mem_uc Cert.KernelIdeal.main_arg4 (by decide))).trans (Cert.KernelIdeal.Hand.W5_main_arg4 m ρ c),
       (h c _ (Cert.KernelIdeal.Hand.mem_uc Cert.KernelIdeal.main_arg5 (by decide))).trans (Cert.KernelIdeal.Hand.W5_main_arg5 m ρ c),
       (h c _ (Cert.KernelIdeal.Hand.mem_uc Cert.KernelIdeal.main_arg6 (by decide))).trans (Cert.KernelIdeal.Hand.W5_main_arg6 m ρ c),
       (h c _ (Cert.KernelIdeal.Hand.mem_uc Cert.KernelIdeal.main_arg7 (by decide))).trans (Cert.KernelIdeal.Hand.W5_main_arg7 m ρ c)⟩)
      (Cert.KernelIdeal.Hand.run_all (F := Ideal) m ρ)
  · refine (θ_run (Cert.ReferenceIdeal.defs (F := Ideal)) _ _).mono (fun r h c => ⟨(h c).1.trans ?_, (h c).2⟩)
      (Cert.ReferenceIdeal.Value.run (F := Ideal) m' ρ')
    obtain ⟨e0, e1, e2, e3, e4, e5, e6, e7⟩ := hagree c
    rw [ref_G, e0, e1, e2, e3, e4, e5, e6, e7]

end Cert.Proof.Alg

end
-- ==== Proof.lean ====
/-
  A GraphSAGE layer with batch normalisation: per node, the own features and the mean of the in-neighbours'
  features go through two linear maps, a bias is added, every column is normalised by its mean and variance over all the
  nodes, scaled, shifted and cut at zero.

  The kernel program gathers and scatter-adds on the host (with a ones column that counts the in-degree), runs a first
  grid of 2 × 10 tiles of 5000 rows that stores the linear layer's output and accumulates, per core, the column sums and
  the column sums of squares (each spread over 8 equal rows with the factor 1/8), derives mean and variance on the host
  as  E[x²] − E[x]²  cut at zero, and runs a second grid that normalises a lane-dense reshape of the output.
  The reference computes the same layer with the variance as the mean squared deviation.

  Frames: both kernel programs run as five segments (host stretch, region, host stretch, region, host stretch); the first
  region's invariant tracks its two accumulators from grid point to grid point. The reference's frame is its run.
  Values, on the extended reals: the kernel's result, read segment by segment, is the kernel form of the layer; the
  reference's is the reference form; the two forms agree when every float input is a real number, because then every
  intermediate is a real number, 8 · (x/8) = x, sums may be regrouped and the two variance formulas coincide.
-/
import proofs.«158367_j15779709845544_2_alg».proof.Defs
import proofs.«158367_j15779709845544_2_alg».proof.Proof.Gen.Kernel
import proofs.«158367_j15779709845544_2_alg».proof.Proof.Gen.KernelIdeal
import proofs.«158367_j15779709845544_2_alg».proof.Proof.Gen.ReferenceIdeal
import proofs.«158367_j15779709845544_2_alg».proof.Proof.Gen.Pre_finite_inputs
import proofs.«158367_j15779709845544_2_alg».proof.Proof.K.Run
import proofs.«158367_j15779709845544_2_alg».proof.Proof.Alg
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Alg.algebraic⟩

end Cert.Proof

end
